-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_c_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x1024 : Shape := ⟨3, ![64, 64, 1024]⟩
abbrev S128x64 : Shape := ⟨2, ![128, 64]⟩
abbrev S_ : Shape := ⟨0, ![]⟩

class Facts : Prop where
  bcast_S_S64x64x1024 : S_.BroadcastsInDim S64x64x1024 (![] : Fin 0 → Fin S64x64x1024.rank)
  reducesTo_S64x64x1024_S_d0_1_2 : S64x64x1024.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S64x64x1024 .f32) (main_arg1 : FVec F S128x64 .f32) : IVec S_ 1 :=
  let main_v0 : FVec F S64x64x1024 .f32 := Host.absf main_arg0
  let main_cst : FVec F S_ .f32 := constant S_ .f32 0x7F800000#32
  let main_v1 : FVec F S64x64x1024 .f32 := broadcastInDim S64x64x1024 ![] bcast_S_S64x64x1024 main_cst
  let main_v2 : IVec S64x64x1024 1 := cmpf .olt main_v0 main_v1
  let main_c : IVec S_ 1 := constantI S_ 1 1#1
  let main_v3 : IVec S_ 1 := (fun x v => Host.reduce IntOp.andi x v reducesTo_S64x64x1024_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S64x64x1024 : Shape := ⟨3, ![64, 64, 1024]⟩
abbrev S128x64 : Shape := ⟨2, ![128, 64]⟩
abbrev S4096x1024 : Shape := ⟨2, ![4096, 1024]⟩
abbrev S4096x128x128 : Shape := ⟨3, ![4096, 128, 128]⟩
abbrev S8x1024 : Shape := ⟨2, ![8, 1024]⟩
abbrev S8x128x128 : Shape := ⟨3, ![8, 128, 128]⟩
abbrev S8x1 : Shape := ⟨2, ![8, 1]⟩
abbrev S8x8 : Shape := ⟨2, ![8, 8]⟩
abbrev S8x1032 : Shape := ⟨2, ![8, 1032]⟩
abbrev S8x128x8 : Shape := ⟨3, ![8, 128, 8]⟩
abbrev S8x128x16 : Shape := ⟨3, ![8, 128, 16]⟩
abbrev S8x128x16x1 : Shape := ⟨4, ![8, 128, 16, 1]⟩
abbrev S8x128x16x4 : Shape := ⟨4, ![8, 128, 16, 4]⟩
abbrev S8x128x64 : Shape := ⟨3, ![8, 128, 64]⟩
abbrev S1024x64 : Shape := ⟨2, ![1024, 64]⟩
abbrev S64x128 : Shape := ⟨2, ![64, 128]⟩
abbrev S1024x128 : Shape := ⟨2, ![1024, 128]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S64x64x1024, .f32⟩
  | .hbm, ⟨1, _⟩ => ⟨S128x64, .f32⟩
  | .hbm, ⟨2, _⟩ => ⟨S4096x1024, .f32⟩
  | .hbm, ⟨3, _⟩ => ⟨S4096x128x128, .f32⟩
  | .hbm, ⟨4, _⟩ => ⟨S_, .i32⟩
  | .local _ .vmem, ⟨0, _⟩ => ⟨S8x1024, .f32⟩
  | .local _ .vmem, ⟨1, _⟩ => ⟨S8x1024, .f32⟩
  | .local _ .vmem, ⟨2, _⟩ => ⟨S128x64, .f32⟩
  | .local _ .vmem, ⟨3, _⟩ => ⟨S8x128x128, .f32⟩
  | .local _ .vmem, ⟨4, _⟩ => ⟨S8x128x128, .f32⟩
  | _, _ => ⟨S64x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64x1024_S4096x1024 : S64x64x1024.ShapeCasts S4096x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  rotates_S8x1024_d1 : S8x1024.Rotates 1 none
  slices_S8x1024_o0_1023_S8x1 : S8x1024.Slices ![0, 1023] S8x1
  shapeCasts_S8x1_S8x1 : S8x1.ShapeCasts S8x1
  broadcasts_S8x1_S8x8 : S8x1.Broadcasts S8x8
  concatenates_S8x1024_S8x8_S8x1032_d1 : Shape.Concatenates [S8x1024, S8x8] S8x1032 1
  slices_S8x1032_o0_0_S8x1024 : S8x1032.Slices ![0, 0] S8x1024
  shapeCasts_S8x1024_S8x128x8 : S8x1024.ShapeCasts S8x128x8
  slices_S8x1032_o0_8_S8x1024 : S8x1032.Slices ![0, 8] S8x1024
  concatenates_S8x128x8_S8x128x8_S8x128x16_d2 : Shape.Concatenates [S8x128x8, S8x128x8] S8x128x16 2
  shapeCasts_S8x128x16_S8x128x16x1 : S8x128x16.ShapeCasts S8x128x16x1
  concatenates_S8x128x16x1_S8x128x16x1_S8x128x16x1_S8x128x16x1_S8x128x16x4_d3 : Shape.Concatenates [S8x128x16x1, S8x128x16x1, S8x128x16x1, S8x128x16x1] S8x128x16x4 3
  shapeCasts_S8x128x16x4_S8x128x64 : S8x128x16x4.ShapeCasts S8x128x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S8x128x64_S1024x64 : S8x128x64.ShapeCasts S1024x64
  transposes_S128x64_p1_0_S64x128 : S128x64.Transposes [1, 0] S64x128
  shapeCasts_S1024x128_S8x128x128 : S1024x128.ShapeCasts S8x128x128
  inb_S8x128x128_S8x128x128_0_0_0 : ∀ a, (![0, 0, 0] : Fin 3 → Nat) a + S8x128x128.size a ≤ S8x128x128.size a
  h_S8x128x128 : 0 < S8x128x128.numel
  dot_S1024x64_S64x128_S1024x128_1_0_0_1_n_n_wf : DotDims.WF S1024x64 S64x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S4096x1024.size a
  hwx0_0 : ∀ i : grid0.Coords, EltTy.bits .f32 = 32 ∨ (Rect.block (s := S4096x1024) S8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S4096x128x128.size a
  hwx0_2 : ∀ i : grid0.Coords, EltTy.bits .f32 = 32 ∨ (Rect.block (s := S4096x128x128) S8x128x128.size (cc0_transform_2 i) (hinb0_2 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x64x1024 : Shape := ⟨3, ![64, 64, 1024]⟩
abbrev S128x64 : Shape := ⟨2, ![128, 64]⟩
abbrev S8 : Shape := ⟨1, ![8]⟩
abbrev S128x16 : Shape := ⟨2, ![128, 16]⟩
abbrev S_ : Shape := ⟨0, ![]⟩
abbrev S1 : Shape := ⟨1, ![1]⟩
abbrev S64x64x0 : Shape := ⟨3, ![64, 64, 0]⟩
abbrev S64x64x1023 : Shape := ⟨3, ![64, 64, 1023]⟩
abbrev S64x64x1 : Shape := ⟨3, ![64, 64, 1]⟩
abbrev S64x64x1022 : Shape := ⟨3, ![64, 64, 1022]⟩
abbrev S64x64x2 : Shape := ⟨3, ![64, 64, 2]⟩
abbrev S64x64x1021 : Shape := ⟨3, ![64, 64, 1021]⟩
abbrev S64x64x3 : Shape := ⟨3, ![64, 64, 3]⟩
abbrev S64x64x1020 : Shape := ⟨3, ![64, 64, 1020]⟩
abbrev S64x64x4 : Shape := ⟨3, ![64, 64, 4]⟩
abbrev S64x64x1019 : Shape := ⟨3, ![64, 64, 1019]⟩
abbrev S64x64x5 : Shape := ⟨3, ![64, 64, 5]⟩
abbrev S64x64x1018 : Shape := ⟨3, ![64, 64, 1018]⟩
abbrev S64x64x6 : Shape := ⟨3, ![64, 64, 6]⟩
abbrev S64x64x1017 : Shape := ⟨3, ![64, 64, 1017]⟩
abbrev S64x64x7 : Shape := ⟨3, ![64, 64, 7]⟩
abbrev S64x64x1016 : Shape := ⟨3, ![64, 64, 1016]⟩
abbrev S64x64x8 : Shape := ⟨3, ![64, 64, 8]⟩
abbrev S64x64x1014 : Shape := ⟨3, ![64, 64, 1014]⟩
abbrev S64x64x10 : Shape := ⟨3, ![64, 64, 10]⟩
abbrev S64x64x1012 : Shape := ⟨3, ![64, 64, 1012]⟩
abbrev S64x64x12 : Shape := ⟨3, ![64, 64, 12]⟩
abbrev S64x64x1010 : Shape := ⟨3, ![64, 64, 1010]⟩
abbrev S64x64x14 : Shape := ⟨3, ![64, 64, 14]⟩
abbrev S64x64x1008 : Shape := ⟨3, ![64, 64, 1008]⟩
abbrev S64x64x16 : Shape := ⟨3, ![64, 64, 16]⟩
abbrev S64x64x1004 : Shape := ⟨3, ![64, 64, 1004]⟩
abbrev S64x64x20 : Shape := ⟨3, ![64, 64, 20]⟩
abbrev S64x64x1000 : Shape := ⟨3, ![64, 64, 1000]⟩
abbrev S64x64x24 : Shape := ⟨3, ![64, 64, 24]⟩
abbrev S64x64x996 : Shape := ⟨3, ![64, 64, 996]⟩
abbrev S64x64x28 : Shape := ⟨3, ![64, 64, 28]⟩
abbrev S64x64x1024x1 : Shape := ⟨4, ![64, 64, 1024, 1]⟩
abbrev S64x64x1024x4 : Shape := ⟨4, ![64, 64, 1024, 4]⟩
abbrev S64x64x4x1024 : Shape := ⟨4, ![64, 64, 4, 1024]⟩
abbrev S64x64x4x1 : Shape := ⟨4, ![64, 64, 4, 1]⟩
abbrev S64x64x4x1x8 : Shape := ⟨5, ![64, 64, 4, 1, 8]⟩
abbrev S64x64x4x8 : Shape := ⟨4, ![64, 64, 4, 8]⟩
abbrev S64x64x4x1032 : Shape := ⟨4, ![64, 64, 4, 1032]⟩
abbrev S128x16x1 : Shape := ⟨3, ![128, 16, 1]⟩
abbrev S64x64x4x128x16 : Shape := ⟨5, ![64, 64, 4, 128, 16]⟩
abbrev S64x64x128x16x4 : Shape := ⟨5, ![64, 64, 128, 16, 4]⟩
abbrev S4096x128x64 : Shape := ⟨3, ![4096, 128, 64]⟩
abbrev S4096x128x128 : Shape := ⟨3, ![4096, 128, 128]⟩

abbrev nBuf : Space → Nat
  | .hbm => 422
  | .vmem => 0
  | .smem => 0
  | _ => 0

abbrev hbmTy0_0 (i : Nat) : BufTy := match i % 128 with
  | 0 => ⟨S64x64x1024, .f32⟩
  | 1 => ⟨S128x64, .f32⟩
  | 2 => ⟨S8, .f32⟩
  | 3 => ⟨S8, .f32⟩
  | 4 => ⟨S128x16, .i32⟩
  | 5 => ⟨S128x16, .i1⟩
  | 6 => ⟨S_, .f32⟩
  | 7 => ⟨S64x64x1024, .f32⟩
  | 8 => ⟨S1, .f32⟩
  | 9 => ⟨S_, .f32⟩
  | 10 => ⟨S64x64x1024, .f32⟩
  | 11 => ⟨S64x64x0, .f32⟩
  | 12 => ⟨S64x64x1024, .f32⟩
  | 13 => ⟨S64x64x1024, .f32⟩
  | 14 => ⟨S64x64x1024, .f32⟩
  | 15 => ⟨S64x64x1024, .f32⟩
  | 16 => ⟨S1, .f32⟩
  | 17 => ⟨S_, .f32⟩
  | 18 => ⟨S64x64x1023, .f32⟩
  | 19 => ⟨S64x64x1, .f32⟩
  | 20 => ⟨S64x64x1024, .f32⟩
  | 21 => ⟨S64x64x1024, .f32⟩
  | 22 => ⟨S64x64x1024, .f32⟩
  | 23 => ⟨S64x64x1024, .f32⟩
  | 24 => ⟨S1, .f32⟩
  | 25 => ⟨S_, .f32⟩
  | 26 => ⟨S64x64x1022, .f32⟩
  | 27 => ⟨S64x64x2, .f32⟩
  | 28 => ⟨S64x64x1024, .f32⟩
  | 29 => ⟨S64x64x1024, .f32⟩
  | 30 => ⟨S64x64x1024, .f32⟩
  | 31 => ⟨S64x64x1024, .f32⟩
  | 32 => ⟨S1, .f32⟩
  | 33 => ⟨S_, .f32⟩
  | 34 => ⟨S64x64x1021, .f32⟩
  | 35 => ⟨S64x64x3, .f32⟩
  | 36 => ⟨S64x64x1024, .f32⟩
  | 37 => ⟨S64x64x1024, .f32⟩
  | 38 => ⟨S64x64x1024, .f32⟩
  | 39 => ⟨S64x64x1024, .f32⟩
  | 40 => ⟨S1, .f32⟩
  | 41 => ⟨S_, .f32⟩
  | 42 => ⟨S64x64x1020, .f32⟩
  | 43 => ⟨S64x64x4, .f32⟩
  | 44 => ⟨S64x64x1024, .f32⟩
  | 45 => ⟨S64x64x1024, .f32⟩
  | 46 => ⟨S64x64x1024, .f32⟩
  | 47 => ⟨S64x64x1024, .f32⟩
  | 48 => ⟨S1, .f32⟩
  | 49 => ⟨S_, .f32⟩
  | 50 => ⟨S64x64x1019, .f32⟩
  | 51 => ⟨S64x64x5, .f32⟩
  | 52 => ⟨S64x64x1024, .f32⟩
  | 53 => ⟨S64x64x1024, .f32⟩
  | 54 => ⟨S64x64x1024, .f32⟩
  | 55 => ⟨S64x64x1024, .f32⟩
  | 56 => ⟨S1, .f32⟩
  | 57 => ⟨S_, .f32⟩
  | 58 => ⟨S64x64x1018, .f32⟩
  | 59 => ⟨S64x64x6, .f32⟩
  | 60 => ⟨S64x64x1024, .f32⟩
  | 61 => ⟨S64x64x1024, .f32⟩
  | 62 => ⟨S64x64x1024, .f32⟩
  | 63 => ⟨S64x64x1024, .f32⟩
  | 64 => ⟨S1, .f32⟩
  | 65 => ⟨S_, .f32⟩
  | 66 => ⟨S64x64x1017, .f32⟩
  | 67 => ⟨S64x64x7, .f32⟩
  | 68 => ⟨S64x64x1024, .f32⟩
  | 69 => ⟨S64x64x1024, .f32⟩
  | 70 => ⟨S64x64x1024, .f32⟩
  | 71 => ⟨S64x64x1024, .f32⟩
  | 72 => ⟨S_, .f32⟩
  | 73 => ⟨S64x64x1024, .f32⟩
  | 74 => ⟨S1, .f32⟩
  | 75 => ⟨S_, .f32⟩
  | 76 => ⟨S64x64x1024, .f32⟩
  | 77 => ⟨S64x64x0, .f32⟩
  | 78 => ⟨S64x64x1024, .f32⟩
  | 79 => ⟨S64x64x1024, .f32⟩
  | 80 => ⟨S64x64x1024, .f32⟩
  | 81 => ⟨S64x64x1024, .f32⟩
  | 82 => ⟨S1, .f32⟩
  | 83 => ⟨S_, .f32⟩
  | 84 => ⟨S64x64x1023, .f32⟩
  | 85 => ⟨S64x64x1, .f32⟩
  | 86 => ⟨S64x64x1024, .f32⟩
  | 87 => ⟨S64x64x1024, .f32⟩
  | 88 => ⟨S64x64x1024, .f32⟩
  | 89 => ⟨S64x64x1024, .f32⟩
  | 90 => ⟨S1, .f32⟩
  | 91 => ⟨S_, .f32⟩
  | 92 => ⟨S64x64x1022, .f32⟩
  | 93 => ⟨S64x64x2, .f32⟩
  | 94 => ⟨S64x64x1024, .f32⟩
  | 95 => ⟨S64x64x1024, .f32⟩
  | 96 => ⟨S64x64x1024, .f32⟩
  | 97 => ⟨S64x64x1024, .f32⟩
  | 98 => ⟨S1, .f32⟩
  | 99 => ⟨S_, .f32⟩
  | 100 => ⟨S64x64x1021, .f32⟩
  | 101 => ⟨S64x64x3, .f32⟩
  | 102 => ⟨S64x64x1024, .f32⟩
  | 103 => ⟨S64x64x1024, .f32⟩
  | 104 => ⟨S64x64x1024, .f32⟩
  | 105 => ⟨S64x64x1024, .f32⟩
  | 106 => ⟨S1, .f32⟩
  | 107 => ⟨S_, .f32⟩
  | 108 => ⟨S64x64x1020, .f32⟩
  | 109 => ⟨S64x64x4, .f32⟩
  | 110 => ⟨S64x64x1024, .f32⟩
  | 111 => ⟨S64x64x1024, .f32⟩
  | 112 => ⟨S64x64x1024, .f32⟩
  | 113 => ⟨S64x64x1024, .f32⟩
  | 114 => ⟨S1, .f32⟩
  | 115 => ⟨S_, .f32⟩
  | 116 => ⟨S64x64x1019, .f32⟩
  | 117 => ⟨S64x64x5, .f32⟩
  | 118 => ⟨S64x64x1024, .f32⟩
  | 119 => ⟨S64x64x1024, .f32⟩
  | 120 => ⟨S64x64x1024, .f32⟩
  | 121 => ⟨S64x64x1024, .f32⟩
  | 122 => ⟨S1, .f32⟩
  | 123 => ⟨S_, .f32⟩
  | 124 => ⟨S64x64x1018, .f32⟩
  | 125 => ⟨S64x64x6, .f32⟩
  | 126 => ⟨S64x64x1024, .f32⟩
  | 127 => ⟨S64x64x1024, .f32⟩
  | _ => ⟨S64x64x1024, .f32⟩

abbrev hbmTy0_1 (i : Nat) : BufTy := match i % 128 with
  | 0 => ⟨S64x64x1024, .f32⟩
  | 1 => ⟨S64x64x1024, .f32⟩
  | 2 => ⟨S1, .f32⟩
  | 3 => ⟨S_, .f32⟩
  | 4 => ⟨S64x64x1017, .f32⟩
  | 5 => ⟨S64x64x7, .f32⟩
  | 6 => ⟨S64x64x1024, .f32⟩
  | 7 => ⟨S64x64x1024, .f32⟩
  | 8 => ⟨S64x64x1024, .f32⟩
  | 9 => ⟨S64x64x1024, .f32⟩
  | 10 => ⟨S_, .f32⟩
  | 11 => ⟨S64x64x1024, .f32⟩
  | 12 => ⟨S1, .f32⟩
  | 13 => ⟨S_, .f32⟩
  | 14 => ⟨S64x64x1024, .f32⟩
  | 15 => ⟨S64x64x0, .f32⟩
  | 16 => ⟨S64x64x1024, .f32⟩
  | 17 => ⟨S64x64x1024, .f32⟩
  | 18 => ⟨S64x64x1024, .f32⟩
  | 19 => ⟨S64x64x1024, .f32⟩
  | 20 => ⟨S1, .f32⟩
  | 21 => ⟨S_, .f32⟩
  | 22 => ⟨S64x64x1022, .f32⟩
  | 23 => ⟨S64x64x2, .f32⟩
  | 24 => ⟨S64x64x1024, .f32⟩
  | 25 => ⟨S64x64x1024, .f32⟩
  | 26 => ⟨S64x64x1024, .f32⟩
  | 27 => ⟨S64x64x1024, .f32⟩
  | 28 => ⟨S1, .f32⟩
  | 29 => ⟨S_, .f32⟩
  | 30 => ⟨S64x64x1020, .f32⟩
  | 31 => ⟨S64x64x4, .f32⟩
  | 32 => ⟨S64x64x1024, .f32⟩
  | 33 => ⟨S64x64x1024, .f32⟩
  | 34 => ⟨S64x64x1024, .f32⟩
  | 35 => ⟨S64x64x1024, .f32⟩
  | 36 => ⟨S1, .f32⟩
  | 37 => ⟨S_, .f32⟩
  | 38 => ⟨S64x64x1018, .f32⟩
  | 39 => ⟨S64x64x6, .f32⟩
  | 40 => ⟨S64x64x1024, .f32⟩
  | 41 => ⟨S64x64x1024, .f32⟩
  | 42 => ⟨S64x64x1024, .f32⟩
  | 43 => ⟨S64x64x1024, .f32⟩
  | 44 => ⟨S1, .f32⟩
  | 45 => ⟨S_, .f32⟩
  | 46 => ⟨S64x64x1016, .f32⟩
  | 47 => ⟨S64x64x8, .f32⟩
  | 48 => ⟨S64x64x1024, .f32⟩
  | 49 => ⟨S64x64x1024, .f32⟩
  | 50 => ⟨S64x64x1024, .f32⟩
  | 51 => ⟨S64x64x1024, .f32⟩
  | 52 => ⟨S1, .f32⟩
  | 53 => ⟨S_, .f32⟩
  | 54 => ⟨S64x64x1014, .f32⟩
  | 55 => ⟨S64x64x10, .f32⟩
  | 56 => ⟨S64x64x1024, .f32⟩
  | 57 => ⟨S64x64x1024, .f32⟩
  | 58 => ⟨S64x64x1024, .f32⟩
  | 59 => ⟨S64x64x1024, .f32⟩
  | 60 => ⟨S1, .f32⟩
  | 61 => ⟨S_, .f32⟩
  | 62 => ⟨S64x64x1012, .f32⟩
  | 63 => ⟨S64x64x12, .f32⟩
  | 64 => ⟨S64x64x1024, .f32⟩
  | 65 => ⟨S64x64x1024, .f32⟩
  | 66 => ⟨S64x64x1024, .f32⟩
  | 67 => ⟨S64x64x1024, .f32⟩
  | 68 => ⟨S1, .f32⟩
  | 69 => ⟨S_, .f32⟩
  | 70 => ⟨S64x64x1010, .f32⟩
  | 71 => ⟨S64x64x14, .f32⟩
  | 72 => ⟨S64x64x1024, .f32⟩
  | 73 => ⟨S64x64x1024, .f32⟩
  | 74 => ⟨S64x64x1024, .f32⟩
  | 75 => ⟨S64x64x1024, .f32⟩
  | 76 => ⟨S_, .f32⟩
  | 77 => ⟨S64x64x1024, .f32⟩
  | 78 => ⟨S1, .f32⟩
  | 79 => ⟨S_, .f32⟩
  | 80 => ⟨S64x64x1024, .f32⟩
  | 81 => ⟨S64x64x0, .f32⟩
  | 82 => ⟨S64x64x1024, .f32⟩
  | 83 => ⟨S64x64x1024, .f32⟩
  | 84 => ⟨S64x64x1024, .f32⟩
  | 85 => ⟨S64x64x1024, .f32⟩
  | 86 => ⟨S1, .f32⟩
  | 87 => ⟨S_, .f32⟩
  | 88 => ⟨S64x64x1022, .f32⟩
  | 89 => ⟨S64x64x2, .f32⟩
  | 90 => ⟨S64x64x1024, .f32⟩
  | 91 => ⟨S64x64x1024, .f32⟩
  | 92 => ⟨S64x64x1024, .f32⟩
  | 93 => ⟨S64x64x1024, .f32⟩
  | 94 => ⟨S1, .f32⟩
  | 95 => ⟨S_, .f32⟩
  | 96 => ⟨S64x64x1020, .f32⟩
  | 97 => ⟨S64x64x4, .f32⟩
  | 98 => ⟨S64x64x1024, .f32⟩
  | 99 => ⟨S64x64x1024, .f32⟩
  | 100 => ⟨S64x64x1024, .f32⟩
  | 101 => ⟨S64x64x1024, .f32⟩
  | 102 => ⟨S1, .f32⟩
  | 103 => ⟨S_, .f32⟩
  | 104 => ⟨S64x64x1018, .f32⟩
  | 105 => ⟨S64x64x6, .f32⟩
  | 106 => ⟨S64x64x1024, .f32⟩
  | 107 => ⟨S64x64x1024, .f32⟩
  | 108 => ⟨S64x64x1024, .f32⟩
  | 109 => ⟨S64x64x1024, .f32⟩
  | 110 => ⟨S1, .f32⟩
  | 111 => ⟨S_, .f32⟩
  | 112 => ⟨S64x64x1016, .f32⟩
  | 113 => ⟨S64x64x8, .f32⟩
  | 114 => ⟨S64x64x1024, .f32⟩
  | 115 => ⟨S64x64x1024, .f32⟩
  | 116 => ⟨S64x64x1024, .f32⟩
  | 117 => ⟨S64x64x1024, .f32⟩
  | 118 => ⟨S1, .f32⟩
  | 119 => ⟨S_, .f32⟩
  | 120 => ⟨S64x64x1014, .f32⟩
  | 121 => ⟨S64x64x10, .f32⟩
  | 122 => ⟨S64x64x1024, .f32⟩
  | 123 => ⟨S64x64x1024, .f32⟩
  | 124 => ⟨S64x64x1024, .f32⟩
  | 125 => ⟨S64x64x1024, .f32⟩
  | 126 => ⟨S1, .f32⟩
  | 127 => ⟨S_, .f32⟩
  | _ => ⟨S64x64x1024, .f32⟩

abbrev hbmTy0_2 (i : Nat) : BufTy := match i % 128 with
  | 0 => ⟨S64x64x1012, .f32⟩
  | 1 => ⟨S64x64x12, .f32⟩
  | 2 => ⟨S64x64x1024, .f32⟩
  | 3 => ⟨S64x64x1024, .f32⟩
  | 4 => ⟨S64x64x1024, .f32⟩
  | 5 => ⟨S64x64x1024, .f32⟩
  | 6 => ⟨S1, .f32⟩
  | 7 => ⟨S_, .f32⟩
  | 8 => ⟨S64x64x1010, .f32⟩
  | 9 => ⟨S64x64x14, .f32⟩
  | 10 => ⟨S64x64x1024, .f32⟩
  | 11 => ⟨S64x64x1024, .f32⟩
  | 12 => ⟨S64x64x1024, .f32⟩
  | 13 => ⟨S64x64x1024, .f32⟩
  | 14 => ⟨S_, .f32⟩
  | 15 => ⟨S64x64x1024, .f32⟩
  | 16 => ⟨S1, .f32⟩
  | 17 => ⟨S_, .f32⟩
  | 18 => ⟨S64x64x1024, .f32⟩
  | 19 => ⟨S64x64x0, .f32⟩
  | 20 => ⟨S64x64x1024, .f32⟩
  | 21 => ⟨S64x64x1024, .f32⟩
  | 22 => ⟨S64x64x1024, .f32⟩
  | 23 => ⟨S64x64x1024, .f32⟩
  | 24 => ⟨S1, .f32⟩
  | 25 => ⟨S_, .f32⟩
  | 26 => ⟨S64x64x1020, .f32⟩
  | 27 => ⟨S64x64x4, .f32⟩
  | 28 => ⟨S64x64x1024, .f32⟩
  | 29 => ⟨S64x64x1024, .f32⟩
  | 30 => ⟨S64x64x1024, .f32⟩
  | 31 => ⟨S64x64x1024, .f32⟩
  | 32 => ⟨S1, .f32⟩
  | 33 => ⟨S_, .f32⟩
  | 34 => ⟨S64x64x1016, .f32⟩
  | 35 => ⟨S64x64x8, .f32⟩
  | 36 => ⟨S64x64x1024, .f32⟩
  | 37 => ⟨S64x64x1024, .f32⟩
  | 38 => ⟨S64x64x1024, .f32⟩
  | 39 => ⟨S64x64x1024, .f32⟩
  | 40 => ⟨S1, .f32⟩
  | 41 => ⟨S_, .f32⟩
  | 42 => ⟨S64x64x1012, .f32⟩
  | 43 => ⟨S64x64x12, .f32⟩
  | 44 => ⟨S64x64x1024, .f32⟩
  | 45 => ⟨S64x64x1024, .f32⟩
  | 46 => ⟨S64x64x1024, .f32⟩
  | 47 => ⟨S64x64x1024, .f32⟩
  | 48 => ⟨S1, .f32⟩
  | 49 => ⟨S_, .f32⟩
  | 50 => ⟨S64x64x1008, .f32⟩
  | 51 => ⟨S64x64x16, .f32⟩
  | 52 => ⟨S64x64x1024, .f32⟩
  | 53 => ⟨S64x64x1024, .f32⟩
  | 54 => ⟨S64x64x1024, .f32⟩
  | 55 => ⟨S64x64x1024, .f32⟩
  | 56 => ⟨S1, .f32⟩
  | 57 => ⟨S_, .f32⟩
  | 58 => ⟨S64x64x1004, .f32⟩
  | 59 => ⟨S64x64x20, .f32⟩
  | 60 => ⟨S64x64x1024, .f32⟩
  | 61 => ⟨S64x64x1024, .f32⟩
  | 62 => ⟨S64x64x1024, .f32⟩
  | 63 => ⟨S64x64x1024, .f32⟩
  | 64 => ⟨S1, .f32⟩
  | 65 => ⟨S_, .f32⟩
  | 66 => ⟨S64x64x1000, .f32⟩
  | 67 => ⟨S64x64x24, .f32⟩
  | 68 => ⟨S64x64x1024, .f32⟩
  | 69 => ⟨S64x64x1024, .f32⟩
  | 70 => ⟨S64x64x1024, .f32⟩
  | 71 => ⟨S64x64x1024, .f32⟩
  | 72 => ⟨S1, .f32⟩
  | 73 => ⟨S_, .f32⟩
  | 74 => ⟨S64x64x996, .f32⟩
  | 75 => ⟨S64x64x28, .f32⟩
  | 76 => ⟨S64x64x1024, .f32⟩
  | 77 => ⟨S64x64x1024, .f32⟩
  | 78 => ⟨S64x64x1024, .f32⟩
  | 79 => ⟨S64x64x1024, .f32⟩
  | 80 => ⟨S_, .f32⟩
  | 81 => ⟨S64x64x1024, .f32⟩
  | 82 => ⟨S1, .f32⟩
  | 83 => ⟨S_, .f32⟩
  | 84 => ⟨S64x64x1024, .f32⟩
  | 85 => ⟨S64x64x0, .f32⟩
  | 86 => ⟨S64x64x1024, .f32⟩
  | 87 => ⟨S64x64x1024, .f32⟩
  | 88 => ⟨S64x64x1024, .f32⟩
  | 89 => ⟨S64x64x1024, .f32⟩
  | 90 => ⟨S1, .f32⟩
  | 91 => ⟨S_, .f32⟩
  | 92 => ⟨S64x64x1020, .f32⟩
  | 93 => ⟨S64x64x4, .f32⟩
  | 94 => ⟨S64x64x1024, .f32⟩
  | 95 => ⟨S64x64x1024, .f32⟩
  | 96 => ⟨S64x64x1024, .f32⟩
  | 97 => ⟨S64x64x1024, .f32⟩
  | 98 => ⟨S1, .f32⟩
  | 99 => ⟨S_, .f32⟩
  | 100 => ⟨S64x64x1016, .f32⟩
  | 101 => ⟨S64x64x8, .f32⟩
  | 102 => ⟨S64x64x1024, .f32⟩
  | 103 => ⟨S64x64x1024, .f32⟩
  | 104 => ⟨S64x64x1024, .f32⟩
  | 105 => ⟨S64x64x1024, .f32⟩
  | 106 => ⟨S1, .f32⟩
  | 107 => ⟨S_, .f32⟩
  | 108 => ⟨S64x64x1012, .f32⟩
  | 109 => ⟨S64x64x12, .f32⟩
  | 110 => ⟨S64x64x1024, .f32⟩
  | 111 => ⟨S64x64x1024, .f32⟩
  | 112 => ⟨S64x64x1024, .f32⟩
  | 113 => ⟨S64x64x1024, .f32⟩
  | 114 => ⟨S1, .f32⟩
  | 115 => ⟨S_, .f32⟩
  | 116 => ⟨S64x64x1008, .f32⟩
  | 117 => ⟨S64x64x16, .f32⟩
  | 118 => ⟨S64x64x1024, .f32⟩
  | 119 => ⟨S64x64x1024, .f32⟩
  | 120 => ⟨S64x64x1024, .f32⟩
  | 121 => ⟨S64x64x1024, .f32⟩
  | 122 => ⟨S1, .f32⟩
  | 123 => ⟨S_, .f32⟩
  | 124 => ⟨S64x64x1004, .f32⟩
  | 125 => ⟨S64x64x20, .f32⟩
  | 126 => ⟨S64x64x1024, .f32⟩
  | 127 => ⟨S64x64x1024, .f32⟩
  | _ => ⟨S64x64x1024, .f32⟩

abbrev hbmTy0_3 (i : Nat) : BufTy := match i % 128 with
  | 0 => ⟨S64x64x1024, .f32⟩
  | 1 => ⟨S64x64x1024, .f32⟩
  | 2 => ⟨S1, .f32⟩
  | 3 => ⟨S_, .f32⟩
  | 4 => ⟨S64x64x1000, .f32⟩
  | 5 => ⟨S64x64x24, .f32⟩
  | 6 => ⟨S64x64x1024, .f32⟩
  | 7 => ⟨S64x64x1024, .f32⟩
  | 8 => ⟨S64x64x1024, .f32⟩
  | 9 => ⟨S64x64x1024, .f32⟩
  | 10 => ⟨S1, .f32⟩
  | 11 => ⟨S_, .f32⟩
  | 12 => ⟨S64x64x996, .f32⟩
  | 13 => ⟨S64x64x28, .f32⟩
  | 14 => ⟨S64x64x1024, .f32⟩
  | 15 => ⟨S64x64x1024, .f32⟩
  | 16 => ⟨S64x64x1024, .f32⟩
  | 17 => ⟨S64x64x1024, .f32⟩
  | 18 => ⟨S64x64x1024x1, .f32⟩
  | 19 => ⟨S64x64x1024x1, .f32⟩
  | 20 => ⟨S64x64x1024x1, .f32⟩
  | 21 => ⟨S64x64x1024x1, .f32⟩
  | 22 => ⟨S64x64x1024x4, .f32⟩
  | 23 => ⟨S64x64x4x1024, .f32⟩
  | 24 => ⟨S64x64x4x1, .f32⟩
  | 25 => ⟨S64x64x4x1x8, .f32⟩
  | 26 => ⟨S64x64x4x8, .f32⟩
  | 27 => ⟨S64x64x4x1032, .f32⟩
  | 28 => ⟨S_, .i32⟩
  | 29 => ⟨S128x16, .i32⟩
  | 30 => ⟨S128x16, .i32⟩
  | 31 => ⟨S128x16, .i32⟩
  | 32 => ⟨S128x16x1, .i32⟩
  | 33 => ⟨S64x64x4x128x16, .f32⟩
  | 34 => ⟨S64x64x128x16x4, .f32⟩
  | 35 => ⟨S4096x128x64, .f32⟩
  | 36 => ⟨S4096x128x128, .f32⟩
  | 37 => ⟨S_, .i32⟩
  | _ => ⟨S64x64x1024, .f32⟩

abbrev hbmTy (i : Nat) : BufTy := match i / 128 with
  | 0 => hbmTy0_0 i
  | 1 => hbmTy0_1 i
  | 2 => hbmTy0_2 i
  | 3 => hbmTy0_3 i
  | _ => ⟨S64x64x1024, .f32⟩

abbrev bufTy : (tb : Table) → Fin (tcTables nBuf tb) → BufTy
  | .hbm, ⟨i, _⟩ => hbmTy i
  | _, _ => ⟨S64x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_c : Ref sig .tc := ⟨.hbm, 4, rfl⟩
abbrev main_c_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call2_v0 : Ref sig .tc := ⟨.hbm, 26, rfl⟩
abbrev main_call2_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call3_v0 : Ref sig .tc := ⟨.hbm, 34, rfl⟩
abbrev main_call3_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call4_v0 : Ref sig .tc := ⟨.hbm, 42, rfl⟩
abbrev main_call4_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call5_v0 : Ref sig .tc := ⟨.hbm, 50, rfl⟩
abbrev main_call5_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call6_v0 : Ref sig .tc := ⟨.hbm, 58, rfl⟩
abbrev main_call6_v1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call7_v0 : Ref sig .tc := ⟨.hbm, 66, rfl⟩
abbrev main_call7_v1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call8_v0 : Ref sig .tc := ⟨.hbm, 76, rfl⟩
abbrev main_call8_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call9_v0 : Ref sig .tc := ⟨.hbm, 84, rfl⟩
abbrev main_call9_v1 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call10_v0 : Ref sig .tc := ⟨.hbm, 92, rfl⟩
abbrev main_call10_v1 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call11_v0 : Ref sig .tc := ⟨.hbm, 100, rfl⟩
abbrev main_call11_v1 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call12_v0 : Ref sig .tc := ⟨.hbm, 108, rfl⟩
abbrev main_call12_v1 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call13_v0 : Ref sig .tc := ⟨.hbm, 116, rfl⟩
abbrev main_call13_v1 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call14_v0 : Ref sig .tc := ⟨.hbm, 124, rfl⟩
abbrev main_call14_v1 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call15_v0 : Ref sig .tc := ⟨.hbm, 132, rfl⟩
abbrev main_call15_v1 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call16_v0 : Ref sig .tc := ⟨.hbm, 142, rfl⟩
abbrev main_call16_v1 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_call17_v0 : Ref sig .tc := ⟨.hbm, 150, rfl⟩
abbrev main_call17_v1 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call18_v0 : Ref sig .tc := ⟨.hbm, 158, rfl⟩
abbrev main_call18_v1 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call19_v0 : Ref sig .tc := ⟨.hbm, 166, rfl⟩
abbrev main_call19_v1 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_call20_v0 : Ref sig .tc := ⟨.hbm, 174, rfl⟩
abbrev main_call20_v1 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_call21_v0 : Ref sig .tc := ⟨.hbm, 182, rfl⟩
abbrev main_call21_v1 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_call22_v0 : Ref sig .tc := ⟨.hbm, 190, rfl⟩
abbrev main_call22_v1 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call23_v0 : Ref sig .tc := ⟨.hbm, 198, rfl⟩
abbrev main_call23_v1 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_5 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call24_v0 : Ref sig .tc := ⟨.hbm, 208, rfl⟩
abbrev main_call24_v1 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_call25_v0 : Ref sig .tc := ⟨.hbm, 216, rfl⟩
abbrev main_call25_v1 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_call26_v0 : Ref sig .tc := ⟨.hbm, 224, rfl⟩
abbrev main_call26_v1 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_call27_v0 : Ref sig .tc := ⟨.hbm, 232, rfl⟩
abbrev main_call27_v1 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_call28_v0 : Ref sig .tc := ⟨.hbm, 240, rfl⟩
abbrev main_call28_v1 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_call29_v0 : Ref sig .tc := ⟨.hbm, 248, rfl⟩
abbrev main_call29_v1 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_call30_v0 : Ref sig .tc := ⟨.hbm, 256, rfl⟩
abbrev main_call30_v1 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_call31_v0 : Ref sig .tc := ⟨.hbm, 264, rfl⟩
abbrev main_call31_v1 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_cst_6 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_call32_v0 : Ref sig .tc := ⟨.hbm, 274, rfl⟩
abbrev main_call32_v1 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_call33_v0 : Ref sig .tc := ⟨.hbm, 282, rfl⟩
abbrev main_call33_v1 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_call34_v0 : Ref sig .tc := ⟨.hbm, 290, rfl⟩
abbrev main_call34_v1 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_call35_v0 : Ref sig .tc := ⟨.hbm, 298, rfl⟩
abbrev main_call35_v1 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_call36_v0 : Ref sig .tc := ⟨.hbm, 306, rfl⟩
abbrev main_call36_v1 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_call37_v0 : Ref sig .tc := ⟨.hbm, 314, rfl⟩
abbrev main_call37_v1 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_call38_v0 : Ref sig .tc := ⟨.hbm, 322, rfl⟩
abbrev main_call38_v1 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_call39_v0 : Ref sig .tc := ⟨.hbm, 330, rfl⟩
abbrev main_call39_v1 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_cst_7 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_call40_v0 : Ref sig .tc := ⟨.hbm, 340, rfl⟩
abbrev main_call40_v1 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_call41_v0 : Ref sig .tc := ⟨.hbm, 348, rfl⟩
abbrev main_call41_v1 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_call42_v0 : Ref sig .tc := ⟨.hbm, 356, rfl⟩
abbrev main_call42_v1 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_call43_v0 : Ref sig .tc := ⟨.hbm, 364, rfl⟩
abbrev main_call43_v1 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_call44_v0 : Ref sig .tc := ⟨.hbm, 372, rfl⟩
abbrev main_call44_v1 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_call45_v0 : Ref sig .tc := ⟨.hbm, 380, rfl⟩
abbrev main_call45_v1 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_call46_v0 : Ref sig .tc := ⟨.hbm, 388, rfl⟩
abbrev main_call46_v1 : Ref sig .tc := ⟨.hbm, 389, rfl⟩
abbrev main_v284 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_call47_v0 : Ref sig .tc := ⟨.hbm, 396, rfl⟩
abbrev main_call47_v1 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_v302 : Ref sig .tc := ⟨.hbm, 410, rfl⟩
abbrev main_v303 : Ref sig .tc := ⟨.hbm, 411, rfl⟩
abbrev main_c_8 : Ref sig .tc := ⟨.hbm, 412, rfl⟩
abbrev main_v304 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_c_9 : Ref sig .tc := ⟨.hbm, 421, rfl⟩

abbrev nD : Nat := 1
abbrev τ : Topo := Topo.v7x

variable {F : FTy → Type} [FloatOps F]

class Facts₀ : Prop where
  bcast_S_S64x64x1024 : S_.BroadcastsInDim S64x64x1024 (![] : Fin 0 → Fin S64x64x1024.rank)
  slices_S8_S1_0 : S8.Slices ![0] S1
  shapeCasts_S1_S_ : S1.ShapeCasts S_
  slices_S64x64x1024_S64x64x1024_0_0_0 : S64x64x1024.Slices ![0, 0, 0] S64x64x1024
  slices_S64x64x1024_S64x64x0_0_0_0 : S64x64x1024.Slices ![0, 0, 0] S64x64x0
  concatenates_S64x64x1024_S64x64x0_S64x64x1024_d2 : Shape.Concatenates [S64x64x1024, S64x64x0] S64x64x1024 2
  slices_S8_S1_1 : S8.Slices ![1] S1
  slices_S64x64x1024_S64x64x1023_0_0_1 : S64x64x1024.Slices ![0, 0, 1] S64x64x1023
  slices_S64x64x1024_S64x64x1_0_0_0 : S64x64x1024.Slices ![0, 0, 0] S64x64x1
  concatenates_S64x64x1023_S64x64x1_S64x64x1024_d2 : Shape.Concatenates [S64x64x1023, S64x64x1] S64x64x1024 2
  slices_S8_S1_2 : S8.Slices ![2] S1
  slices_S64x64x1024_S64x64x1022_0_0_2 : S64x64x1024.Slices ![0, 0, 2] S64x64x1022
  slices_S64x64x1024_S64x64x2_0_0_0 : S64x64x1024.Slices ![0, 0, 0] S64x64x2
  concatenates_S64x64x1022_S64x64x2_S64x64x1024_d2 : Shape.Concatenates [S64x64x1022, S64x64x2] S64x64x1024 2
  slices_S8_S1_3 : S8.Slices ![3] S1
  slices_S64x64x1024_S64x64x1021_0_0_3 : S64x64x1024.Slices ![0, 0, 3] S64x64x1021
  slices_S64x64x1024_S64x64x3_0_0_0 : S64x64x1024.Slices ![0, 0, 0] S64x64x3
  concatenates_S64x64x1021_S64x64x3_S64x64x1024_d2 : Shape.Concatenates [S64x64x1021, S64x64x3] S64x64x1024 2
  slices_S8_S1_4 : S8.Slices ![4] S1
  slices_S64x64x1024_S64x64x1020_0_0_4 : S64x64x1024.Slices ![0, 0, 4] S64x64x1020
  slices_S64x64x1024_S64x64x4_0_0_0 : S64x64x1024.Slices ![0, 0, 0] S64x64x4
  concatenates_S64x64x1020_S64x64x4_S64x64x1024_d2 : Shape.Concatenates [S64x64x1020, S64x64x4] S64x64x1024 2
  slices_S8_S1_5 : S8.Slices ![5] S1
  slices_S64x64x1024_S64x64x1019_0_0_5 : S64x64x1024.Slices ![0, 0, 5] S64x64x1019
  slices_S64x64x1024_S64x64x5_0_0_0 : S64x64x1024.Slices ![0, 0, 0] S64x64x5
  concatenates_S64x64x1019_S64x64x5_S64x64x1024_d2 : Shape.Concatenates [S64x64x1019, S64x64x5] S64x64x1024 2
  slices_S8_S1_6 : S8.Slices ![6] S1
  slices_S64x64x1024_S64x64x1018_0_0_6 : S64x64x1024.Slices ![0, 0, 6] S64x64x1018
  slices_S64x64x1024_S64x64x6_0_0_0 : S64x64x1024.Slices ![0, 0, 0] S64x64x6
  concatenates_S64x64x1018_S64x64x6_S64x64x1024_d2 : Shape.Concatenates [S64x64x1018, S64x64x6] S64x64x1024 2
  slices_S8_S1_7 : S8.Slices ![7] S1
  slices_S64x64x1024_S64x64x1017_0_0_7 : S64x64x1024.Slices ![0, 0, 7] S64x64x1017
  slices_S64x64x1024_S64x64x7_0_0_0 : S64x64x1024.Slices ![0, 0, 0] S64x64x7
  concatenates_S64x64x1017_S64x64x7_S64x64x1024_d2 : Shape.Concatenates [S64x64x1017, S64x64x7] S64x64x1024 2
  slices_S64x64x1024_S64x64x1016_0_0_8 : S64x64x1024.Slices ![0, 0, 8] S64x64x1016
  slices_S64x64x1024_S64x64x8_0_0_0 : S64x64x1024.Slices ![0, 0, 0] S64x64x8
  concatenates_S64x64x1016_S64x64x8_S64x64x1024_d2 : Shape.Concatenates [S64x64x1016, S64x64x8] S64x64x1024 2
  slices_S64x64x1024_S64x64x1014_0_0_10 : S64x64x1024.Slices ![0, 0, 10] S64x64x1014
  slices_S64x64x1024_S64x64x10_0_0_0 : S64x64x1024.Slices ![0, 0, 0] S64x64x10
  concatenates_S64x64x1014_S64x64x10_S64x64x1024_d2 : Shape.Concatenates [S64x64x1014, S64x64x10] S64x64x1024 2
  slices_S64x64x1024_S64x64x1012_0_0_12 : S64x64x1024.Slices ![0, 0, 12] S64x64x1012
  slices_S64x64x1024_S64x64x12_0_0_0 : S64x64x1024.Slices ![0, 0, 0] S64x64x12
  concatenates_S64x64x1012_S64x64x12_S64x64x1024_d2 : Shape.Concatenates [S64x64x1012, S64x64x12] S64x64x1024 2
  slices_S64x64x1024_S64x64x1010_0_0_14 : S64x64x1024.Slices ![0, 0, 14] S64x64x1010
  slices_S64x64x1024_S64x64x14_0_0_0 : S64x64x1024.Slices ![0, 0, 0] S64x64x14
  concatenates_S64x64x1010_S64x64x14_S64x64x1024_d2 : Shape.Concatenates [S64x64x1010, S64x64x14] S64x64x1024 2
  slices_S64x64x1024_S64x64x1008_0_0_16 : S64x64x1024.Slices ![0, 0, 16] S64x64x1008
  slices_S64x64x1024_S64x64x16_0_0_0 : S64x64x1024.Slices ![0, 0, 0] S64x64x16
  concatenates_S64x64x1008_S64x64x16_S64x64x1024_d2 : Shape.Concatenates [S64x64x1008, S64x64x16] S64x64x1024 2
  slices_S64x64x1024_S64x64x1004_0_0_20 : S64x64x1024.Slices ![0, 0, 20] S64x64x1004
  slices_S64x64x1024_S64x64x20_0_0_0 : S64x64x1024.Slices ![0, 0, 0] S64x64x20
  concatenates_S64x64x1004_S64x64x20_S64x64x1024_d2 : Shape.Concatenates [S64x64x1004, S64x64x20] S64x64x1024 2
  slices_S64x64x1024_S64x64x1000_0_0_24 : S64x64x1024.Slices ![0, 0, 24] S64x64x1000
  slices_S64x64x1024_S64x64x24_0_0_0 : S64x64x1024.Slices ![0, 0, 0] S64x64x24
  concatenates_S64x64x1000_S64x64x24_S64x64x1024_d2 : Shape.Concatenates [S64x64x1000, S64x64x24] S64x64x1024 2
  slices_S64x64x1024_S64x64x996_0_0_28 : S64x64x1024.Slices ![0, 0, 28] S64x64x996
  slices_S64x64x1024_S64x64x28_0_0_0 : S64x64x1024.Slices ![0, 0, 0] S64x64x28
  concatenates_S64x64x996_S64x64x28_S64x64x1024_d2 : Shape.Concatenates [S64x64x996, S64x64x28] S64x64x1024 2
  bcast_S64x64x1024_S64x64x1024x1_0_1_2 : S64x64x1024.BroadcastsInDim S64x64x1024x1 (![0, 1, 2] : Fin 3 → Fin S64x64x1024x1.rank)
  concatenates_S64x64x1024x1_S64x64x1024x1_S64x64x1024x1_S64x64x1024x1_S64x64x1024x4_d3 : Shape.Concatenates [S64x64x1024x1, S64x64x1024x1, S64x64x1024x1, S64x64x1024x1] S64x64x1024x4 3
  transposes_S64x64x1024x4_S64x64x4x1024_0_1_3_2 : S64x64x1024x4.Transposes [0, 1, 3, 2] S64x64x4x1024
  slices_S64x64x4x1024_S64x64x4x1_0_0_0_1023 : S64x64x4x1024.Slices ![0, 0, 0, 1023] S64x64x4x1
  bcast_S64x64x4x1_S64x64x4x1x8_0_1_2_3 : S64x64x4x1.BroadcastsInDim S64x64x4x1x8 (![0, 1, 2, 3] : Fin 4 → Fin S64x64x4x1x8.rank)
  shapeCasts_S64x64x4x1x8_S64x64x4x8 : S64x64x4x1x8.ShapeCasts S64x64x4x8
  concatenates_S64x64x4x1024_S64x64x4x8_S64x64x4x1032_d3 : Shape.Concatenates [S64x64x4x1024, S64x64x4x8] S64x64x4x1032 3
  bcast_S_S128x16 : S_.BroadcastsInDim S128x16 (![] : Fin 0 → Fin S128x16.rank)
  bcast_S128x16_S128x16x1_0_1 : S128x16.BroadcastsInDim S128x16x1 (![0, 1] : Fin 2 → Fin S128x16x1.rank)
  transposes_S64x64x4x128x16_S64x64x128x16x4_0_1_3_4_2 : S64x64x4x128x16.Transposes [0, 1, 3, 4, 2] S64x64x128x16x4
  shapeCasts_S64x64x128x16x4_S4096x128x64 : S64x64x128x16x4.ShapeCasts S4096x128x64
  gather_S64x64x4x1032_S128x16x1_S64x64x4x128x16_012_3_n_n_3_2_646441_wf : GatherDims.WF S64x64x4x1032 S128x16x1 S64x64x4x128x16 [0, 1, 2] [3] [] [3] [] 2 ![64, 64, 4, 1]
  dot_S4096x128x64_S128x64_S4096x128x128_2_1_01_0_n_n_wf : DotDims.WF S4096x128x64 S128x64 S4096x128x128 [2] [1] [0, 1] [0] [] []

variable [Facts₀]

def gather_S64x64x4x1032_S128x16x1_S64x64x4x128x16_012_3_n_n_3_2_646441 : GatherDims S64x64x4x1032 S128x16x1 S64x64x4x128x16 where
  offsetDims := [0, 1, 2]
  collapsedSliceDims := [3]
  operandBatchingDims := []
  startIndicesBatchingDims := []
  startIndexMap := [3]
  indexVectorDim := 2
  sliceSizes := ![64, 64, 4, 1]
  wf := gather_S64x64x4x1032_S128x16x1_S64x64x4x128x16_012_3_n_n_3_2_646441_wf
def dot_S4096x128x64_S128x64_S4096x128x128_2_1_01_0_n_n : DotDims S4096x128x64 S128x64 S4096x128x128 where
  lhsContracting := [2]
  rhsContracting := [1]
  lhsNonContracting := [0, 1]
  rhsNonContracting := [0]
  lhsBatch := []
  rhsBatch := []
  wf := dot_S4096x128x64_S128x64_S4096x128x128_2_1_01_0_n_n_wf

class Facts : Prop extends Facts₀ where

variable [Facts]
-- ==== Proof.Spec.lean ====
/-
  The mathematics both programs compute, as ONE function of the two argument arrays.

  A signal row `v` of 1024 samples is decomposed by three levels of an undecimated (à trous) wavelet transform with
  periodic boundary: at dilation `d` the filtered row at sample `t` is the eight-tap correlation
  `z + h 0 · v t + h 1 · v (t + d) + … + h 7 · v (t + 7 d)`, positions taken round the circle of 1024, the sum taken
  in tap order from the zero `z`. The high-pass taps give the detail rows, the low-pass taps the approximation rows,
  and each level filters the previous level's approximation at twice the dilation (1, 2, 4). Four rows are kept — the
  last approximation and the three details, coarsest first — each continued past its end by eight copies of its last
  sample. Patch `p` (of 128) is the window of sixteen samples starting at `8 p` of each continued row; its sixty-four
  features are those samples channel-fastest (feature `4 l + c` is sample `l` of channel `c`). The result at
  (row `r`, patch `p`, output `d`) is the inner product of the patch's features with row `d` of the weight matrix.
  Row `r` of the 4096 rows is row `r % 64` of slab `r / 64` of the 64 × 64 × 1024 input.
  The float words are kept as words (the same word on both sides is never evaluated).
-/
import Idealize.ShloMosaic.PureOps.Ideal
import Idealize.ShloMosaic.Lib.ValueIdx

noncomputable section

open scoped BigOperators

namespace Cert.Wavelet

open Idealize.ShloMosaic Idealize.ShloMosaic.ValueIdx

/-- A signal row: 1024 samples. -/
abbrev Row := Fin 1024 → EReal

/-- Sample position `t` moved `s` places round the circle of 1024. -/
def rot (s : ℕ) (t : Fin 1024) : Fin 1024 := ⟨(t.val + s) % 1024, Nat.mod_lt _ (by norm_num)⟩

/-- The zero every filter's sum starts from. -/
def z : EReal := Ideal.ofBits .f32 0x00000000#32

/-- The eight high-pass taps, in tap order. -/
def hi : Fin 8 → EReal :=
  ![Ideal.ofBits .f32 0x3E26CFB5#32, Ideal.ofBits .f32 0xBF0166AB#32, Ideal.ofBits .f32 0x3EE4673A#32, Ideal.ofBits .f32 0x3CA2196C#32,
    Ideal.ofBits .f32 0xBE076D7C#32, Ideal.ofBits .f32 0xBCB2A702#32, Ideal.ofBits .f32 0x3CBE7A8F#32, Ideal.ofBits .f32 0x3BF58BFD#32]

/-- The eight low-pass taps, in tap order. -/
def lo : Fin 8 → EReal :=
  ![Ideal.ofBits .f32 0xBBF58BFD#32, Ideal.ofBits .f32 0x3CBE7A8F#32, Ideal.ofBits .f32 0x3CB2A702#32, Ideal.ofBits .f32 0xBE076D7C#32,
    Ideal.ofBits .f32 0xBCA2196C#32, Ideal.ofBits .f32 0x3EE4673A#32, Ideal.ofBits .f32 0x3F0166AB#32, Ideal.ofBits .f32 0x3E26CFB5#32]

/-- The periodic eight-tap correlation of a row with taps `h` at dilation `d`, summed in tap order from `z`. -/
def filt (h : Fin 8 → EReal) (d : ℕ) (v : Row) : Row := fun t =>
  z + h 0 * v t + h 1 * v (rot (1 * d) t) + h 2 * v (rot (2 * d) t) + h 3 * v (rot (3 * d) t)
    + h 4 * v (rot (4 * d) t) + h 5 * v (rot (5 * d) t) + h 6 * v (rot (6 * d) t) + h 7 * v (rot (7 * d) t)

/-- Level-1 detail and approximation, then levels 2 and 3 on the previous approximation. -/
def cD1 (v : Row) : Row := filt hi 1 v
def cA1 (v : Row) : Row := filt lo 1 v
def cD2 (v : Row) : Row := filt hi 2 (cA1 v)
def cA2 (v : Row) : Row := filt lo 2 (cA1 v)
def cD3 (v : Row) : Row := filt hi 4 (cA2 v)
def cA3 (v : Row) : Row := filt lo 4 (cA2 v)

/-- The four kept rows, coarsest first: the last approximation, then the details of levels 3, 2, 1. -/
def chan (c : Fin 4) (v : Row) : Row :=
  match c with
  | 0 => cA3 v
  | 1 => cD3 v
  | 2 => cD2 v
  | 3 => cD1 v

/-- A row continued past its end by its last sample: position `u` (below 1032 where it is used). -/
def padded (w : Row) (u : ℕ) : EReal := if h : u < 1024 then w ⟨u, h⟩ else w ⟨1023, by norm_num⟩

/-- Feature `f = 4 l + c` of patch `p`: sample `8 p + l` of the continued channel `c`. -/
def feat (v : Row) (p : Fin 128) (f : Fin 64) : EReal :=
  padded (chan ⟨f.val % 4, Nat.mod_lt _ (by norm_num)⟩ v) (8 * p.val + f.val / 4)

/-- Row `r` of the 4096 rows of the input: row `r % 64` of slab `r / 64`. -/
def rowOf (x : (⟨3, ![64, 64, 1024]⟩ : Shape).Idx → EReal) (r : Fin 4096) : Row := fun t =>
  x (ix3 (⟨r.val / 64, by have := r.isLt; omega⟩ : Fin 64) (⟨r.val % 64, Nat.mod_lt _ (by norm_num)⟩ : Fin 64) t)

/-- The result at (row, patch, output): the patch's features against the output's weight row. -/
def Gat (x : (⟨3, ![64, 64, 1024]⟩ : Shape).Idx → EReal) (W : (⟨2, ![128, 64]⟩ : Shape).Idx → EReal)
    (r : Fin 4096) (p : Fin 128) (d : Fin 128) : EReal :=
  ∑ f : Fin 64, feat (rowOf x r) p f * W (ix2 d f)

/-- The whole result array. -/
def G (x : (⟨3, ![64, 64, 1024]⟩ : Shape).Idx → EReal) (W : (⟨2, ![128, 64]⟩ : Shape).Idx → EReal) :
    (⟨3, ![4096, 128, 128]⟩ : Shape).Idx → EReal :=
  fun i => Gat x W (i 0) (i 1) (i 2)

theorem G_ix3 (x : (⟨3, ![64, 64, 1024]⟩ : Shape).Idx → EReal) (W : (⟨2, ![128, 64]⟩ : Shape).Idx → EReal)
    (r : Fin 4096) (p : Fin 128) (d : Fin 128) : G x W (ix3 r p d) = Gat x W r p d := rfl

end Cert.Wavelet

end
-- ==== Proof.KRows.lean ====
/-
  The launched input seen as 4096 rows of 1024 samples.

  The program's first host operation reshapes the 64 × 64 × 1024 argument to 4096 × 1024. Row-major order is kept, so
  row `R` of the reshaped array is row `R % 64` of slab `R / 64` of the argument: the signal row `Cert.Wavelet.rowOf x R`.
  Also here: the grid point whose block of eight rows holds row `R` is `R / 8`, and the row is row `R % 8` of that block.
-/
import proofs.«153623_j3599182594828_2_alg».proof.Proof.Gen.KernelIdeal
import proofs.«153623_j3599182594828_2_alg».proof.Proof.Spec
import Idealize.ShloMosaic.Lib.Pipeline.Value

noncomputable section

namespace Cert.KernelIdeal.KValue

open Cert.KernelIdeal Cert.KernelIdeal.Gen Idealize.ShloMosaic Idealize.ShloMosaic.ValueIdx

/-- The reshaped input at (row `R`, sample `s`) is sample `s` of the signal row `R` of the argument. -/
theorem reshape_row {α : Type} (x : S64x64x1024.Idx → α) (R : Fin 4096) (s : Fin 1024) :
    shapeCast S4096x1024 x shapeCasts_S64x64x1024_S4096x1024 (ix2 R s)
      = x (ix3 (⟨R.val / 64, by have := R.isLt; omega⟩ : Fin 64) (⟨R.val % 64, Nat.mod_lt _ (by norm_num)⟩ : Fin 64) s) := by
  refine shapeCast_apply x _ (ix2 R s) _ ?_
  rw [Shape.rowMajor_val_three, Shape.rowMajor_val_two]
  show (R.val / 64 * 64 + R.val % 64) * 1024 + s.val = R.val * 1024 + s.val
  have := Nat.div_add_mod R.val 64
  omega

/-- The same, as the specification's signal row. -/
theorem reshape_rowOf (x : S64x64x1024.Idx → EReal) (R : Fin 4096) (s : Fin 1024) :
    shapeCast S4096x1024 x shapeCasts_S64x64x1024_S4096x1024 (ix2 R s) = Cert.Wavelet.rowOf x R s :=
  reshape_row x R s

end Cert.KernelIdeal.KValue

end
-- ==== Proof.KIndex.lean ====
/-
  Where the launch's blocks sit.

  The grid has 512 points. At point `t` the first input window's block is rows `8 t … 8 t + 7` of the 4096 × 1024 array
  (block index `(t, 0)`), the weights' window is the whole 128 × 64 array at every point (block index `(0, 0)`), and the
  output window's block is rows `8 t … 8 t + 7` of the 4096 × 128 × 128 result (block index `(t, 0, 0)`). These relations are
  decided once over the grid. From them: an index of the result lies in point `t`'s block exactly when its row is one
  of `8 t … 8 t + 7`, so the point `row / 8` covers it, and every index of the result is covered.
-/
import proofs.«153623_j3599182594828_2_alg».proof.Proof.Gen.KernelIdeal.Points
import proofs.«153623_j3599182594828_2_alg».proof.Proof.Gen.KernelIdeal.Launch
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem

/-- The printed index maps over the grid: window 0 and the output move one block of rows per point, the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- An index of the result is in point `t`'s block iff each coordinate is in the block's range on its axis. -/
theorem mem_blk (t : Fin cfg0.N) (i : S4096x128x128.Idx) :
    i ∈ ((cfg0.win 2).blk t).view.set ↔ ∀ a : Fin 3, win0_2.index t a * S8x128x128.size a ≤ (i a).val ∧ (i a).val < win0_2.index t a * S8x128x128.size a + S8x128x128.size a := by
  show i ∈ ((View.whole main_v1).slice (win0_2.rect t)).set ↔ _
  rw [View.set_slice_whole, Rect.mem_set_unit]
  exact Iff.rfl

/-- Every index of the result is in the block of the point `row / 8`, which writes back. -/
theorem cover (i : S4096x128x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hi2 : (i 2).val < 128 := (i 2).isLt
  have hN : cfg0.N = 512 := N_0
  refine ⟨⟨(i 0).val / 8, by rw [hN]; omega⟩, flush0_2 _, ?_⟩
  rw [mem_blk]
  obtain ⟨-, -, -, -, e0, e1, e2⟩ := idx_facts ⟨(i 0).val / 8, by rw [hN]; omega⟩
  intro a
  match a with
  | ⟨0, _⟩ =>
    show win0_2.index _ (0 : Fin 3) * 8 ≤ (i 0).val ∧ (i 0).val < win0_2.index _ (0 : Fin 3) * 8 + 8
    rw [e0]; show (i 0).val / 8 * 8 ≤ (i 0).val ∧ (i 0).val < (i 0).val / 8 * 8 + 8; omega
  | ⟨1, _⟩ =>
    show win0_2.index _ (1 : Fin 3) * 128 ≤ (i 1).val ∧ (i 1).val < win0_2.index _ (1 : Fin 3) * 128 + 128
    rw [e1]; omega
  | ⟨2, _⟩ =>
    show win0_2.index _ (2 : Fin 3) * 128 ≤ (i 2).val ∧ (i 2).val < win0_2.index _ (2 : Fin 3) * 128 + 128
    rw [e2]; omega

end Cert.KernelIdeal.KValue

end
-- ==== Proof.KBlocks.lean ====
/-
  The windows' blocks read at an index, and one element of the output block.

  A block's coordinate in its array is, on each axis, the block index times the block's size plus the coordinate inside
  the block. With the index maps of the launch: element `(r, s)` of the first input's block at point `t` is element
  `(8 t + r, s)` of the 4096 × 1024 array; the weights' block is the weights' array; element `(r, p, d)` of the output's
  block at point `t` is element `(8 t + r, p, d)` of the result.
  Last, for any body whose output block holds at `(r, p, d)` the inner product of patch `p`'s features of row `r` of its
  first block with row `d` of its second: when row `r` of the first block is the signal row `R` of the argument and the
  second block is the weight matrix, that element is the specification's `Gat` at `(R, p, d)`.
-/
import proofs.«153623_j3599182594828_2_alg».proof.Proof.KIndex
import proofs.«153623_j3599182594828_2_alg».proof.Proof.Spec

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Idealize.SL.Sem

variable {Val : EltTy → Type}

/-- The first input's block at point `t`, at `x`, is the array at row `8 t + x 0`, same sample. -/
theorem read_blk0 (t : Fin cfg0.N) (A : S4096x1024.Idx → Val .f32) (x : S8x1024.Idx) (k : S4096x1024.Idx)
    (hk0 : (k 0).val = 8 * t.val + (x 0).val) (hk1 : (k 1).val = (x 1).val) :
    (((cfg0.win 0).blk t).view.read Val A : S8x1024.Idx → Val .f32) x = A k := by
  obtain ⟨e0, e1, -⟩ := idx_facts t
  rw [View.read_apply]
  show A _ = A _
  congr 1
  funext a
  apply Fin.ext
  match a with
  | ⟨0, _⟩ => show win0_0.index t (0 : Fin 2) * 8 + 1 * (x 0).val = (k 0).val; rw [e0, hk0]; omega
  | ⟨1, _⟩ => show win0_0.index t (1 : Fin 2) * 1024 + 1 * (x 1).val = (k 1).val; rw [e1, hk1]; omega

/-- The weights' block at any point is the weights' array. -/
theorem read_blk1 (t : Fin cfg0.N) (A : S128x64.Idx → Val .f32) (x : S128x64.Idx) :
    (((cfg0.win 1).blk t).view.read Val A : S128x64.Idx → Val .f32) x = A x := by
  obtain ⟨-, -, e0, e1, -⟩ := idx_facts t
  rw [View.read_apply]
  show A _ = A _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- The output's block at point `t`, at `j`, is the result at row `8 t + j 0`, same patch and output. -/
theorem read_blk2 (t : Fin cfg0.N) (A : S4096x128x128.Idx → Val .f32) (j : S8x128x128.Idx) (k : S4096x128x128.Idx)
    (hk0 : (k 0).val = 8 * t.val + (j 0).val) (hk1 : (k 1).val = (j 1).val) (hk2 : (k 2).val = (j 2).val) :
    (((cfg0.win 2).blk t).view.read Val A : S8x128x128.Idx → Val .f32) j = A k := by
  obtain ⟨-, -, -, -, e0, e1, e2⟩ := idx_facts t
  rw [View.read_apply]
  show A _ = A _
  congr 1
  funext a
  apply Fin.ext
  match a with
  | ⟨0, _⟩ => show win0_2.index t (0 : Fin 3) * 8 + 1 * (j 0).val = (k 0).val; rw [e0, hk0]; omega
  | ⟨1, _⟩ => show win0_2.index t (1 : Fin 3) * 128 + 1 * (j 1).val = (k 1).val; rw [e1, hk1]; omega
  | ⟨2, _⟩ => show win0_2.index t (2 : Fin 3) * 128 + 1 * (j 2).val = (k 2).val; rw [e2, hk2]; omega

/-- One element of the output block, for a body `O` that leaves at `(r, p, d)` the inner product of patch `p`'s features of
    its first block's row `r` with its second block's row `d`: with that row the argument's signal row `R` and the second
    block the weights, the element at `y` is `Gat` at `(R, y 1, y 2)`. -/
theorem out_at (O : (S8x1024.Idx → EReal) → (S128x64.Idx → EReal) → S8x128x128.Idx → EReal)
    (hO : ∀ (x0 : S8x1024.Idx → EReal) (x1 : S128x64.Idx → EReal) (r : Fin 8) (p d : Fin 128),
      O x0 x1 (ix3 r p d) = ∑ f : Fin 64, Cert.Wavelet.feat (fun t => x0 (ix2 r t)) p f * x1 (ix2 d f))
    (x0 : S8x1024.Idx → EReal) (x1 : S128x64.Idx → EReal) (y : S8x128x128.Idx)
    (X : S64x64x1024.Idx → EReal) (W : S128x64.Idx → EReal) (R : Fin 4096)
    (h0 : ∀ s : Fin 1024, x0 (ix2 (y 0) s) = Cert.Wavelet.rowOf X R s)
    (h1 : ∀ (d : Fin 128) (f : Fin 64), x1 (ix2 d f) = W (ix2 d f)) :
    O x0 x1 y = Cert.Wavelet.Gat X W R (y 1) (y 2) := by
  refine (congrArg (O x0 x1) (eq_ix3 (n0 := 8) (n1 := 128) (n2 := 128) y)).trans ?_
  refine (hO x0 x1 (y 0) (y 1) (y 2)).trans ?_
  unfold Cert.Wavelet.Gat
  have hrow : (fun s => x0 (ix2 (y 0) s)) = Cert.Wavelet.rowOf X R := funext h0
  rw [hrow]
  exact Finset.sum_congr rfl fun f _ => congrArg (fun z => Cert.Wavelet.feat (Cert.Wavelet.rowOf X R) (y 1) f * z) (h1 (y 2) f)

end Cert.KernelIdeal.KValue

end
-- ==== Proof.KFlush.lean ====
/-
  From the body's output block to the result array.

  The first window's array is the argument reshaped to 4096 rows, so row `r` of its block at point `t` is the signal
  row `8 t + r` of the argument; the second window's block is the weight matrix. Hence, for a body that leaves at
  `(r, p, d)` of its output block the inner product of patch `p`'s features of row `r` with weight row `d`, what point `t`
  writes back is block `t` of the specification's array `G`; the blocks cover the result, so the result array ends at `G`.
-/
import proofs.«153623_j3599182594828_2_alg».proof.Proof.KFrame
import proofs.«153623_j3599182594828_2_alg».proof.Proof.KRows
import proofs.«153623_j3599182594828_2_alg».proof.Proof.KBlocks

set_option maxRecDepth 16384

noncomputable section

open scoped BigOperators

namespace Cert.KernelIdeal.KValue

open Cert.KernelIdeal Cert.KernelIdeal.Gen Cert.KernelIdeal.GenP Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The array the first window reads is the argument reshaped to 4096 × 1024. -/
theorem V_main_v0 (c : Dev nD) :
    (V m c main_v0 : S4096x1024.Idx → EReal)
      = shapeCast S4096x1024 (m ((c.tc : Thread nD τ).loc main_arg0)) shapeCasts_S64x64x1024_S4096x1024 := by
  show StableHlo.after hostOps0 (fun b => m (c, b)) (Proc.devRef .tc main_v0) = _
  after_results
  rfl

/-- Row `r` of the first window's block at point `t` is the signal row `8 t + r` of the argument. -/
theorem iblk0_row (c : Dev nD) (t : Fin cfg0.N) (r : Fin 8) (R : Fin 4096) (hR : R.val = 8 * t.val + r.val) (s : Fin 1024) :
    (iblk m c 0 t : S8x1024.Idx → EReal) (ix2 r s)
      = Cert.Wavelet.rowOf (m ((c.tc : Thread nD τ).loc main_arg0)) R s := by
  unfold iblk
  show (((cfg0.win 0).blk t).view.read (Elt Ideal) (V m c main_v0) : S8x1024.Idx → EReal) (ix2 r s) = _
  refine (read_blk0 (Val := Elt Ideal) t (V m c main_v0) (ix2 r s) (ix2 R s) hR rfl).trans ?_
  rw [V_main_v0]
  exact reshape_rowOf _ R s

/-- The second window's block at any point is the weight matrix. -/
theorem iblk1_at (c : Dev nD) (t : Fin cfg0.N) (x : S128x64.Idx) :
    (iblk m c 1 t : S128x64.Idx → EReal) x = m ((c.tc : Thread nD τ).loc main_arg1) x := by
  unfold iblk
  show (((cfg0.win 1).blk t).view.read (Elt Ideal) (V m c main_arg1) : S128x64.Idx → EReal) x = _
  refine (read_blk1 (Val := Elt Ideal) t (V m c main_arg1) x).trans ?_
  rw [V_main_arg1]

/-- What point `t` writes back is block `t` of `G` of the arguments. -/
theorem flushed_eq
    (hO : ∀ (x0 : Vec Ideal S8x1024 .f32) (x1 : Vec Ideal S128x64 .f32) (r : Fin 8) (p d : Fin 128),
      GenP.out0_2 (F := Ideal) x0 x1 (ix3 r p d) = ∑ f : Fin 64, Cert.Wavelet.feat (fun t => x0 (ix2 r t)) p f * x1 (ix2 d f))
    (c : Dev nD) (t : Fin cfg0.N) :
    (dats m 0 c).flushed 2 t = ((cfg0.win 2).blk t).view.read (Elt Ideal)
      (Cert.Wavelet.G (m ((c.tc : Thread nD τ).loc main_arg0)) (m ((c.tc : Thread nD τ).loc main_arg1))) := by
  show (cfg0.win 2).cut (grid0.coords t) ((dats m 0 c).after 2 t) = _
  rw [after0_2]
  show (GenP.out0_2 (F := Ideal) (iblk m c 0 t) (iblk m c 1 t) : S8x128x128.Idx → EReal) = _
  funext j
  have hj0 : (j 0).val < 8 := (j 0).isLt
  have ht : t.val < 512 := lt_of_lt_of_eq t.isLt N_0
  refine Eq.trans ?_ (read_blk2 (Val := Elt Ideal) t
    (Cert.Wavelet.G (m ((c.tc : Thread nD τ).loc main_arg0)) (m ((c.tc : Thread nD τ).loc main_arg1))) j
    (ix3 (⟨8 * t.val + (j 0).val, by omega⟩ : Fin 4096) (j 1) (j 2)) rfl rfl rfl).symm
  refine Eq.trans ?_ (Cert.Wavelet.G_ix3 (m ((c.tc : Thread nD τ).loc main_arg0)) (m ((c.tc : Thread nD τ).loc main_arg1))
    (⟨8 * t.val + (j 0).val, by omega⟩ : Fin 4096) (j 1) (j 2)).symm
  exact out_at (GenP.out0_2 (F := Ideal)) hO (iblk m c 0 t) (iblk m c 1 t) j
    (m ((c.tc : Thread nD τ).loc main_arg0)) (m ((c.tc : Thread nD τ).loc main_arg1))
    (⟨8 * t.val + (j 0).val, by omega⟩ : Fin 4096)
    (fun s => iblk0_row m c t (j 0) (⟨8 * t.val + (j 0).val, by omega⟩ : Fin 4096) rfl s)
    (fun d f => iblk1_at m c t (ix2 d f))

/-- The result array after the run is `G` of the arguments. -/
theorem final
    (hO : ∀ (x0 : Vec Ideal S8x1024 .f32) (x1 : Vec Ideal S128x64 .f32) (r : Fin 8) (p d : Fin 128),
      GenP.out0_2 (F := Ideal) x0 x1 (ix3 r p d) = ∑ f : Fin 64, Cert.Wavelet.feat (fun t => x0 (ix2 r t)) p f * x1 (ix2 d f))
    (c : Dev nD) :
    (dats m 0 c).arrAt 2 cfg0.N
      = Cert.Wavelet.G (m ((c.tc : Thread nD τ).loc main_arg0)) (m ((c.tc : Thread nD τ).loc main_arg1)) :=
  (dats m 0 c).arrAt_eq_of_cover 2
    (Cert.Wavelet.G (m ((c.tc : Thread nD τ).loc main_arg0)) (m ((c.tc : Thread nD τ).loc main_arg1)))
    (fun t _ => flushed_eq m hO c t) cover

end Cert.KernelIdeal.KValue

end
-- ==== Proof.KValue.lean ====
/-
  The kernel program's run, read.

  Under the hypothesis `PayAt` — the body leaves at `(r, p, d)` of its output block the inner product of patch `p`'s
  sixty-four features of row `r` of its first input block with row `d` of its second —, every run of the program ends with
  the result array at the specification's `G` of the two arguments, the trailing constant at 64, and the arguments as
  launched. The result array is read off the run's post through the blocks each grid point wrote back; the constant is
  the one host operation after the region; the arguments are written by nothing.
-/
import proofs.«153623_j3599182594828_2_alg».proof.Proof.KFlush

set_option maxRecDepth 16384

noncomputable section

open scoped BigOperators

namespace Cert.KernelIdeal.KValue

open Cert.KernelIdeal Cert.KernelIdeal.Gen Cert.KernelIdeal.GenP Idealize.ShloMosaic Idealize.ShloMosaic.TcCoe Idealize.ShloMosaic.ValueIdx Idealize.SL.Sem
open Idealize.ShloMosaic.Pipeline (Dat)

/-- What the body leaves at element (r, p, d) of its output block, from its two input blocks. -/
def PayAt : Prop := ∀ (x0 : Vec Ideal S8x1024 .f32) (x1 : Vec Ideal S128x64 .f32) (r : Fin 8) (p d : Fin 128),
    GenP.out0_2 (F := Ideal) x0 x1 (ix3 r p d) = ∑ f : Fin 64, Cert.Wavelet.feat (fun t => x0 (ix2 r t)) p f * x1 (ix2 d f)

/-- The one host operation after the region leaves the constant 64 in its buffer. -/
theorem tail_main_c (m : (ℓ : Loc nD τ sig) → Buf (Elt Ideal) ℓ) (c : Dev nD) :
    Pipeline.afterTail₀ cfgs (dats m) 0 (V0 m) [hostOps1] c main_c = constantI S_ 32 64#32 := by
  unfold Pipeline.afterTail₀
  show StableHlo.after hostOps1 _ (Proc.devRef .tc main_c) = _
  after_results

theorem run (hpay : PayAt) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.Wavelet.G (m ((c.tc : Thread nD τ).loc main_arg0)) (m ((c.tc : Thread nD τ).loc main_arg1))
      ∧ r.2.mem ((c.tc : Thread nD τ).loc main_c) = constantI S_ 32 64#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).1 2).trans (final m hpay c),
       ((h c).2 main_c (Pipeline.mem_restRefs_of main_c (by decide) (by decide))).trans (tail_main_c m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.KValue

end
-- ==== Proof.KFilt.lean ====
/-
  The filter bank inside the kernel's body, read one element at a time.

  The body works on a block of eight rows of 1024 samples. A rotation of the block along its rows by `1024 - s` places
  reads, at sample `t`, the sample `s` places further round the circle; a tap is "running sum plus coefficient times
  rotated block"; eight taps from the zero block are the periodic correlation of every row with the tap vector. The
  body's arithmetic is cut by statement count, not by filter, so each value below is stated where the cut leaves it:
  the level-1 detail rows whole; the level-1 approximation from its first tap's partial sum; levels 2 and 3 likewise
  from the partial sums the cut hands over.
-/
import proofs.«153623_j3599182594828_2_alg».proof.Proof.Gen.KernelIdeal.Skeleton
import proofs.«153623_j3599182594828_2_alg».proof.Proof.Spec
import Idealize.ShloMosaic.Lib.ValueIdx
import Idealize.ShloMosaic.Lib.Pipeline.Value

noncomputable section

namespace Cert.KernelIdeal.KFilt

open Cert.KernelIdeal Cert.KernelIdeal.Gen Idealize.ShloMosaic Idealize.ShloMosaic.ValueIdx Cert.Wavelet

/-- A block rotated along its rows by `n` places, with `n + s = 1024`, holds at sample `t` of row `r` the block's
    sample `s` places further round the circle. -/
theorem rotate_apply (n : BitVec 32) (s : ℕ) (hs : n.toNat + s = 1024) (v : FVec Ideal S8x1024 .f32)
    (h : S8x1024.Rotates 1 none) (r : Fin 8) (t : Fin 1024) :
    dynamicRotate 1 n none v h (ix2 r t) = v (ix2 r (rot s t)) := by
  unfold dynamicRotate
  refine congrArg v (funext fun b => ?_)
  match b with
  | ⟨0, _⟩ => rfl
  | ⟨1, _⟩ =>
    refine Fin.ext ?_
    show (t.val + 1024 - (n.toNat + 0) % 1024) % 1024 = (t.val + s) % 1024
    have := t.isLt
    omega

/-! The rotations the body uses, by their literal amounts: three dilations of an eight-tap filter. -/
theorem rot_1023 (v : FVec Ideal S8x1024 .f32) (h : S8x1024.Rotates 1 none) (r : Fin 8) (t : Fin 1024) :
    dynamicRotate 1 1023#32 none v h (ix2 r t) = v (ix2 r (rot 1 t)) := rotate_apply 1023#32 1 (by decide) v h r t
theorem rot_1022 (v : FVec Ideal S8x1024 .f32) (h : S8x1024.Rotates 1 none) (r : Fin 8) (t : Fin 1024) :
    dynamicRotate 1 1022#32 none v h (ix2 r t) = v (ix2 r (rot 2 t)) := rotate_apply 1022#32 2 (by decide) v h r t
theorem rot_1021 (v : FVec Ideal S8x1024 .f32) (h : S8x1024.Rotates 1 none) (r : Fin 8) (t : Fin 1024) :
    dynamicRotate 1 1021#32 none v h (ix2 r t) = v (ix2 r (rot 3 t)) := rotate_apply 1021#32 3 (by decide) v h r t
theorem rot_1020 (v : FVec Ideal S8x1024 .f32) (h : S8x1024.Rotates 1 none) (r : Fin 8) (t : Fin 1024) :
    dynamicRotate 1 1020#32 none v h (ix2 r t) = v (ix2 r (rot 4 t)) := rotate_apply 1020#32 4 (by decide) v h r t
theorem rot_1019 (v : FVec Ideal S8x1024 .f32) (h : S8x1024.Rotates 1 none) (r : Fin 8) (t : Fin 1024) :
    dynamicRotate 1 1019#32 none v h (ix2 r t) = v (ix2 r (rot 5 t)) := rotate_apply 1019#32 5 (by decide) v h r t
theorem rot_1018 (v : FVec Ideal S8x1024 .f32) (h : S8x1024.Rotates 1 none) (r : Fin 8) (t : Fin 1024) :
    dynamicRotate 1 1018#32 none v h (ix2 r t) = v (ix2 r (rot 6 t)) := rotate_apply 1018#32 6 (by decide) v h r t
theorem rot_1017 (v : FVec Ideal S8x1024 .f32) (h : S8x1024.Rotates 1 none) (r : Fin 8) (t : Fin 1024) :
    dynamicRotate 1 1017#32 none v h (ix2 r t) = v (ix2 r (rot 7 t)) := rotate_apply 1017#32 7 (by decide) v h r t
theorem rot_1016 (v : FVec Ideal S8x1024 .f32) (h : S8x1024.Rotates 1 none) (r : Fin 8) (t : Fin 1024) :
    dynamicRotate 1 1016#32 none v h (ix2 r t) = v (ix2 r (rot 8 t)) := rotate_apply 1016#32 8 (by decide) v h r t
theorem rot_1014 (v : FVec Ideal S8x1024 .f32) (h : S8x1024.Rotates 1 none) (r : Fin 8) (t : Fin 1024) :
    dynamicRotate 1 1014#32 none v h (ix2 r t) = v (ix2 r (rot 10 t)) := rotate_apply 1014#32 10 (by decide) v h r t
theorem rot_1012 (v : FVec Ideal S8x1024 .f32) (h : S8x1024.Rotates 1 none) (r : Fin 8) (t : Fin 1024) :
    dynamicRotate 1 1012#32 none v h (ix2 r t) = v (ix2 r (rot 12 t)) := rotate_apply 1012#32 12 (by decide) v h r t
theorem rot_1010 (v : FVec Ideal S8x1024 .f32) (h : S8x1024.Rotates 1 none) (r : Fin 8) (t : Fin 1024) :
    dynamicRotate 1 1010#32 none v h (ix2 r t) = v (ix2 r (rot 14 t)) := rotate_apply 1010#32 14 (by decide) v h r t
theorem rot_1008 (v : FVec Ideal S8x1024 .f32) (h : S8x1024.Rotates 1 none) (r : Fin 8) (t : Fin 1024) :
    dynamicRotate 1 1008#32 none v h (ix2 r t) = v (ix2 r (rot 16 t)) := rotate_apply 1008#32 16 (by decide) v h r t
theorem rot_1004 (v : FVec Ideal S8x1024 .f32) (h : S8x1024.Rotates 1 none) (r : Fin 8) (t : Fin 1024) :
    dynamicRotate 1 1004#32 none v h (ix2 r t) = v (ix2 r (rot 20 t)) := rotate_apply 1004#32 20 (by decide) v h r t
theorem rot_1000 (v : FVec Ideal S8x1024 .f32) (h : S8x1024.Rotates 1 none) (r : Fin 8) (t : Fin 1024) :
    dynamicRotate 1 1000#32 none v h (ix2 r t) = v (ix2 r (rot 24 t)) := rotate_apply 1000#32 24 (by decide) v h r t
theorem rot_996 (v : FVec Ideal S8x1024 .f32) (h : S8x1024.Rotates 1 none) (r : Fin 8) (t : Fin 1024) :
    dynamicRotate 1 996#32 none v h (ix2 r t) = v (ix2 r (rot 28 t)) := rotate_apply 996#32 28 (by decide) v h r t

/-- A row of a block. -/
abbrev row (v : FVec Ideal S8x1024 .f32) (r : Fin 8) : Row := fun t => v (ix2 r t)

set_option maxHeartbeats 400000 in
/-- The level-1 detail rows: the high-pass taps at dilation 1, whole. -/
theorem pay3_apply (x : FVec Ideal S8x1024 .f32) (r : Fin 8) (t : Fin 1024) :
    k0_pay3 (F := Ideal) x (ix2 r t) = cD1 (row x r) t := by
  unfold k0_pay3 k0_pay2
  simp only [addf_apply, mulf_apply, broadcast_apply, shapeCast_self]
  rw [rot_1023, rot_1022, rot_1021, rot_1020, rot_1019, rot_1018, rot_1017]
  rfl

set_option maxHeartbeats 400000 in
/-- The level-1 approximation rows: the low-pass taps at dilation 1, the first tap's partial sum handed over. -/
theorem pay5_apply (x : FVec Ideal S8x1024 .f32) (r : Fin 8) (t : Fin 1024) :
    k0_pay5 (F := Ideal) (k0_pay2 x) (k0_pay4 x) 1023#32 (ix2 r t) = cA1 (row x r) t := by
  unfold k0_pay5 k0_pay4 k0_pay2
  simp only [addf_apply, mulf_apply, broadcast_apply, shapeCast_self]
  rw [rot_1023, rot_1022, rot_1021, rot_1020, rot_1019, rot_1018, rot_1017]
  rfl

set_option maxHeartbeats 400000 in
/-- The level-2 detail rows of any block `A` standing for the level-1 approximation: the high-pass taps at dilation 2. -/
theorem pay7_apply (v1 v37 : FVec Ideal S8x1024 .f32) (c : BitVec 32) (r : Fin 8) (t : Fin 1024) :
    k0_pay7 (F := Ideal) (k0_pay5 v1 v37 c) (k0_pay6 v1 v37 c) 1018#32 (ix2 r t) = filt hi 2 (row (k0_pay5 v1 v37 c) r) t := by
  unfold k0_pay7 k0_pay6
  generalize k0_pay5 v1 v37 c = A
  simp only [addf_apply, mulf_apply, broadcast_apply, shapeCast_self]
  rw [rot_1022, rot_1020, rot_1018, rot_1016, rot_1014, rot_1012, rot_1010]
  rfl

set_option maxHeartbeats 400000 in
/-- The level-2 approximation rows: the low-pass taps at dilation 2. -/
theorem pay9_apply (A : FVec Ideal S8x1024 .f32) (r : Fin 8) (t : Fin 1024) :
    k0_pay9 (F := Ideal) A (k0_pay8 A) 1014#32 (ix2 r t) = filt lo 2 (row A r) t := by
  unfold k0_pay9 k0_pay8
  simp only [addf_apply, mulf_apply, broadcast_apply, shapeCast_self]
  rw [rot_1022, rot_1020, rot_1018, rot_1016, rot_1014, rot_1012, rot_1010]
  rfl

set_option maxHeartbeats 400000 in
/-- The level-3 detail rows of any block standing for the level-2 approximation: the high-pass taps at dilation 4. -/
theorem pay11_apply (A B : FVec Ideal S8x1024 .f32) (c : BitVec 32) (r : Fin 8) (t : Fin 1024) :
    k0_pay11 (F := Ideal) (k0_pay9 A B c) (k0_pay10 A B c) 996#32 (ix2 r t) = filt hi 4 (row (k0_pay9 A B c) r) t := by
  unfold k0_pay11 k0_pay10
  generalize k0_pay9 A B c = C
  simp only [addf_apply, mulf_apply, broadcast_apply, shapeCast_self]
  rw [rot_1020, rot_1016, rot_1012, rot_1008, rot_1004, rot_1000, rot_996]
  rfl

end Cert.KernelIdeal.KFilt

end
-- ==== Proof.KPatch.lean ====
/-
  The patch extraction inside the kernel's body, read one element at a time.

  A block of eight rows is continued on the right by eight copies of each row's last sample (1032 columns); the
  continued block is cut twice — columns 0 … 1023 and columns 8 … 1031 — each cut viewed as 128 groups of 8 columns, and
  the two views joined along the group axis: entry (row r, patch p, sample l) of the join is column `8 p + l` of the
  continued block, for l below 8 from the first cut and from 8 on from the second. Four such arrays are given a
  trailing unit axis and joined along it: entry (r, p, l, c) is array c's entry (r, p, l).
-/
import proofs.«153623_j3599182594828_2_alg».proof.KernelIdeal
import proofs.«153623_j3599182594828_2_alg».proof.Proof.Spec
import Idealize.ShloMosaic.Lib.ValueIdx
import Idealize.ShloMosaic.Lib.Pipeline.Value

noncomputable section

namespace Cert.KernelIdeal.KPatch

open Cert.KernelIdeal Idealize.ShloMosaic Idealize.ShloMosaic.ValueIdx Cert.Wavelet

/-- A block continued by its last column, at column `u` of row `r`: the row continued by its last sample. -/
theorem pad_apply (ch : FVec Ideal S8x1024 .f32) (h1 : S8x1024.Slices ![0, 1023] S8x1) (h2 : S8x1.ShapeCasts S8x1)
    (h3 : S8x1.Broadcasts S8x8) (h4 : Shape.Concatenates [S8x1024, S8x8] S8x1032 1) (r : Fin 8) (u : Fin 1032) :
    concatenate S8x1032 1 [⟨S8x1024, ch⟩, ⟨S8x8, broadcastTo S8x8 (shapeCast S8x1 (extractStridedSlice S8x1 ![0, 1023] ch h1) h2) h3⟩] h4 (ix2 r u)
      = padded (fun t => ch (ix2 r t)) u.val := by
  unfold padded
  by_cases hu : u.val < 1024
  · rw [dif_pos hu]
    exact concatenate_pair_apply_left 1 _ _ h4 (ix2 r u) rfl (ix2 r ⟨u.val, hu⟩) (fun b => by
      match b with
      | ⟨0, _⟩ => rfl
      | ⟨1, _⟩ => rfl)
  · rw [dif_neg hu]
    have hu2 : u.val - 1024 < 8 := by have := u.isLt; omega
    refine (concatenate_pair_apply_right 1 _ _ h4 (ix2 r u) rfl rfl (ix2 r (⟨u.val - 1024, hu2⟩ : Fin 8)) (fun b hb => ?_) ?_).trans ?_
    · match b with
      | ⟨0, _⟩ => rfl
      | ⟨1, _⟩ => exact absurd rfl hb
    · show (u.val - 1024) + 1024 = u.val
      omega
    · refine (broadcastTo_apply _ h3 (ix2 r (⟨u.val - 1024, hu2⟩ : Fin 8)) (ix2 r (0 : Fin 1)) (fun a => ?_)).trans ?_
      · match a with
        | ⟨0, _⟩ => rfl
        | ⟨1, _⟩ => rfl
      · rw [shapeCast_self]
        exact extractStridedSlice_apply ![0, 1023] ch h1 (ix2 r (0 : Fin 1)) (ix2 r (⟨1023, by norm_num⟩ : Fin 1024)) (fun a => by
          match a with
          | ⟨0, _⟩ => show r.val = 0 + r.val; omega
          | ⟨1, _⟩ => rfl)

/-- The two cuts of a continued block, grouped by eights and joined: entry (r, p, l) is column `8 p + l` of row r. -/
theorem patch_apply (P : FVec Ideal S8x1032 .f32) (hs0 : S8x1032.Slices ![0, 0] S8x1024) (hs8 : S8x1032.Slices ![0, 8] S8x1024)
    (hc : S8x1024.ShapeCasts S8x128x8) (hcat : Shape.Concatenates [S8x128x8, S8x128x8] S8x128x16 2)
    (r : Fin 8) (p : Fin 128) (l : Fin 16) :
    concatenate S8x128x16 2 [⟨S8x128x8, shapeCast S8x128x8 (extractStridedSlice S8x1024 ![0, 0] P hs0) hc⟩,
        ⟨S8x128x8, shapeCast S8x128x8 (extractStridedSlice S8x1024 ![0, 8] P hs8) hc⟩] hcat (ix3 r p l)
      = P (ix2 r (⟨8 * p.val + l.val, by have := p.isLt; have := l.isLt; omega⟩ : Fin 1032)) := by
  have hp := p.isLt
  have hl := l.isLt
  by_cases h8 : l.val < 8
  · refine (concatenate_pair_apply_left 2 _ _ hcat (ix3 r p l) rfl (ix3 r p (⟨l.val, h8⟩ : Fin 8)) (fun b => by
      match b with
      | ⟨0, _⟩ => rfl
      | ⟨1, _⟩ => rfl
      | ⟨2, _⟩ => rfl)).trans ?_
    refine (shapeCast_apply _ hc (ix3 r p (⟨l.val, h8⟩ : Fin 8)) (ix2 r (⟨8 * p.val + l.val, by omega⟩ : Fin 1024)) ?_).trans ?_
    · rw [Shape.rowMajor_val_two, Shape.rowMajor_val_three]
      show r.val * 1024 + (8 * p.val + l.val) = (r.val * 128 + p.val) * 8 + l.val
      omega
    · exact extractStridedSlice_apply ![0, 0] P hs0 _ (ix2 r (⟨8 * p.val + l.val, by omega⟩ : Fin 1032)) (fun a => by
        match a with
        | ⟨0, _⟩ => show r.val = 0 + r.val; omega
        | ⟨1, _⟩ => show 8 * p.val + l.val = 0 + (8 * p.val + l.val); omega)
  · have h8' : l.val - 8 < 8 := by omega
    refine (concatenate_pair_apply_right 2 _ _ hcat (ix3 r p l) rfl rfl (ix3 r p (⟨l.val - 8, h8'⟩ : Fin 8)) (fun b hb => ?_) ?_).trans ?_
    · match b with
      | ⟨0, _⟩ => rfl
      | ⟨1, _⟩ => rfl
      | ⟨2, _⟩ => exact absurd rfl hb
    · show (l.val - 8) + 8 = l.val
      omega
    refine (shapeCast_apply _ hc (ix3 r p (⟨l.val - 8, h8'⟩ : Fin 8)) (ix2 r (⟨8 * p.val + (l.val - 8), by omega⟩ : Fin 1024)) ?_).trans ?_
    · rw [Shape.rowMajor_val_two, Shape.rowMajor_val_three]
      show r.val * 1024 + (8 * p.val + (l.val - 8)) = (r.val * 128 + p.val) * 8 + (l.val - 8)
      omega
    · exact extractStridedSlice_apply ![0, 8] P hs8 _ (ix2 r (⟨8 * p.val + l.val, by omega⟩ : Fin 1032)) (fun a => by
        match a with
        | ⟨0, _⟩ => show r.val = 0 + r.val; omega
        | ⟨1, _⟩ => show 8 * p.val + l.val = 8 + (8 * p.val + (l.val - 8)); omega)

/-- Four arrays given a trailing unit axis and joined along it: entry (r, p, l, c) is array c's entry (r, p, l). -/
theorem stack_apply (Q0 Q1 Q2 Q3 : FVec Ideal S8x128x16 .f32) (hc : S8x128x16.ShapeCasts S8x128x16x1)
    (hcat : Shape.Concatenates [S8x128x16x1, S8x128x16x1, S8x128x16x1, S8x128x16x1] S8x128x16x4 3)
    (r : Fin 8) (p : Fin 128) (l : Fin 16) (c : Fin 4) :
    concatenate S8x128x16x4 3 [⟨S8x128x16x1, shapeCast S8x128x16x1 Q0 hc⟩, ⟨S8x128x16x1, shapeCast S8x128x16x1 Q1 hc⟩,
        ⟨S8x128x16x1, shapeCast S8x128x16x1 Q2 hc⟩, ⟨S8x128x16x1, shapeCast S8x128x16x1 Q3 hc⟩] hcat (ix4 r p l c)
      = (match c with | 0 => Q0 | 1 => Q1 | 2 => Q2 | 3 => Q3) (ix3 r p l) := by
  have key : ∀ (Q : FVec Ideal S8x128x16 .f32), shapeCast S8x128x16x1 Q hc (ix4 r p l (0 : Fin 1)) = Q (ix3 r p l) := fun Q =>
    shapeCast_apply Q hc (ix4 r p l (0 : Fin 1)) (ix3 r p l) (by
      rw [Shape.rowMajor_val_three, Shape.rowMajor_val_four]
      show (r.val * 128 + p.val) * 16 + l.val = ((r.val * 128 + p.val) * 16 + l.val) * 1 + 0
      omega)
  have hi : ∀ (k : Fin 4) (b : Fin S8x128x16x1.rank), b.cast (rfl : S8x128x16x1.rank = S8x128x16x4.rank) ≠ (3 : Fin S8x128x16x4.rank) →
      ((ix4 r p l (0 : Fin 1) : S8x128x16x1.Idx) b).val = ((ix4 r p l k : S8x128x16x4.Idx) (b.cast rfl)).val := fun k b hb => by
    match b with
    | ⟨0, _⟩ => rfl
    | ⟨1, _⟩ => rfl
    | ⟨2, _⟩ => rfl
    | ⟨3, _⟩ => exact absurd rfl hb
  let xs : List ((s : Shape) × (s.Idx → Ideal .f32)) :=
    [⟨S8x128x16x1, shapeCast S8x128x16x1 Q0 hc⟩, ⟨S8x128x16x1, shapeCast S8x128x16x1 Q1 hc⟩,
     ⟨S8x128x16x1, shapeCast S8x128x16x1 Q2 hc⟩, ⟨S8x128x16x1, shapeCast S8x128x16x1 Q3 hc⟩]
  match c with
  | ⟨0, _⟩ => exact (concatenate_apply_piece (t := S8x128x16x4) 3 xs hcat _ 0 (by show (0 : ℕ) < 4; omega) S8x128x16x1 _ rfl rfl 0 rfl (ix4 r p l (0 : Fin 1)) (hi 0) rfl).trans (key Q0)
  | ⟨1, _⟩ => exact (concatenate_apply_piece (t := S8x128x16x4) 3 xs hcat _ 1 (by show (1 : ℕ) < 4; omega) S8x128x16x1 _ rfl rfl 1 rfl (ix4 r p l (0 : Fin 1)) (hi 1) rfl).trans (key Q1)
  | ⟨2, _⟩ => exact (concatenate_apply_piece (t := S8x128x16x4) 3 xs hcat _ 2 (by show (2 : ℕ) < 4; omega) S8x128x16x1 _ rfl rfl 2 rfl (ix4 r p l (0 : Fin 1)) (hi 2) rfl).trans (key Q2)
  | ⟨3, _⟩ => exact (concatenate_apply_piece (t := S8x128x16x4) 3 xs hcat _ 3 (by show (3 : ℕ) < 4; omega) S8x128x16x1 _ rfl rfl 3 rfl (ix4 r p l (0 : Fin 1)) (hi 3) rfl).trans (key Q3)

end Cert.KernelIdeal.KPatch

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KPay.lean ====
/-
  The kernel body's stored value, read at one element.

  Entry (row r, patch p, output d) of the stored block is the product of two matrices read at (128 r + p, d): the
  1024 × 64 feature matrix — row 128 r + p holds patch p of block row r, feature 4 l + c being sample l of the continued
  channel c — and the transposed weight block. So it is the inner product of the patch's features with weight row d;
  the channels are the filter bank's four kept rows of block row r.
-/
import proofs.«153623_j3599182594828_2_alg».proof.Proof.KFilt
import proofs.«153623_j3599182594828_2_alg».proof.Proof.KPatch
import proofs.«153623_j3599182594828_2_alg».proof.Proof.LibPlainMatmul
import Idealize.ShloMosaic.Lib.ValueLayout

noncomputable section

open scoped BigOperators

namespace Cert.KernelIdeal.KPay

open Cert.KernelIdeal Cert.KernelIdeal.Gen Idealize.ShloMosaic Idealize.ShloMosaic.ValueIdx Cert.Wavelet Cert.KernelIdeal.KFilt

set_option maxHeartbeats 400000 in
/-- The continued last approximation: the low-pass taps at dilation 4 of block `C`'s rows, each row continued. -/
theorem pay12_apply (C : FVec Ideal S8x1024 .f32) (r : Fin 8) (u : Fin 1032) :
    k0_pay12 (F := Ideal) C (ix2 r u) = padded (filt lo 4 (row C r)) u.val := by
  unfold k0_pay12
  refine (KPatch.pad_apply _ _ _ _ _ r u).trans ?_
  refine congrArg (fun w => padded w u.val) (funext fun t => ?_)
  simp only [addf_apply, mulf_apply, broadcast_apply, shapeCast_self]
  rw [rot_1020, rot_1016, rot_1012, rot_1008, rot_1004, rot_1000, rot_996]
  rfl

/-- Feature `f` is sample `f / 4` of channel `f % 4`. -/
abbrev cOf (f : Fin 64) : Fin 4 := ⟨f.val % 4, Nat.mod_lt _ (by norm_num)⟩
abbrev lOf (f : Fin 64) : Fin 16 := ⟨f.val / 4, by have := f.isLt; omega⟩

/-- One of four continued rows, by channel. -/
def sel (c : Fin 4) (w0 w1 w2 w3 : ℕ → EReal) : ℕ → EReal :=
  match c with
  | 0 => w0
  | 1 => w1
  | 2 => w2
  | 3 => w3

set_option maxHeartbeats 1000000 in
/-- The stored value from the four channel blocks: at (r, p, d) the inner product over the 64 features of the
    continued channels' samples `8 p + l` with weight row `d`. The first channel arrives already continued (from block
    `C` through the low-pass taps at dilation 4); the other three are continued here. -/
theorem pay1_apply (v33 v97 v161 C : FVec Ideal S8x1024 .f32) (W : Vec Ideal S128x64 .f32) (r : Fin 8) (p d : Fin 128) :
    k0_pay1 (F := Ideal) v33 v97 v161 (k0_pay13 C) (k0_pay14 C) W (ix3 r p d)
      = ∑ f : Fin 64, sel (cOf f) (padded (filt lo 4 (row C r))) (padded (row v161 r)) (padded (row v97 r)) (padded (row v33 r))
          (8 * p.val + (lOf f).val) * W (ix2 d f) := by
  have hr := r.isLt
  have hp := p.isLt
  unfold k0_pay1 k0_pay13 k0_pay14
  conv_lhs => dsimp only
  refine (shapeCast_apply _ _ (ix3 r p d) (ix2 (⟨128 * r.val + p.val, by omega⟩ : Fin 1024) d) ?_).trans ?_
  · rw [Shape.rowMajor_val_two, Shape.rowMajor_val_three]
    show (128 * r.val + p.val) * 128 + d.val = (r.val * 128 + p.val) * 128 + d.val
    omega
  refine (matmul_plain_zero_apply dot_S1024x64_S64x128_S1024x128_1_0_0_1_n_n rfl none _ _ _ d).trans ?_
  refine Finset.sum_congr rfl fun f _ => ?_
  have hf := f.isLt
  refine congrArg₂ (· * ·) ?_ ?_
  · refine (shapeCast_apply _ _ (ix2 (⟨128 * r.val + p.val, by omega⟩ : Fin 1024) f) (ix3 r p f) ?_).trans ?_
    · rw [Shape.rowMajor_val_two, Shape.rowMajor_val_three]
      show (r.val * 128 + p.val) * 64 + f.val = (128 * r.val + p.val) * 64 + f.val
      omega
    refine Eq.trans (truncf_apply _ _ (ix3 r p f)) ?_
    refine (shapeCast_apply _ _ (ix3 r p f) (ix4 r p (lOf f) (cOf f)) ?_).trans ?_
    · rw [Shape.rowMajor_val_three, Shape.rowMajor_val_four]
      show ((r.val * 128 + p.val) * 16 + f.val / 4) * 4 + f.val % 4 = (r.val * 128 + p.val) * 64 + f.val
      omega
    refine (KPatch.stack_apply _ _ _ _ _ _ r p (lOf f) (cOf f)).trans ?_
    generalize cOf f = c
    generalize lOf f = l
    have hl := l.isLt
    match c with
    | ⟨0, _⟩ => exact (KPatch.patch_apply _ _ _ _ _ r p l).trans (pay12_apply C r ⟨8 * p.val + l.val, by omega⟩)
    | ⟨1, _⟩ => exact (KPatch.patch_apply _ _ _ _ _ r p l).trans (KPatch.pad_apply v161 _ _ _ _ r ⟨8 * p.val + l.val, by omega⟩)
    | ⟨2, _⟩ => exact (KPatch.patch_apply _ _ _ _ _ r p l).trans (KPatch.pad_apply v97 _ _ _ _ r ⟨8 * p.val + l.val, by omega⟩)
    | ⟨3, _⟩ => exact (KPatch.patch_apply _ _ _ _ _ r p l).trans (KPatch.pad_apply v33 _ _ _ _ r ⟨8 * p.val + l.val, by omega⟩)
  · exact transpose_ix2_apply (a := 128) (b := 64) _ _ f d

set_option maxHeartbeats 1000000 in
/-- The whole body's stored value from its two input blocks: the features of block row `r`'s filter bank against
    weight row `d`. -/
theorem body_apply (x : FVec Ideal S8x1024 .f32) (W : Vec Ideal S128x64 .f32) (r : Fin 8) (p d : Fin 128) :
    k0_pay1 (F := Ideal) (k0_pay3 x)
        (k0_pay7 (k0_pay5 (k0_pay2 x) (k0_pay4 x) 1023#32) (k0_pay6 (k0_pay2 x) (k0_pay4 x) 1023#32) 1018#32)
        (k0_pay11 (k0_pay9 (k0_pay5 (k0_pay2 x) (k0_pay4 x) 1023#32) (k0_pay8 (k0_pay5 (k0_pay2 x) (k0_pay4 x) 1023#32)) 1014#32)
          (k0_pay10 (k0_pay5 (k0_pay2 x) (k0_pay4 x) 1023#32) (k0_pay8 (k0_pay5 (k0_pay2 x) (k0_pay4 x) 1023#32)) 1014#32) 996#32)
        (k0_pay13 (k0_pay9 (k0_pay5 (k0_pay2 x) (k0_pay4 x) 1023#32) (k0_pay8 (k0_pay5 (k0_pay2 x) (k0_pay4 x) 1023#32)) 1014#32))
        (k0_pay14 (k0_pay9 (k0_pay5 (k0_pay2 x) (k0_pay4 x) 1023#32) (k0_pay8 (k0_pay5 (k0_pay2 x) (k0_pay4 x) 1023#32)) 1014#32))
        W (ix3 r p d)
      = ∑ f : Fin 64, feat (row x r) p f * W (ix2 d f) := by
  rw [pay1_apply]
  -- the rows of the four channel blocks are the filter bank's rows of block row r
  have e1 : row (k0_pay5 (F := Ideal) (k0_pay2 x) (k0_pay4 x) 1023#32) r = cA1 (row x r) := funext fun t => pay5_apply x r t
  have e3 : row (k0_pay3 (F := Ideal) x) r = cD1 (row x r) := funext fun t => pay3_apply x r t
  have e2 : row (k0_pay7 (F := Ideal) (k0_pay5 (k0_pay2 x) (k0_pay4 x) 1023#32) (k0_pay6 (k0_pay2 x) (k0_pay4 x) 1023#32) 1018#32) r
      = cD2 (row x r) := (funext fun t => pay7_apply _ _ _ r t).trans (by rw [e1]; rfl)
  have e4 : row (k0_pay9 (F := Ideal) (k0_pay5 (k0_pay2 x) (k0_pay4 x) 1023#32) (k0_pay8 (k0_pay5 (k0_pay2 x) (k0_pay4 x) 1023#32)) 1014#32) r
      = cA2 (row x r) := (funext fun t => pay9_apply _ r t).trans (by rw [e1]; rfl)
  have e5 : row (k0_pay11 (F := Ideal) (k0_pay9 (k0_pay5 (k0_pay2 x) (k0_pay4 x) 1023#32) (k0_pay8 (k0_pay5 (k0_pay2 x) (k0_pay4 x) 1023#32)) 1014#32)
        (k0_pay10 (k0_pay5 (k0_pay2 x) (k0_pay4 x) 1023#32) (k0_pay8 (k0_pay5 (k0_pay2 x) (k0_pay4 x) 1023#32)) 1014#32) 996#32) r
      = cD3 (row x r) := (funext fun t => pay11_apply _ _ _ r t).trans (by rw [e4]; rfl)
  rw [e2, e3, e4, e5]
  refine Finset.sum_congr rfl fun f _ => ?_
  refine congrArg (· * W (ix2 d f)) ?_
  unfold feat chan
  generalize hc : cOf f = c
  have hc' : (⟨f.val % 4, Nat.mod_lt _ (by norm_num)⟩ : Fin 4) = c := hc
  rw [hc']
  match c with
  | ⟨0, _⟩ => rfl
  | ⟨1, _⟩ => rfl
  | ⟨2, _⟩ => rfl
  | ⟨3, _⟩ => rfl

end Cert.KernelIdeal.KPay

end
-- ==== Proof.KOut.lean ====
/-
  What the kernel's body leaves at one element of its output block, from its two input blocks: the body loads both
  blocks whole, stores one value through the whole output block, and that value at (row r, patch p, output d) is
  the inner product of the features of block row r's patch p — the filter bank's four kept rows, continued and
  windowed — with weight row d.
-/
import proofs.«153623_j3599182594828_2_alg».proof.Proof.KFrame
import proofs.«153623_j3599182594828_2_alg».proof.Proof.KPay
import proofs.«153623_j3599182594828_2_alg».proof.Proof.KValue

noncomputable section

open scoped BigOperators

namespace Cert.KernelIdeal.KOut

open Cert.KernelIdeal Idealize.ShloMosaic Idealize.ShloMosaic.ValueIdx Cert.Wavelet

/-- The one whole-block store's payload over the two whole-block loads, read at an element. -/
theorem out_apply : Cert.KernelIdeal.KValue.PayAt := fun x0 x1 r p d => by
  have hz3 : (![0, 0, 0] : Fin 3 → ℕ) = fun _ => 0 := funext fun a => by
    match a with
    | ⟨0, _⟩ => rfl
    | ⟨1, _⟩ => rfl
    | ⟨2, _⟩ => rfl
  have hz2 : (![0, 0] : Fin 2 → ℕ) = fun _ => 0 := funext fun a => by
    match a with
    | ⟨0, _⟩ => rfl
    | ⟨1, _⟩ => rfl
  unfold Cert.KernelIdeal.GenP.out0_2
  rw [View.canon_unit_zero hz3]
  simp only [View.ld_unit_zero (S := S8x1024) hz2, View.ld_unit_zero (S := S128x64) hz2]
  exact Cert.KernelIdeal.KPay.body_apply x0 x1 r p d

end Cert.KernelIdeal.KOut

end
-- ==== Proof.RefMain.lean ====
/-
  The reference program's @main is the straight line of its 420 host operations: each printed window of @main, with the
  outlined roll functions unfolded at their calls (two slices and a concatenation each, over the call's own buffers),
  is the sequence of the listed operations by unfolding; the windows in order are the whole list. With it, that every
  listed operation touches TensorCore buffers only, and that the signature scopes no TensorCore buffer and no semaphore.
-/
import proofs.«153623_j3599182594828_2_alg».proof.Proof.RefTab0
import proofs.«153623_j3599182594828_2_alg».proof.Proof.RefTab1
import proofs.«153623_j3599182594828_2_alg».proof.Proof.RefTab2
import proofs.«153623_j3599182594828_2_alg».proof.Proof.RefTab3
import proofs.«153623_j3599182594828_2_alg».proof.Proof.RefTab4
import proofs.«153623_j3599182594828_2_alg».proof.Proof.RefTab5
import proofs.«153623_j3599182594828_2_alg».proof.Proof.RefTab6
import proofs.«153623_j3599182594828_2_alg».proof.Proof.RefTab7

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first printed window (statements 1 … 60). -/
def P0 : List (HloOp τ sig (Elt F)) := p0 ++ (p1 ++ p2)
/-- The operations of @main's second printed window (statements 61 … 120). -/
def P1 : List (HloOp τ sig (Elt F)) := p3 ++ p4
/-- The operations of @main's third printed window (statements 121 … 180). -/
def P2 : List (HloOp τ sig (Elt F)) := p5 ++ p6
/-- The operations of @main's fourth printed window (statements 181 … 240). -/
def P3 : List (HloOp τ sig (Elt F)) := p7 ++ p8
/-- The operations of @main's fifth printed window (statements 241 … 300). -/
def P4 : List (HloOp τ sig (Elt F)) := p9 ++ p10
/-- The operations of @main's last printed window (statements 301 … 325). -/
def P5 : List (HloOp τ sig (Elt F)) := p11 ++ p12

/-- @main's 420 host operations, in order. -/
def ops : List (HloOp τ sig (Elt F)) := P0 ++ (P1 ++ (P2 ++ (P3 ++ (P4 ++ P5))))

-- each window is one chain of some eighty steps once the called functions' bodies unfold: the unifier walks it one
-- binder deep per step
set_option maxRecDepth 16384 in
set_option maxHeartbeats 4000000 in
theorem main_part0_eq (c : Dev nD) : main_part0 (F := F) c = seq P0 := rfl
set_option maxRecDepth 16384 in
set_option maxHeartbeats 4000000 in
theorem main_part1_eq (c : Dev nD) : main_part1 (F := F) c = seq P1 := rfl
set_option maxRecDepth 16384 in
set_option maxHeartbeats 4000000 in
theorem main_part2_eq (c : Dev nD) : main_part2 (F := F) c = seq P2 := rfl
set_option maxRecDepth 16384 in
set_option maxHeartbeats 4000000 in
theorem main_part3_eq (c : Dev nD) : main_part3 (F := F) c = seq P3 := rfl
set_option maxRecDepth 16384 in
set_option maxHeartbeats 4000000 in
theorem main_part4_eq (c : Dev nD) : main_part4 (F := F) c = seq P4 := rfl
set_option maxRecDepth 16384 in
set_option maxHeartbeats 4000000 in
theorem main_part5_eq (c : Dev nD) : main_part5 (F := F) c = seq P5 := rfl

/-- @main is the sequence of its operations: the sequence of a concatenation is the sequences in turn
    (`seq_append`), and each is a printed window. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore buffers only: an operation of the whole list is one of a piece. -/
theorem ops_sub : (ops : List (HloOp τ sig (Elt F))).Forall fun op => op.bufs ⊆ tcRefs τ sig :=
  List.forall_iff_forall_mem.mpr fun op h => by
    simp only [ops, P0, P1, P2, P3, P4, P5, List.mem_append, or_assoc] at h
    rcases h with h | h | h | h | h | h | h | h | h | h | h | h | h
    exacts [List.forall_iff_forall_mem.mp p0_sub op h, List.forall_iff_forall_mem.mp p1_sub op h,
      List.forall_iff_forall_mem.mp p2_sub op h, List.forall_iff_forall_mem.mp p3_sub op h,
      List.forall_iff_forall_mem.mp p4_sub op h, List.forall_iff_forall_mem.mp p5_sub op h,
      List.forall_iff_forall_mem.mp p6_sub op h, List.forall_iff_forall_mem.mp p7_sub op h,
      List.forall_iff_forall_mem.mp p8_sub op h, List.forall_iff_forall_mem.mp p9_sub op h,
      List.forall_iff_forall_mem.mp p10_sub op h, List.forall_iff_forall_mem.mp p11_sub op h,
      List.forall_iff_forall_mem.mp p12_sub op h]

end Cert.ReferenceIdeal.RefRun

end
-- ==== Proof.RefTerm.lean ====
/-
  The reference program's result as ONE term of its two argument arrays, built from named stages that follow its
  host operations one for one: a roll of the last axis (two slices joined), a tap's coefficient spread over the array,
  one accumulation step, the three eight-tap filters (dilations 1, 2, 4), and the tail — the four kept coefficient
  arrays stacked on a new last axis, that axis moved before time, the last sample repeated eight times and appended,
  the patches gathered by the constant table of start positions, the axes reordered to (patch, sample, channel), merged
  to sixty-four features, and contracted with the weight matrix.
-/
import proofs.«153623_j3599182594828_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The array rolled along its last axis: the part from offset `o` on, then the first `o` samples. -/
def roll (sa sb : Shape) (o : Nat) (ha : S64x64x1024.Slices ![0, 0, o] sa) (hb : S64x64x1024.Slices ![0, 0, 0] sb)
    (hc : Shape.Concatenates [sa, sb] S64x64x1024 2) (x : FVec F S64x64x1024 .f32) : FVec F S64x64x1024 .f32 :=
  concatenate S64x64x1024 2 [⟨sa, extractStridedSlice sa ![0, 0, o] x ha⟩, ⟨sb, extractStridedSlice sb ![0, 0, 0] x hb⟩] hc

/-- Entry `k` of a tap array, spread over the whole array. -/
def coef (w : FVec F S8 .f32) (k : Nat) (hk : S8.Slices ![k] S1) : FVec F S64x64x1024 .f32 :=
  broadcastInDim S64x64x1024 ![] bcast_S_S64x64x1024 (shapeCast S_ (extractStridedSlice S1 ![k] w hk) shapeCasts_S1_S_)

/-- One accumulation step: the running sum plus coefficient times rolled array. -/
def tap (acc c rolled : FVec F S64x64x1024 .f32) : FVec F S64x64x1024 .f32 := addf acc (mulf c rolled)

/-- The zero array every filter's sum starts from. -/
def zeros : FVec F S64x64x1024 .f32 := broadcastInDim S64x64x1024 ![] bcast_S_S64x64x1024 (constant S_ .f32 0x00000000#32)

/-- The eight-tap periodic correlation at dilation 1, as the reference's operations spell it: from the zero array, tap by
    tap, the running sum plus the tap's coefficient (entry `k` of the tap array `w`, spread over the array) times the
    array rolled `1 k` places along its last axis. -/
def filt1 (w : FVec F S8 .f32) (x : FVec F S64x64x1024 .f32) : FVec F S64x64x1024 .f32 :=
  tap (tap (tap (tap (tap (tap (tap (tap (zeros)
      (coef w 0 slices_S8_S1_0) (roll S64x64x1024 S64x64x0 0 slices_S64x64x1024_S64x64x1024_0_0_0 slices_S64x64x1024_S64x64x0_0_0_0 concatenates_S64x64x1024_S64x64x0_S64x64x1024_d2 x))
      (coef w 1 slices_S8_S1_1) (roll S64x64x1023 S64x64x1 1 slices_S64x64x1024_S64x64x1023_0_0_1 slices_S64x64x1024_S64x64x1_0_0_0 concatenates_S64x64x1023_S64x64x1_S64x64x1024_d2 x))
      (coef w 2 slices_S8_S1_2) (roll S64x64x1022 S64x64x2 2 slices_S64x64x1024_S64x64x1022_0_0_2 slices_S64x64x1024_S64x64x2_0_0_0 concatenates_S64x64x1022_S64x64x2_S64x64x1024_d2 x))
      (coef w 3 slices_S8_S1_3) (roll S64x64x1021 S64x64x3 3 slices_S64x64x1024_S64x64x1021_0_0_3 slices_S64x64x1024_S64x64x3_0_0_0 concatenates_S64x64x1021_S64x64x3_S64x64x1024_d2 x))
      (coef w 4 slices_S8_S1_4) (roll S64x64x1020 S64x64x4 4 slices_S64x64x1024_S64x64x1020_0_0_4 slices_S64x64x1024_S64x64x4_0_0_0 concatenates_S64x64x1020_S64x64x4_S64x64x1024_d2 x))
      (coef w 5 slices_S8_S1_5) (roll S64x64x1019 S64x64x5 5 slices_S64x64x1024_S64x64x1019_0_0_5 slices_S64x64x1024_S64x64x5_0_0_0 concatenates_S64x64x1019_S64x64x5_S64x64x1024_d2 x))
      (coef w 6 slices_S8_S1_6) (roll S64x64x1018 S64x64x6 6 slices_S64x64x1024_S64x64x1018_0_0_6 slices_S64x64x1024_S64x64x6_0_0_0 concatenates_S64x64x1018_S64x64x6_S64x64x1024_d2 x))
      (coef w 7 slices_S8_S1_7) (roll S64x64x1017 S64x64x7 7 slices_S64x64x1024_S64x64x1017_0_0_7 slices_S64x64x1024_S64x64x7_0_0_0 concatenates_S64x64x1017_S64x64x7_S64x64x1024_d2 x)

/-- The eight-tap periodic correlation at dilation 2, as the reference's operations spell it: from the zero array, tap by
    tap, the running sum plus the tap's coefficient (entry `k` of the tap array `w`, spread over the array) times the
    array rolled `2 k` places along its last axis. -/
def filt2 (w : FVec F S8 .f32) (x : FVec F S64x64x1024 .f32) : FVec F S64x64x1024 .f32 :=
  tap (tap (tap (tap (tap (tap (tap (tap (zeros)
      (coef w 0 slices_S8_S1_0) (roll S64x64x1024 S64x64x0 0 slices_S64x64x1024_S64x64x1024_0_0_0 slices_S64x64x1024_S64x64x0_0_0_0 concatenates_S64x64x1024_S64x64x0_S64x64x1024_d2 x))
      (coef w 1 slices_S8_S1_1) (roll S64x64x1022 S64x64x2 2 slices_S64x64x1024_S64x64x1022_0_0_2 slices_S64x64x1024_S64x64x2_0_0_0 concatenates_S64x64x1022_S64x64x2_S64x64x1024_d2 x))
      (coef w 2 slices_S8_S1_2) (roll S64x64x1020 S64x64x4 4 slices_S64x64x1024_S64x64x1020_0_0_4 slices_S64x64x1024_S64x64x4_0_0_0 concatenates_S64x64x1020_S64x64x4_S64x64x1024_d2 x))
      (coef w 3 slices_S8_S1_3) (roll S64x64x1018 S64x64x6 6 slices_S64x64x1024_S64x64x1018_0_0_6 slices_S64x64x1024_S64x64x6_0_0_0 concatenates_S64x64x1018_S64x64x6_S64x64x1024_d2 x))
      (coef w 4 slices_S8_S1_4) (roll S64x64x1016 S64x64x8 8 slices_S64x64x1024_S64x64x1016_0_0_8 slices_S64x64x1024_S64x64x8_0_0_0 concatenates_S64x64x1016_S64x64x8_S64x64x1024_d2 x))
      (coef w 5 slices_S8_S1_5) (roll S64x64x1014 S64x64x10 10 slices_S64x64x1024_S64x64x1014_0_0_10 slices_S64x64x1024_S64x64x10_0_0_0 concatenates_S64x64x1014_S64x64x10_S64x64x1024_d2 x))
      (coef w 6 slices_S8_S1_6) (roll S64x64x1012 S64x64x12 12 slices_S64x64x1024_S64x64x1012_0_0_12 slices_S64x64x1024_S64x64x12_0_0_0 concatenates_S64x64x1012_S64x64x12_S64x64x1024_d2 x))
      (coef w 7 slices_S8_S1_7) (roll S64x64x1010 S64x64x14 14 slices_S64x64x1024_S64x64x1010_0_0_14 slices_S64x64x1024_S64x64x14_0_0_0 concatenates_S64x64x1010_S64x64x14_S64x64x1024_d2 x)

/-- The eight-tap periodic correlation at dilation 4, as the reference's operations spell it: from the zero array, tap by
    tap, the running sum plus the tap's coefficient (entry `k` of the tap array `w`, spread over the array) times the
    array rolled `4 k` places along its last axis. -/
def filt4 (w : FVec F S8 .f32) (x : FVec F S64x64x1024 .f32) : FVec F S64x64x1024 .f32 :=
  tap (tap (tap (tap (tap (tap (tap (tap (zeros)
      (coef w 0 slices_S8_S1_0) (roll S64x64x1024 S64x64x0 0 slices_S64x64x1024_S64x64x1024_0_0_0 slices_S64x64x1024_S64x64x0_0_0_0 concatenates_S64x64x1024_S64x64x0_S64x64x1024_d2 x))
      (coef w 1 slices_S8_S1_1) (roll S64x64x1020 S64x64x4 4 slices_S64x64x1024_S64x64x1020_0_0_4 slices_S64x64x1024_S64x64x4_0_0_0 concatenates_S64x64x1020_S64x64x4_S64x64x1024_d2 x))
      (coef w 2 slices_S8_S1_2) (roll S64x64x1016 S64x64x8 8 slices_S64x64x1024_S64x64x1016_0_0_8 slices_S64x64x1024_S64x64x8_0_0_0 concatenates_S64x64x1016_S64x64x8_S64x64x1024_d2 x))
      (coef w 3 slices_S8_S1_3) (roll S64x64x1012 S64x64x12 12 slices_S64x64x1024_S64x64x1012_0_0_12 slices_S64x64x1024_S64x64x12_0_0_0 concatenates_S64x64x1012_S64x64x12_S64x64x1024_d2 x))
      (coef w 4 slices_S8_S1_4) (roll S64x64x1008 S64x64x16 16 slices_S64x64x1024_S64x64x1008_0_0_16 slices_S64x64x1024_S64x64x16_0_0_0 concatenates_S64x64x1008_S64x64x16_S64x64x1024_d2 x))
      (coef w 5 slices_S8_S1_5) (roll S64x64x1004 S64x64x20 20 slices_S64x64x1024_S64x64x1004_0_0_20 slices_S64x64x1024_S64x64x20_0_0_0 concatenates_S64x64x1004_S64x64x20_S64x64x1024_d2 x))
      (coef w 6 slices_S8_S1_6) (roll S64x64x1000 S64x64x24 24 slices_S64x64x1024_S64x64x1000_0_0_24 slices_S64x64x1024_S64x64x24_0_0_0 concatenates_S64x64x1000_S64x64x24_S64x64x1024_d2 x))
      (coef w 7 slices_S8_S1_7) (roll S64x64x996 S64x64x28 28 slices_S64x64x1024_S64x64x996_0_0_28 slices_S64x64x1024_S64x64x28_0_0_0 concatenates_S64x64x996_S64x64x28_S64x64x1024_d2 x)

/-- The high-pass and the low-pass tap arrays (the program's two constant tables). -/
def hiW : FVec F S8 .f32 := fun i => FloatOps.ofBits .f32 (lit0 (S8.rowMajor i))
def loW : FVec F S8 .f32 := fun i => FloatOps.ofBits .f32 (lit1 (S8.rowMajor i))

/-- The six filtered arrays. -/
def cD1 (x : FVec F S64x64x1024 .f32) : FVec F S64x64x1024 .f32 := filt1 hiW x
def cA1 (x : FVec F S64x64x1024 .f32) : FVec F S64x64x1024 .f32 := filt1 loW x
def cD2 (x : FVec F S64x64x1024 .f32) : FVec F S64x64x1024 .f32 := filt2 hiW (cA1 x)
def cA2 (x : FVec F S64x64x1024 .f32) : FVec F S64x64x1024 .f32 := filt2 loW (cA1 x)
def cD3 (x : FVec F S64x64x1024 .f32) : FVec F S64x64x1024 .f32 := filt4 hiW (cA2 x)
def cA3 (x : FVec F S64x64x1024 .f32) : FVec F S64x64x1024 .f32 := filt4 loW (cA2 x)

/-- A coefficient array given a trailing unit axis. -/
def lift (y : FVec F S64x64x1024 .f32) : FVec F S64x64x1024x1 .f32 :=
  broadcastInDim S64x64x1024x1 ![0, 1, 2] bcast_S64x64x1024_S64x64x1024x1_0_1_2 y

/-- The four kept arrays stacked on the last axis (coarsest first) and that axis moved before time: [64, 64, 4, 1024]. -/
def stacked (x : FVec F S64x64x1024 .f32) : FVec F S64x64x4x1024 .f32 :=
  transpose S64x64x4x1024 [0, 1, 3, 2]
    (concatenate S64x64x1024x4 3 [⟨S64x64x1024x1, lift (cA3 x)⟩, ⟨S64x64x1024x1, lift (cD3 x)⟩, ⟨S64x64x1024x1, lift (cD2 x)⟩, ⟨S64x64x1024x1, lift (cD1 x)⟩]
      concatenates_S64x64x1024x1_S64x64x1024x1_S64x64x1024x1_S64x64x1024x1_S64x64x1024x4_d3)
    transposes_S64x64x1024x4_S64x64x4x1024_0_1_3_2

/-- Each row continued by eight copies of its last sample: [64, 64, 4, 1032]. -/
def paddedArr (x : FVec F S64x64x1024 .f32) : FVec F S64x64x4x1032 .f32 :=
  concatenate S64x64x4x1032 3 [⟨S64x64x4x1024, stacked x⟩,
    ⟨S64x64x4x8, shapeCast S64x64x4x8 (broadcastInDim S64x64x4x1x8 ![0, 1, 2, 3] bcast_S64x64x4x1_S64x64x4x1x8_0_1_2_3
      (extractStridedSlice S64x64x4x1 ![0, 0, 0, 1023] (stacked x) slices_S64x64x4x1024_S64x64x4x1_0_0_0_1023)) shapeCasts_S64x64x4x1x8_S64x64x4x8⟩]
    concatenates_S64x64x4x1024_S64x64x4x8_S64x64x4x1032_d3

/-- The constant table of start positions (patch `p`, sample `l`), as the program holds it. -/
def table : IVec S128x16 32 := fun i => lit2 (S128x16.rowMajor i)

/-- The table as the gather takes it: negative entries wrapped (none is: the mask is constantly false), a unit axis added. -/
def starts : IVec S128x16x1 32 :=
  broadcastInDim S128x16x1 ![0, 1] bcast_S128x16_S128x16x1_0_1
    (select (constantI S128x16 1 0#1) (addi table (broadcastInDim S128x16 ![] bcast_S_S128x16 (constantI S_ 32 1032#32))) table)

/-- The patches' features: gathered [64, 64, 4, 128, 16], reordered to [64, 64, 128, 16, 4], merged to [4096, 128, 64]. -/
def feats (x : FVec F S64x64x1024 .f32) : FVec F S4096x128x64 .f32 :=
  shapeCast S4096x128x64
    (transpose S64x64x128x16x4 [0, 1, 3, 4, 2]
      (Host.gather gather_S64x64x4x1032_S128x16x1_S64x64x4x128x16_012_3_n_n_3_2_646441 (paddedArr x) starts)
      transposes_S64x64x4x128x16_S64x64x128x16x4_0_1_3_4_2)
    shapeCasts_S64x64x128x16x4_S4096x128x64

/-- The reference's first result: the features contracted with the weight matrix. -/
def out (x : FVec F S64x64x1024 .f32) (W : FVec F S128x64 .f32) : FVec F S4096x128x128 .f32 :=
  Host.dotGeneral dot_S4096x128x64_S128x64_S4096x128x128_2_1_01_0_n_n none (feats x) W

/-- The reference's second result: the constant 64. -/
def outN : IVec S_ 32 := constantI S_ 32 64#32

end Cert.ReferenceIdeal.RefTerm

end
-- ==== Proof.RefLib.lean ====
/-
  Two small tactics for the reference program's lists of host operations: that each operation of a literal list writes
  one of a listed set of buffers, and that none of them leaves its result's contents undetermined.
-/
import Idealize.ShloMosaic.Lib.StableHlo.Run

namespace Cert.ReferenceIdeal.RefRun

open Idealize.ShloMosaic Idealize.ShloMosaic.StableHlo

/-- Closes `l.Forall fun op => op.writes ⊆ (W.map (Proc.devRef .tc)).toFinset` for a literal list `l` of the builders'
    operations and a literal list `W` of references: the statement is a conjunction, one conjunct an operation; each
    builder writes exactly its result buffer (`*_writes`), and that buffer is found in `W` by computation. -/
macro "ref_writes" : tactic =>
  `(tactic| (simp only [List.Forall]
             and_intros <;>
               (simp only [nullary_writes, unary_writes, binary_writes, ternary_writes, reshape_writes, nary_writes,
                  Finset.singleton_subset_iff, List.mem_toFinset]
                exact List.mem_map_of_mem (by decide))))

/-- Closes `∀ op ∈ l, op.fresh = ∅` for a literal list `l` of the builders' operations: membership is walked element
    by element, and each builder's operation determines its result by definition. -/
macro "ref_fresh" : tactic =>
  `(tactic| (intro _ h
             (repeat (cases h with | head => rfl | tail _ h => ?_))
             exact nomatch h))

end Cert.ReferenceIdeal.RefRun
-- ==== Proof.RefWin0.lean ====
/-
  The reference program's four leading constants: after them the two tap tables' buffers hold the high-pass and the
  low-pass tap arrays, the start-position table's buffer the table, the mask's buffer the constantly false mask, and
  every other buffer what it held.
-/
import proofs.«153623_j3599182594828_2_alg».proof.Proof.RefTab0
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the four leading constants, from contents `V`. -/
def afterConsts (V : Valuation τ sig (Elt F)) : Valuation τ sig (Elt F) := after p0 V

theorem p0_writes : (p0 : List (HloOp τ sig (Elt F))).Forall fun op =>
    op.writes ⊆ (p0_W.map (Proc.devRef (τ := τ) .tc)).toFinset := by ref_writes

theorem p0_fresh : ∀ op ∈ (p0 : List (HloOp τ sig (Elt F))), op.fresh = ∅ := by ref_fresh

/-- A buffer the constants do not write keeps its contents. -/
theorem afterConsts_keep (V : Valuation τ sig (Elt F)) (r : Ref sig .tc) (h : r ∉ p0_W) :
    afterConsts V (no_index (Proc.devRef .tc r)) = V (Proc.devRef .tc r) :=
  after_of_writes_sub p0 V p0_writes h

theorem afterConsts_cst (V : Valuation τ sig (Elt F)) :
    afterConsts V (no_index (Proc.devRef .tc main_cst)) = RefTerm.hiW (F := F) := by
  unfold afterConsts; simp only [p0]; after_results; rfl

theorem afterConsts_cst_0 (V : Valuation τ sig (Elt F)) :
    afterConsts V (no_index (Proc.devRef .tc main_cst_0)) = RefTerm.loW (F := F) := by
  unfold afterConsts; simp only [p0]; after_results; rfl

theorem afterConsts_c (V : Valuation τ sig (Elt F)) :
    afterConsts V (no_index (Proc.devRef .tc main_c)) = RefTerm.table := by
  unfold afterConsts; simp only [p0]; after_results; rfl

theorem afterConsts_c_1 (V : Valuation τ sig (Elt F)) :
    afterConsts V (no_index (Proc.devRef .tc main_c_1)) = constantI S128x16 1 0#1 := by
  unfold afterConsts; simp only [p0]; after_results

end Cert.ReferenceIdeal.RefRun

end
-- ==== Proof.RefWin1.lean ====
/-
  The reference program's first filter (its operations 5 … 70): from the zero array, eight taps, each the slice of the
  tap table at the tap, made a scalar, spread over the array, times the first argument rolled by the tap's offset
  (a call of an outlined roll: two slices and their concatenation), added to the running sum. Read back as one term.
-/
import proofs.«153623_j3599182594828_2_alg».proof.Proof.RefTab1
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first filter's operations, from contents `V`. -/
def afterD1 (V : Valuation τ sig (Elt F)) : Valuation τ sig (Elt F) := after p1 V

set_option maxRecDepth 8192 in
theorem p1_writes : (p1 : List (HloOp τ sig (Elt F))).Forall fun op =>
    op.writes ⊆ (p1_W.map (Proc.devRef (τ := τ) .tc)).toFinset := by ref_writes

set_option maxRecDepth 8192 in
theorem p1_fresh : ∀ op ∈ (p1 : List (HloOp τ sig (Elt F))), op.fresh = ∅ := by ref_fresh

/-- A buffer the filter's operations do not write keeps its contents. -/
theorem afterD1_keep (V : Valuation τ sig (Elt F)) (r : Ref sig .tc) (h : r ∉ p1_W) :
    afterD1 V (no_index (Proc.devRef .tc r)) = V (Proc.devRef .tc r) :=
  after_of_writes_sub p1 V p1_writes h

set_option maxRecDepth 8192 in
set_option maxHeartbeats 4000000 in
/-- The last running sum is the eight-tap correlation at dilation 1 of the first argument with the tap array found in
    the high-pass table's buffer: each operation's result read at its own buffer, every other buffer passed over. -/
theorem afterD1_res (V : Valuation τ sig (Elt F)) :
    afterD1 V (no_index (Proc.devRef .tc main_v48))
      = RefTerm.filt1 (V (Proc.devRef .tc main_cst)) (V (Proc.devRef .tc main_arg0)) := by
  unfold afterD1
  simp only [p1]
  after_results_simp
  rfl

end Cert.ReferenceIdeal.RefRun

end
-- ==== Proof.RefWin2.lean ====
/-
  The reference program's second filter (its operations 71 … 136, in two consecutive lists): the first filter's
  operations again with the low-pass tap table. Read back as one term.
-/
import proofs.«153623_j3599182594828_2_alg».proof.Proof.RefTab2
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the second filter's operations, from contents `V`. -/
def afterA1 (V : Valuation τ sig (Elt F)) : Valuation τ sig (Elt F) := after p3 (after p2 V)

set_option maxRecDepth 8192 in
theorem p2_writes : (p2 : List (HloOp τ sig (Elt F))).Forall fun op =>
    op.writes ⊆ (p2_W.map (Proc.devRef (τ := τ) .tc)).toFinset := by ref_writes

set_option maxRecDepth 8192 in
theorem p3_writes : (p3 : List (HloOp τ sig (Elt F))).Forall fun op =>
    op.writes ⊆ (p3_W.map (Proc.devRef (τ := τ) .tc)).toFinset := by ref_writes

set_option maxRecDepth 8192 in
theorem p2_fresh : ∀ op ∈ (p2 : List (HloOp τ sig (Elt F))), op.fresh = ∅ := by ref_fresh

set_option maxRecDepth 8192 in
theorem p3_fresh : ∀ op ∈ (p3 : List (HloOp τ sig (Elt F))), op.fresh = ∅ := by ref_fresh

/-- A buffer the filter's operations do not write keeps its contents. -/
theorem afterA1_keep (V : Valuation τ sig (Elt F)) (r : Ref sig .tc) (h : r ∉ p2_W) (h' : r ∉ p3_W) :
    afterA1 V (no_index (Proc.devRef .tc r)) = V (Proc.devRef .tc r) :=
  (after_of_writes_sub p3 _ p3_writes h').trans (after_of_writes_sub p2 V p2_writes h)

set_option maxRecDepth 8192 in
set_option maxHeartbeats 4000000 in
/-- The last running sum is the eight-tap correlation at dilation 1 of the first argument with the tap array found in
    the low-pass table's buffer. -/
theorem afterA1_res (V : Valuation τ sig (Elt F)) :
    afterA1 V (no_index (Proc.devRef .tc main_v97))
      = RefTerm.filt1 (V (Proc.devRef .tc main_cst_0)) (V (Proc.devRef .tc main_arg0)) := by
  unfold afterA1
  simp only [p2, p3]
  after_results_simp
  rfl

end Cert.ReferenceIdeal.RefRun

end
-- ==== Proof.RefWin3.lean ====
/-
  The reference program's third filter (its operations 137 … 202, in two consecutive lists): eight taps of the
  high-pass table at dilation 2 over the second filter's result. Read back as one term.
-/
import proofs.«153623_j3599182594828_2_alg».proof.Proof.RefTab3
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the third filter's operations, from contents `V`. -/
def afterD2 (V : Valuation τ sig (Elt F)) : Valuation τ sig (Elt F) := after p5 (after p4 V)

set_option maxRecDepth 8192 in
theorem p4_writes : (p4 : List (HloOp τ sig (Elt F))).Forall fun op =>
    op.writes ⊆ (p4_W.map (Proc.devRef (τ := τ) .tc)).toFinset := by ref_writes

set_option maxRecDepth 8192 in
theorem p5_writes : (p5 : List (HloOp τ sig (Elt F))).Forall fun op =>
    op.writes ⊆ (p5_W.map (Proc.devRef (τ := τ) .tc)).toFinset := by ref_writes

set_option maxRecDepth 8192 in
theorem p4_fresh : ∀ op ∈ (p4 : List (HloOp τ sig (Elt F))), op.fresh = ∅ := by ref_fresh

set_option maxRecDepth 8192 in
theorem p5_fresh : ∀ op ∈ (p5 : List (HloOp τ sig (Elt F))), op.fresh = ∅ := by ref_fresh

/-- A buffer the filter's operations do not write keeps its contents. -/
theorem afterD2_keep (V : Valuation τ sig (Elt F)) (r : Ref sig .tc) (h : r ∉ p4_W) (h' : r ∉ p5_W) :
    afterD2 V (no_index (Proc.devRef .tc r)) = V (Proc.devRef .tc r) :=
  (after_of_writes_sub p5 _ p5_writes h').trans (after_of_writes_sub p4 V p4_writes h)

set_option maxRecDepth 8192 in
set_option maxHeartbeats 4000000 in
/-- The last running sum is the eight-tap correlation at dilation 2 of the second filter's result with the tap array
    found in the high-pass table's buffer. -/
theorem afterD2_res (V : Valuation τ sig (Elt F)) :
    afterD2 V (no_index (Proc.devRef .tc main_v146))
      = RefTerm.filt2 (V (Proc.devRef .tc main_cst)) (V (Proc.devRef .tc main_v97)) := by
  unfold afterD2
  simp only [p4, p5]
  after_results_simp
  rfl

end Cert.ReferenceIdeal.RefRun

end
-- ==== Proof.RefWin4.lean ====
/-
  The reference program's fourth filter (its operations 203 … 268, in two consecutive lists): eight taps of the
  low-pass table at dilation 2 over the second filter's result. Read back as one term.
-/
import proofs.«153623_j3599182594828_2_alg».proof.Proof.RefTab4
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the fourth filter's operations, from contents `V`. -/
def afterA2 (V : Valuation τ sig (Elt F)) : Valuation τ sig (Elt F) := after p7 (after p6 V)

set_option maxRecDepth 8192 in
theorem p6_writes : (p6 : List (HloOp τ sig (Elt F))).Forall fun op =>
    op.writes ⊆ (p6_W.map (Proc.devRef (τ := τ) .tc)).toFinset := by ref_writes

set_option maxRecDepth 8192 in
theorem p7_writes : (p7 : List (HloOp τ sig (Elt F))).Forall fun op =>
    op.writes ⊆ (p7_W.map (Proc.devRef (τ := τ) .tc)).toFinset := by ref_writes

set_option maxRecDepth 8192 in
theorem p6_fresh : ∀ op ∈ (p6 : List (HloOp τ sig (Elt F))), op.fresh = ∅ := by ref_fresh

set_option maxRecDepth 8192 in
theorem p7_fresh : ∀ op ∈ (p7 : List (HloOp τ sig (Elt F))), op.fresh = ∅ := by ref_fresh

/-- A buffer the filter's operations do not write keeps its contents. -/
theorem afterA2_keep (V : Valuation τ sig (Elt F)) (r : Ref sig .tc) (h : r ∉ p6_W) (h' : r ∉ p7_W) :
    afterA2 V (no_index (Proc.devRef .tc r)) = V (Proc.devRef .tc r) :=
  (after_of_writes_sub p7 _ p7_writes h').trans (after_of_writes_sub p6 V p6_writes h)

set_option maxRecDepth 8192 in
set_option maxHeartbeats 4000000 in
/-- The last running sum is the eight-tap correlation at dilation 2 of the second filter's result with the tap array
    found in the low-pass table's buffer. -/
theorem afterA2_res (V : Valuation τ sig (Elt F)) :
    afterA2 V (no_index (Proc.devRef .tc main_v195))
      = RefTerm.filt2 (V (Proc.devRef .tc main_cst_0)) (V (Proc.devRef .tc main_v97)) := by
  unfold afterA2
  simp only [p6, p7]
  after_results_simp
  rfl

end Cert.ReferenceIdeal.RefRun

end
-- ==== Proof.RefWin5.lean ====
/-
  The reference program's fifth filter (its operations 269 … 334, in two consecutive lists): eight taps of the
  high-pass table at dilation 4 over the fourth filter's result. Read back as one term.
-/
import proofs.«153623_j3599182594828_2_alg».proof.Proof.RefTab5
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the fifth filter's operations, from contents `V`. -/
def afterD3 (V : Valuation τ sig (Elt F)) : Valuation τ sig (Elt F) := after p9 (after p8 V)

set_option maxRecDepth 8192 in
theorem p8_writes : (p8 : List (HloOp τ sig (Elt F))).Forall fun op =>
    op.writes ⊆ (p8_W.map (Proc.devRef (τ := τ) .tc)).toFinset := by ref_writes

set_option maxRecDepth 8192 in
theorem p9_writes : (p9 : List (HloOp τ sig (Elt F))).Forall fun op =>
    op.writes ⊆ (p9_W.map (Proc.devRef (τ := τ) .tc)).toFinset := by ref_writes

set_option maxRecDepth 8192 in
theorem p8_fresh : ∀ op ∈ (p8 : List (HloOp τ sig (Elt F))), op.fresh = ∅ := by ref_fresh

set_option maxRecDepth 8192 in
theorem p9_fresh : ∀ op ∈ (p9 : List (HloOp τ sig (Elt F))), op.fresh = ∅ := by ref_fresh

/-- A buffer the filter's operations do not write keeps its contents. -/
theorem afterD3_keep (V : Valuation τ sig (Elt F)) (r : Ref sig .tc) (h : r ∉ p8_W) (h' : r ∉ p9_W) :
    afterD3 V (no_index (Proc.devRef .tc r)) = V (Proc.devRef .tc r) :=
  (after_of_writes_sub p9 _ p9_writes h').trans (after_of_writes_sub p8 V p8_writes h)

set_option maxRecDepth 8192 in
set_option maxHeartbeats 4000000 in
/-- The last running sum is the eight-tap correlation at dilation 4 of the fourth filter's result with the tap array
    found in the high-pass table's buffer. -/
theorem afterD3_res (V : Valuation τ sig (Elt F)) :
    afterD3 V (no_index (Proc.devRef .tc main_v244))
      = RefTerm.filt4 (V (Proc.devRef .tc main_cst)) (V (Proc.devRef .tc main_v195)) := by
  unfold afterD3
  simp only [p8, p9]
  after_results_simp
  rfl

end Cert.ReferenceIdeal.RefRun

end
-- ==== Proof.RefWin6.lean ====
/-
  The reference program's sixth filter (its operations 335 … 400, in two consecutive lists): eight taps of the
  low-pass table at dilation 4 over the fourth filter's result. Read back as one term.
-/
import proofs.«153623_j3599182594828_2_alg».proof.Proof.RefTab6
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the sixth filter's operations, from contents `V`. -/
def afterA3 (V : Valuation τ sig (Elt F)) : Valuation τ sig (Elt F) := after p11 (after p10 V)

set_option maxRecDepth 8192 in
theorem p10_writes : (p10 : List (HloOp τ sig (Elt F))).Forall fun op =>
    op.writes ⊆ (p10_W.map (Proc.devRef (τ := τ) .tc)).toFinset := by ref_writes

set_option maxRecDepth 8192 in
theorem p11_writes : (p11 : List (HloOp τ sig (Elt F))).Forall fun op =>
    op.writes ⊆ (p11_W.map (Proc.devRef (τ := τ) .tc)).toFinset := by ref_writes

set_option maxRecDepth 8192 in
theorem p10_fresh : ∀ op ∈ (p10 : List (HloOp τ sig (Elt F))), op.fresh = ∅ := by ref_fresh

set_option maxRecDepth 8192 in
theorem p11_fresh : ∀ op ∈ (p11 : List (HloOp τ sig (Elt F))), op.fresh = ∅ := by ref_fresh

/-- A buffer the filter's operations do not write keeps its contents. -/
theorem afterA3_keep (V : Valuation τ sig (Elt F)) (r : Ref sig .tc) (h : r ∉ p10_W) (h' : r ∉ p11_W) :
    afterA3 V (no_index (Proc.devRef .tc r)) = V (Proc.devRef .tc r) :=
  (after_of_writes_sub p11 _ p11_writes h').trans (after_of_writes_sub p10 V p10_writes h)

set_option maxRecDepth 8192 in
set_option maxHeartbeats 4000000 in
/-- The last running sum is the eight-tap correlation at dilation 4 of the fourth filter's result with the tap array
    found in the low-pass table's buffer. -/
theorem afterA3_res (V : Valuation τ sig (Elt F)) :
    afterA3 V (no_index (Proc.devRef .tc main_v293))
      = RefTerm.filt4 (V (Proc.devRef .tc main_cst_0)) (V (Proc.devRef .tc main_v195)) := by
  unfold afterA3
  simp only [p10, p11]
  after_results_simp
  rfl

end Cert.ReferenceIdeal.RefRun

end
-- ==== Proof.RefWin7.lean ====
/-
  The reference program's tail (its operations 401 … 420): the four kept filtered arrays given a unit last axis and
  stacked on it, that axis moved before time, the last sample repeated eight times and appended, the start-position
  table wrapped (by the constantly false mask: not at all) and given a unit axis, the gather, the axes reordered and
  merged, the contraction with the second argument; and the constant 64. Read back as one term of what the buffers of
  the filtered arrays, the table and the mask hold.
-/
import proofs.«153623_j3599182594828_2_alg».proof.Proof.RefTab7
import proofs.«153623_j3599182594828_2_alg».proof.Proof.RefTerm
import proofs.«153623_j3599182594828_2_alg».proof.Proof.RefLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the tail's operations, from contents `V`. -/
def afterTail (V : Valuation τ sig (Elt F)) : Valuation τ sig (Elt F) := after p12 V

set_option maxRecDepth 8192 in
theorem p12_writes : (p12 : List (HloOp τ sig (Elt F))).Forall fun op =>
    op.writes ⊆ (p12_W.map (Proc.devRef (τ := τ) .tc)).toFinset := by ref_writes

set_option maxRecDepth 8192 in
theorem p12_fresh : ∀ op ∈ (p12 : List (HloOp τ sig (Elt F))), op.fresh = ∅ := by ref_fresh

/-- A buffer the tail's operations do not write keeps its contents. -/
theorem afterTail_keep (V : Valuation τ sig (Elt F)) (r : Ref sig .tc) (h : r ∉ p12_W) :
    afterTail V (no_index (Proc.devRef .tc r)) = V (Proc.devRef .tc r) :=
  after_of_writes_sub p12 V p12_writes h

/-- The rewriting of `after_results` once more, on a goal whose fold is already unrolled: each operation's result read
    at its own buffer, every other buffer passed over. -/
macro "results_again" : tactic =>
  `(tactic| (repeat (first
       | rw [nullary_result] | rw [unary_result] | rw [binary_result] | rw [ternary_result] | rw [reshape_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)
       | (rw [nary_result_ne]; rotate_left; decide))))

-- the operations' functions stay folded while the two sides are compared: the comparison never looks inside them
attribute [local irreducible] Host.gather concatenate transpose broadcastInDim extractStridedSlice
  shapeCast select addi in
set_option maxRecDepth 8192 in
set_option maxHeartbeats 1000000 in
/-- When the filtered arrays' buffers hold the six filters' results on an array `x` (the four kept ones are read), the
    table's buffer the table and the mask's buffer the constantly false mask, the first result is the features of `x`
    contracted with what the second argument's buffer holds. -/
theorem afterTail_out (V : Valuation τ sig (Elt F)) (x : FVec F S64x64x1024 .f32)
    (h293 : V (Proc.devRef .tc main_v293) = RefTerm.cA3 x) (h244 : V (Proc.devRef .tc main_v244) = RefTerm.cD3 x)
    (h146 : V (Proc.devRef .tc main_v146) = RefTerm.cD2 x) (h48 : V (Proc.devRef .tc main_v48) = RefTerm.cD1 x)
    (hc : V (Proc.devRef .tc main_c) = RefTerm.table) (hc1 : V (Proc.devRef .tc main_c_1) = constantI S128x16 1 0#1) :
    afterTail V (no_index (Proc.devRef .tc main_v311)) = RefTerm.out x (V (Proc.devRef .tc main_arg1)) := by
  unfold afterTail
  simp only [p12]
  after_results
  -- the stacking reads its four operands as a family over `Fin 4`: each is its own buffer once the family is read at
  -- the literal position, and the rewriting goes on below it
  dsimp only [Matrix.cons_val]
  results_again
  rw [h293, h244, h146, h48, hc, hc1]
  rfl

/-- The second result is the constant 64. -/
theorem afterTail_outN (V : Valuation τ sig (Elt F)) :
    afterTail V (no_index (Proc.devRef .tc main_c_9)) = RefTerm.outN := by
  unfold afterTail
  simp only [p12]
  after_results_simp
  rfl

end Cert.ReferenceIdeal.RefRun

end
-- ==== Proof.RefRun.lean ====
/-
  The reference program's run. @main is the straight line of its 420 host operations (RefMain), so every weakly fair
  execution terminates with each buffer at the fold of the operations' results over the launch contents (`run_seq`).
  The fold is read stage by stage — the four constants, the six filters, the tail — through each stage's own lemmas:
  a stage's result is its term of what the buffers it reads held before it, every buffer it does not write is passed
  over; composed, the first result buffer holds `RefTerm.out` of the two arguments' launch contents, the second the
  constant, and the arguments are unchanged.
-/
import proofs.«153623_j3599182594828_2_alg».proof.Proof.RefMain
import proofs.«153623_j3599182594828_2_alg».proof.Proof.RefWin0
import proofs.«153623_j3599182594828_2_alg».proof.Proof.RefWin1
import proofs.«153623_j3599182594828_2_alg».proof.Proof.RefWin2
import proofs.«153623_j3599182594828_2_alg».proof.Proof.RefWin3
import proofs.«153623_j3599182594828_2_alg».proof.Proof.RefWin4
import proofs.«153623_j3599182594828_2_alg».proof.Proof.RefWin5
import proofs.«153623_j3599182594828_2_alg».proof.Proof.RefWin6
import proofs.«153623_j3599182594828_2_alg».proof.Proof.RefWin7
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No operation of @main leaves its result undetermined: an operation of the whole list is one of a piece. -/
theorem ops_fresh : ∀ op ∈ (ops : List (HloOp τ sig (Elt F))), op.fresh = ∅ := fun op h => by
  simp only [ops, P0, P1, P2, P3, P4, P5, List.mem_append, or_assoc] at h
  rcases h with h | h | h | h | h | h | h | h | h | h | h | h | h
  exacts [p0_fresh op h, p1_fresh op h, p2_fresh op h, p3_fresh op h, p4_fresh op h, p5_fresh op h, p6_fresh op h,
    p7_fresh op h, p8_fresh op h, p9_fresh op h, p10_fresh op h, p11_fresh op h, p12_fresh op h]

/-- The buffer contents once the constants and the six filters have run. -/
def afterFilters (V0 : Valuation τ sig (Elt F)) : Valuation τ sig (Elt F) :=
  afterA3 (afterD3 (afterA2 (afterD2 (afterA1 (afterD1 (afterConsts V0))))))

/-- The whole fold is the stages' folds in turn (`after_append`; the stages unfold to the pieces). -/
theorem after_ops (V0 : Valuation τ sig (Elt F)) : after ops V0 = afterTail (afterFilters V0) := by
  simp only [ops, P0, P1, P2, P3, P4, P5, after_append]
  rfl

section Stages

variable (V0 : Valuation τ sig (Elt F))

-- each of these reads one buffer through the stages, last stage first: the stage that writes it gives its term
-- (`…_res`, the constants' lemmas), the others pass it over (`…_keep`, the buffer not among those the stage writes by
-- computation); the term is then the named one by unfolding the names
theorem filters_v48 : afterFilters V0 (Proc.devRef .tc main_v48) = RefTerm.cD1 (V0 (Proc.devRef .tc main_arg0)) := by
  unfold afterFilters
  simp (disch := decide) only [afterA3_keep, afterD3_keep, afterA2_keep, afterD2_keep, afterA1_keep, afterD1_keep,
    afterConsts_keep, afterD1_res, afterConsts_cst]
  rfl

theorem filters_v146 : afterFilters V0 (Proc.devRef .tc main_v146) = RefTerm.cD2 (V0 (Proc.devRef .tc main_arg0)) := by
  unfold afterFilters
  simp (disch := decide) only [afterA3_keep, afterD3_keep, afterA2_keep, afterD2_keep, afterA1_keep, afterD1_keep,
    afterConsts_keep, afterD2_res, afterA1_res, afterConsts_cst, afterConsts_cst_0]
  rfl

theorem filters_v244 : afterFilters V0 (Proc.devRef .tc main_v244) = RefTerm.cD3 (V0 (Proc.devRef .tc main_arg0)) := by
  unfold afterFilters
  simp (disch := decide) only [afterA3_keep, afterD3_keep, afterA2_keep, afterD2_keep, afterA1_keep, afterD1_keep,
    afterConsts_keep, afterD3_res, afterA2_res, afterA1_res, afterConsts_cst, afterConsts_cst_0]
  rfl

theorem filters_v293 : afterFilters V0 (Proc.devRef .tc main_v293) = RefTerm.cA3 (V0 (Proc.devRef .tc main_arg0)) := by
  unfold afterFilters
  simp (disch := decide) only [afterA3_keep, afterD3_keep, afterA2_keep, afterD2_keep, afterA1_keep, afterD1_keep,
    afterConsts_keep, afterA3_res, afterA2_res, afterA1_res, afterConsts_cst, afterConsts_cst_0]
  rfl

theorem filters_c : afterFilters V0 (Proc.devRef .tc main_c) = RefTerm.table := by
  unfold afterFilters
  simp (disch := decide) only [afterA3_keep, afterD3_keep, afterA2_keep, afterD2_keep, afterA1_keep, afterD1_keep,
    afterConsts_c]

theorem filters_c_1 : afterFilters V0 (Proc.devRef .tc main_c_1) = constantI S128x16 1 0#1 := by
  unfold afterFilters
  simp (disch := decide) only [afterA3_keep, afterD3_keep, afterA2_keep, afterD2_keep, afterA1_keep, afterD1_keep,
    afterConsts_c_1]

theorem filters_arg0 : afterFilters V0 (Proc.devRef .tc main_arg0) = V0 (Proc.devRef .tc main_arg0) := by
  unfold afterFilters
  simp (disch := decide) only [afterA3_keep, afterD3_keep, afterA2_keep, afterD2_keep, afterA1_keep, afterD1_keep,
    afterConsts_keep]

theorem filters_arg1 : afterFilters V0 (Proc.devRef .tc main_arg1) = V0 (Proc.devRef .tc main_arg1) := by
  unfold afterFilters
  simp (disch := decide) only [afterA3_keep, afterD3_keep, afterA2_keep, afterD2_keep, afterA1_keep, afterD1_keep,
    afterConsts_keep]

/-- The first result buffer after all of @main's operations. -/
theorem ops_v311 : after ops V0 (Proc.devRef .tc main_v311)
    = RefTerm.out (V0 (Proc.devRef .tc main_arg0)) (V0 (Proc.devRef .tc main_arg1)) := by
  rw [after_ops, afterTail_out (afterFilters V0) (V0 (Proc.devRef .tc main_arg0)) (filters_v293 V0) (filters_v244 V0)
    (filters_v146 V0) (filters_v48 V0) (filters_c V0) (filters_c_1 V0), filters_arg1]

/-- The second result buffer after all of @main's operations. -/
theorem ops_c_9 : after ops V0 (Proc.devRef .tc main_c_9) = RefTerm.outN := by
  rw [after_ops, afterTail_outN]

/-- The argument buffers after all of @main's operations: what they held. -/
theorem ops_arg0 : after ops V0 (Proc.devRef .tc main_arg0) = V0 (Proc.devRef .tc main_arg0) := by
  rw [after_ops, afterTail_keep _ main_arg0 (by decide), filters_arg0]

theorem ops_arg1 : after ops V0 (Proc.devRef .tc main_arg1) = V0 (Proc.devRef .tc main_arg1) := by
  rw [after_ops, afterTail_keep _ main_arg1 (by decide), filters_arg1]

end Stages

/-- On every device, for any float values, from any memory with zero counters: every weakly fair execution of @main
    terminates with the first result at `RefTerm.out` of the arguments' launch contents, the second at the constant,
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v311) = RefTerm.out (F := F) (m ((c.tc : Thread nD τ).loc main_arg0)) (m ((c.tc : Thread nD τ).loc main_arg1))
      ∧ r.2.mem ((c.tc : Thread nD τ).loc main_c_9) = RefTerm.outN
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v311).trans (ops_v311 (launchContents m c)),
      (h c main_c_9).trans (ops_c_9 (launchContents m c)),
      (h c main_arg0).trans (ops_arg0 (launchContents m c)),
      (h c main_arg1).trans (ops_arg1 (launchContents m c))⟩)
    (run_seq scopedRefs_eq scopedSems_eq defs main (fun _ => ops) main_eq (fun _ => ops_sub) m ρ (fun _ => ops_fresh))

end Cert.ReferenceIdeal.RefRun

end
-- ==== Proof.RefReadRoll.lean ====
/-
  The reference's roll of the last axis, read at an index: the array rolled `o` places reads, at sample `t`, the sample
  `o` places further round the circle of 1024. The roll is two slices joined — the part from `o` on (extent `m`), then
  the first `o` samples — so a sample below `m` falls in the first piece at `o + t`, and one from `m` on falls in the
  second at `t - m`; both are `(t + o) mod 1024` because `m + o = 1024`. This holds for any two extents with `m + o = 1024`, offset 0
  included (its second piece is empty and every sample falls in the first).
-/
import proofs.«153623_j3599182594828_2_alg».proof.Proof.RefTerm
import proofs.«153623_j3599182594828_2_alg».proof.Proof.Spec
import Idealize.ShloMosaic.Lib.Pipeline.Value
import Idealize.ShloMosaic.Lib.ValueIdx

noncomputable section

namespace Cert.ReferenceIdeal.RefRead

open Cert.ReferenceIdeal Idealize.ShloMosaic Idealize.ShloMosaic.ValueIdx

variable {F : FTy → Type} [FloatOps F]

/-- Moving no places is the identity. -/
theorem rot_zero (t : Fin 1024) : Cert.Wavelet.rot 0 t = t :=
  Fin.ext (by show (t.val + 0) % 1024 = t.val; have := t.isLt; omega)

/-- The rolled array at sample `t` is the array at the sample `o` places round the circle. -/
theorem roll_apply (m o : Nat) (hmo : m + o = 1024)
    (ha : S64x64x1024.Slices ![0, 0, o] ⟨3, ![64, 64, m]⟩) (hb : S64x64x1024.Slices ![0, 0, 0] ⟨3, ![64, 64, o]⟩)
    (hc : Shape.Concatenates [⟨3, ![64, 64, m]⟩, ⟨3, ![64, 64, o]⟩] S64x64x1024 2)
    (x : FVec F S64x64x1024 .f32) (a b : Fin 64) (t : Fin 1024) :
    RefTerm.roll ⟨3, ![64, 64, m]⟩ ⟨3, ![64, 64, o]⟩ o ha hb hc x (ix3 a b t) = x (ix3 a b (Cert.Wavelet.rot o t)) := by
  unfold RefTerm.roll
  by_cases h : t.val < m
  · -- the sample falls in the first piece, at the same position; the slice shifts it by `o`
    refine (concatenate_pair_apply_left (t := S64x64x1024) (s₁ := ⟨3, ![64, 64, m]⟩) (s₂ := ⟨3, ![64, 64, o]⟩) (2 : Fin 3) _ _ hc
      (ix3 a b t) rfl (ix3 a b (⟨t.val, h⟩ : Fin m)) ?_).trans ?_
    · intro c
      match c with
      | ⟨0, _⟩ => rfl
      | ⟨1, _⟩ => rfl
      | ⟨2, _⟩ => rfl
    · refine extractStridedSlice_apply _ x ha _ (ix3 a b (Cert.Wavelet.rot o t)) ?_
      intro c
      match c with
      | ⟨0, _⟩ => show a.val = 0 + a.val; omega
      | ⟨1, _⟩ => show b.val = 0 + b.val; omega
      | ⟨2, _⟩ => show (t.val + o) % 1024 = o + t.val; omega
  · -- the sample falls in the second piece, the first extent less; that piece starts at sample 0
    have ht := t.isLt
    refine (concatenate_pair_apply_right (t := S64x64x1024) (s₁ := ⟨3, ![64, 64, m]⟩) (s₂ := ⟨3, ![64, 64, o]⟩) (2 : Fin 3) _ _ hc
      (ix3 a b t) rfl rfl (ix3 a b (⟨t.val - m, by omega⟩ : Fin o)) ?_ ?_).trans ?_
    · intro c hc'
      match c with
      | ⟨0, _⟩ => rfl
      | ⟨1, _⟩ => rfl
      | ⟨2, _⟩ => exact absurd rfl hc'
    · show (t.val - m) + m = t.val
      omega
    · refine extractStridedSlice_apply _ x hb _ (ix3 a b (Cert.Wavelet.rot o t)) ?_
      intro c
      match c with
      | ⟨0, _⟩ => show a.val = 0 + a.val; omega
      | ⟨1, _⟩ => show b.val = 0 + b.val; omega
      | ⟨2, _⟩ => show (t.val + o) % 1024 = 0 + (t.val - m); omega

end Cert.ReferenceIdeal.RefRead

end
-- ==== Proof.RefReadCoef.lean ====
/-
  The coefficient side of one accumulation step, read at an index: a tap's coefficient spread over the array is, at every
  index, entry `k` of the tap array; the zero array is everywhere the zero word's value; and the two constant tap arrays
  hold, entry by entry, the high-pass and the low-pass taps (the same words, never evaluated).
-/
import proofs.«153623_j3599182594828_2_alg».proof.Proof.RefTerm
import proofs.«153623_j3599182594828_2_alg».proof.Proof.Spec
import Idealize.ShloMosaic.Lib.Pipeline.Value
import Idealize.ShloMosaic.Lib.ValueIdx

noncomputable section

namespace Cert.ReferenceIdeal.RefRead

open Cert.ReferenceIdeal Idealize.ShloMosaic Idealize.ShloMosaic.ValueIdx

section AnyInstance
variable {F : FTy → Type} [FloatOps F]

/-- Entry `k` of a tap array, spread over the whole array, reads that entry everywhere: the slice of extent one at
    `k`, made a scalar (both at row-major position 0), then broadcast. -/
theorem coef_apply (w : FVec F S8 .f32) (k : Nat) (hk8 : k < 8) (hk : S8.Slices ![k] S1) (j : S64x64x1024.Idx) :
    RefTerm.coef w k hk j = w (ix1 (⟨k, hk8⟩ : Fin 8)) := by
  unfold RefTerm.coef
  refine (broadcastInDim_apply _ _ _ j ix0 (fun a => a.elim0)).trans ?_
  refine (shapeCast_apply _ _ ix0 (ix1 (0 : Fin 1)) ?_).trans ?_
  · rw [Shape.rowMajor_val_one]
    exact (Shape.rowMajorPi_zero _ _).symm
  · refine extractStridedSlice_apply _ w hk _ (ix1 (⟨k, hk8⟩ : Fin 8)) ?_
    intro c
    match c with
    | ⟨0, _⟩ => show k = k + 0; omega

end AnyInstance

/-- The zero array reads the zero word's value everywhere. -/
theorem zeros_apply (j : S64x64x1024.Idx) : RefTerm.zeros (F := Ideal) j = Cert.Wavelet.z := by
  unfold RefTerm.zeros
  exact broadcastInDim_apply _ _ _ j ix0 (fun a => a.elim0)

/-- An index of the tap arrays' shape sits at the row-major position its coordinate names. -/
theorem rowMajor_S8 (k : Fin 8) : S8.rowMajor (ix1 k) = k := Fin.ext (Shape.rowMajor_val_one _)

/-- The program's first constant table holds the high-pass taps, in tap order. -/
theorem hiW_apply (k : Fin 8) : RefTerm.hiW (F := Ideal) (ix1 k) = Cert.Wavelet.hi k := by
  show Ideal.ofBits .f32 (lit0 (S8.rowMajor (ix1 k))) = Cert.Wavelet.hi k
  rw [rowMajor_S8]
  fin_cases k <;> rfl

/-- The program's second constant table holds the low-pass taps, in tap order. -/
theorem loW_apply (k : Fin 8) : RefTerm.loW (F := Ideal) (ix1 k) = Cert.Wavelet.lo k := by
  show Ideal.ofBits .f32 (lit1 (S8.rowMajor (ix1 k))) = Cert.Wavelet.lo k
  rw [rowMajor_S8]
  fin_cases k <;> rfl

end Cert.ReferenceIdeal.RefRead

end
-- ==== Proof.RefReadFilt.lean ====
/-
  The reference's three filters read at an index, and the six filtered arrays row by row. An accumulation step at an
  index is the running sum plus coefficient times rolled sample; with the roll and the coefficient read at an index the
  eight steps from the zero array are, term for term and in the same order, the eight-tap periodic correlation of the
  ROW at the filter's dilation. Each level filters the previous level's approximation, and the filter reads other samples
  of the same row only, so the six arrays are, row by row, the six rows of the transform.
-/
import proofs.«153623_j3599182594828_2_alg».proof.Proof.RefReadRoll
import proofs.«153623_j3599182594828_2_alg».proof.Proof.RefReadCoef

noncomputable section

namespace Cert.ReferenceIdeal.RefRead

open Cert.ReferenceIdeal Idealize.ShloMosaic Idealize.ShloMosaic.ValueIdx

/-- Row `b` of slab `a` of an array, as a signal row. -/
def row (x : FVec Ideal S64x64x1024 .f32) (a b : Fin 64) : Cert.Wavelet.Row := fun t => x (ix3 a b t)

theorem row_apply (x : FVec Ideal S64x64x1024 .f32) (a b : Fin 64) (t : Fin 1024) : row x a b t = x (ix3 a b t) := rfl

/-- The eight-tap correlation at dilation 1, read at an index: the filter of the row, in tap order from the zero. -/
theorem filt1_apply (w : FVec Ideal S8 .f32) (h : Fin 8 → EReal) (hw : ∀ k : Fin 8, w (ix1 k) = h k)
    (x : FVec Ideal S64x64x1024 .f32) (a b : Fin 64) (t : Fin 1024) :
    RefTerm.filt1 w x (ix3 a b t) = Cert.Wavelet.filt h 1 (row x a b) t := by
  unfold RefTerm.filt1 RefTerm.tap
  simp only [addf_apply, mulf_apply]
  rw [zeros_apply, roll_apply 1024 0 rfl, roll_apply 1023 1 rfl, roll_apply 1022 2 rfl, roll_apply 1021 3 rfl, roll_apply 1020 4 rfl, roll_apply 1019 5 rfl, roll_apply 1018 6 rfl, roll_apply 1017 7 rfl,
    coef_apply w 0 (by norm_num), coef_apply w 1 (by norm_num), coef_apply w 2 (by norm_num), coef_apply w 3 (by norm_num), coef_apply w 4 (by norm_num), coef_apply w 5 (by norm_num), coef_apply w 6 (by norm_num), coef_apply w 7 (by norm_num), rot_zero]
  simp only [hw]
  rfl

/-- The eight-tap correlation at dilation 2, read at an index: the filter of the row, in tap order from the zero. -/
theorem filt2_apply (w : FVec Ideal S8 .f32) (h : Fin 8 → EReal) (hw : ∀ k : Fin 8, w (ix1 k) = h k)
    (x : FVec Ideal S64x64x1024 .f32) (a b : Fin 64) (t : Fin 1024) :
    RefTerm.filt2 w x (ix3 a b t) = Cert.Wavelet.filt h 2 (row x a b) t := by
  unfold RefTerm.filt2 RefTerm.tap
  simp only [addf_apply, mulf_apply]
  rw [zeros_apply, roll_apply 1024 0 rfl, roll_apply 1022 2 rfl, roll_apply 1020 4 rfl, roll_apply 1018 6 rfl, roll_apply 1016 8 rfl, roll_apply 1014 10 rfl, roll_apply 1012 12 rfl, roll_apply 1010 14 rfl,
    coef_apply w 0 (by norm_num), coef_apply w 1 (by norm_num), coef_apply w 2 (by norm_num), coef_apply w 3 (by norm_num), coef_apply w 4 (by norm_num), coef_apply w 5 (by norm_num), coef_apply w 6 (by norm_num), coef_apply w 7 (by norm_num), rot_zero]
  simp only [hw]
  rfl

/-- The eight-tap correlation at dilation 4, read at an index: the filter of the row, in tap order from the zero. -/
theorem filt4_apply (w : FVec Ideal S8 .f32) (h : Fin 8 → EReal) (hw : ∀ k : Fin 8, w (ix1 k) = h k)
    (x : FVec Ideal S64x64x1024 .f32) (a b : Fin 64) (t : Fin 1024) :
    RefTerm.filt4 w x (ix3 a b t) = Cert.Wavelet.filt h 4 (row x a b) t := by
  unfold RefTerm.filt4 RefTerm.tap
  simp only [addf_apply, mulf_apply]
  rw [zeros_apply, roll_apply 1024 0 rfl, roll_apply 1020 4 rfl, roll_apply 1016 8 rfl, roll_apply 1012 12 rfl, roll_apply 1008 16 rfl, roll_apply 1004 20 rfl, roll_apply 1000 24 rfl, roll_apply 996 28 rfl,
    coef_apply w 0 (by norm_num), coef_apply w 1 (by norm_num), coef_apply w 2 (by norm_num), coef_apply w 3 (by norm_num), coef_apply w 4 (by norm_num), coef_apply w 5 (by norm_num), coef_apply w 6 (by norm_num), coef_apply w 7 (by norm_num), rot_zero]
  simp only [hw]
  rfl

/-! The six filtered arrays, row by row: each level filters the previous level's approximation ROW (the filter reads
other samples of the same row only). -/

theorem row_cD1 (x : FVec Ideal S64x64x1024 .f32) (a b : Fin 64) : row (RefTerm.cD1 x) a b = Cert.Wavelet.cD1 (row x a b) :=
  funext fun t => filt1_apply _ _ hiW_apply x a b t
theorem row_cA1 (x : FVec Ideal S64x64x1024 .f32) (a b : Fin 64) : row (RefTerm.cA1 x) a b = Cert.Wavelet.cA1 (row x a b) :=
  funext fun t => filt1_apply _ _ loW_apply x a b t
theorem row_cD2 (x : FVec Ideal S64x64x1024 .f32) (a b : Fin 64) : row (RefTerm.cD2 x) a b = Cert.Wavelet.cD2 (row x a b) :=
  funext fun t => (filt2_apply _ _ hiW_apply (RefTerm.cA1 x) a b t).trans (by rw [row_cA1]; rfl)
theorem row_cA2 (x : FVec Ideal S64x64x1024 .f32) (a b : Fin 64) : row (RefTerm.cA2 x) a b = Cert.Wavelet.cA2 (row x a b) :=
  funext fun t => (filt2_apply _ _ loW_apply (RefTerm.cA1 x) a b t).trans (by rw [row_cA1]; rfl)
theorem row_cD3 (x : FVec Ideal S64x64x1024 .f32) (a b : Fin 64) : row (RefTerm.cD3 x) a b = Cert.Wavelet.cD3 (row x a b) :=
  funext fun t => (filt4_apply _ _ hiW_apply (RefTerm.cA2 x) a b t).trans (by rw [row_cA2]; rfl)
theorem row_cA3 (x : FVec Ideal S64x64x1024 .f32) (a b : Fin 64) : row (RefTerm.cA3 x) a b = Cert.Wavelet.cA3 (row x a b) :=
  funext fun t => (filt4_apply _ _ loW_apply (RefTerm.cA2 x) a b t).trans (by rw [row_cA2]; rfl)

end Cert.ReferenceIdeal.RefRead

end
-- ==== Proof.RefReadStack.lean ====
/-
  The reference's tail up to the continued rows, read at an index. The four kept arrays are given a unit axis, joined on
  it (coarsest first) and that axis moved before time: the stacked array at (slab, row, channel, sample) is the
  channel's array at (slab, row, sample). Each row is then continued by eight copies of its last sample: below 1024 the
  continued array is the stacked one, from 1024 on it is the stacked one at sample 1023.
-/
import proofs.«153623_j3599182594828_2_alg».proof.Proof.RefTerm
import proofs.«153623_j3599182594828_2_alg».proof.Proof.Spec
import Idealize.ShloMosaic.Lib.Pipeline.Value
import Idealize.ShloMosaic.Lib.ValueIdx

noncomputable section

namespace Cert.ReferenceIdeal.RefRead

open Cert.ReferenceIdeal Idealize.ShloMosaic Idealize.ShloMosaic.ValueIdx

variable {F : FTy → Type} [FloatOps F]

/-- A coefficient array given a trailing unit axis reads the array at the leading coordinates. -/
theorem lift_apply (y : FVec F S64x64x1024 .f32) (a b : Fin 64) (t : Fin 1024) (u : Fin 1) :
    RefTerm.lift y (ix4 a b t u) = y (ix3 a b t) := by
  unfold RefTerm.lift
  refine broadcastInDim_apply _ _ y _ (ix3 a b t) ?_
  intro c
  match c with
  | ⟨0, _⟩ => rfl
  | ⟨1, _⟩ => rfl
  | ⟨2, _⟩ => rfl

/-- The four kept arrays, coarsest first: the last approximation, then the details of levels 3, 2, 1. -/
def chanArr (c : Fin 4) (x : FVec F S64x64x1024 .f32) : FVec F S64x64x1024 .f32 :=
  match c with
  | 0 => RefTerm.cA3 x
  | 1 => RefTerm.cD3 x
  | 2 => RefTerm.cD2 x
  | 3 => RefTerm.cD1 x

/-- The stacked array at (slab, row, channel, sample) is the channel's array at (slab, row, sample): the transpose
    moves the channel axis back to last, where the channel names one of the four unit-extent pieces. -/
theorem stacked_apply (x : FVec F S64x64x1024 .f32) (a b : Fin 64) (c : Fin 4) (t : Fin 1024) :
    RefTerm.stacked x (ix4 a b c t) = chanArr c x (ix3 a b t) := by
  unfold RefTerm.stacked
  refine (transpose_apply _ _ _ (ix4 a b c t) (ix4 a b t c) ?_).trans ?_
  · intro e
    match e with
    | ⟨0, _⟩ => rfl
    | ⟨1, _⟩ => rfl
    | ⟨2, _⟩ => rfl
    | ⟨3, _⟩ => rfl
  · fin_cases c
    · refine Eq.trans (concatenate_apply_piece (α := F .f32) (t := S64x64x1024x4) (3 : Fin 4)
        [⟨S64x64x1024x1, RefTerm.lift (RefTerm.cA3 x)⟩, ⟨S64x64x1024x1, RefTerm.lift (RefTerm.cD3 x)⟩, ⟨S64x64x1024x1, RefTerm.lift (RefTerm.cD2 x)⟩, ⟨S64x64x1024x1, RefTerm.lift (RefTerm.cD1 x)⟩]
        _ (ix4 a b t _) 0 (by show 0 < 4; norm_num) S64x64x1024x1 (RefTerm.lift (RefTerm.cA3 x)) rfl rfl 0 rfl
        (ix4 a b t (0 : Fin 1)) ?_ rfl) (lift_apply _ a b t 0)
      intro e he
      match e with
      | ⟨0, _⟩ => rfl
      | ⟨1, _⟩ => rfl
      | ⟨2, _⟩ => rfl
      | ⟨3, _⟩ => exact absurd rfl he
    · refine Eq.trans (concatenate_apply_piece (α := F .f32) (t := S64x64x1024x4) (3 : Fin 4)
        [⟨S64x64x1024x1, RefTerm.lift (RefTerm.cA3 x)⟩, ⟨S64x64x1024x1, RefTerm.lift (RefTerm.cD3 x)⟩, ⟨S64x64x1024x1, RefTerm.lift (RefTerm.cD2 x)⟩, ⟨S64x64x1024x1, RefTerm.lift (RefTerm.cD1 x)⟩]
        _ (ix4 a b t _) 1 (by show 1 < 4; norm_num) S64x64x1024x1 (RefTerm.lift (RefTerm.cD3 x)) rfl rfl 1 rfl
        (ix4 a b t (0 : Fin 1)) ?_ rfl) (lift_apply _ a b t 0)
      intro e he
      match e with
      | ⟨0, _⟩ => rfl
      | ⟨1, _⟩ => rfl
      | ⟨2, _⟩ => rfl
      | ⟨3, _⟩ => exact absurd rfl he
    · refine Eq.trans (concatenate_apply_piece (α := F .f32) (t := S64x64x1024x4) (3 : Fin 4)
        [⟨S64x64x1024x1, RefTerm.lift (RefTerm.cA3 x)⟩, ⟨S64x64x1024x1, RefTerm.lift (RefTerm.cD3 x)⟩, ⟨S64x64x1024x1, RefTerm.lift (RefTerm.cD2 x)⟩, ⟨S64x64x1024x1, RefTerm.lift (RefTerm.cD1 x)⟩]
        _ (ix4 a b t _) 2 (by show 2 < 4; norm_num) S64x64x1024x1 (RefTerm.lift (RefTerm.cD2 x)) rfl rfl 2 rfl
        (ix4 a b t (0 : Fin 1)) ?_ rfl) (lift_apply _ a b t 0)
      intro e he
      match e with
      | ⟨0, _⟩ => rfl
      | ⟨1, _⟩ => rfl
      | ⟨2, _⟩ => rfl
      | ⟨3, _⟩ => exact absurd rfl he
    · refine Eq.trans (concatenate_apply_piece (α := F .f32) (t := S64x64x1024x4) (3 : Fin 4)
        [⟨S64x64x1024x1, RefTerm.lift (RefTerm.cA3 x)⟩, ⟨S64x64x1024x1, RefTerm.lift (RefTerm.cD3 x)⟩, ⟨S64x64x1024x1, RefTerm.lift (RefTerm.cD2 x)⟩, ⟨S64x64x1024x1, RefTerm.lift (RefTerm.cD1 x)⟩]
        _ (ix4 a b t _) 3 (by show 3 < 4; norm_num) S64x64x1024x1 (RefTerm.lift (RefTerm.cD1 x)) rfl rfl 3 rfl
        (ix4 a b t (0 : Fin 1)) ?_ rfl) (lift_apply _ a b t 0)
      intro e he
      match e with
      | ⟨0, _⟩ => rfl
      | ⟨1, _⟩ => rfl
      | ⟨2, _⟩ => rfl
      | ⟨3, _⟩ => exact absurd rfl he

/-- The continued array at (slab, row, channel, position `u`): below 1024 the stacked array there, from 1024 on its
    last sample — the slice at sample 1023 repeated eight times along a new axis, that axis merged with the unit sample
    axis (same row-major position), joined after the 1024 samples. -/
theorem paddedArr_apply (x : FVec Ideal S64x64x1024 .f32) (a b : Fin 64) (c : Fin 4) (u : Fin 1032) :
    RefTerm.paddedArr x (ix4 a b c u) = Cert.Wavelet.padded (fun t => RefTerm.stacked x (ix4 a b c t)) u.val := by
  unfold RefTerm.paddedArr Cert.Wavelet.padded
  by_cases h : u.val < 1024
  · rw [dif_pos h]
    refine concatenate_pair_apply_left (t := S64x64x4x1032) (s₁ := S64x64x4x1024) (s₂ := S64x64x4x8) (3 : Fin 4) _ _ _
      (ix4 a b c u) rfl (ix4 a b c (⟨u.val, h⟩ : Fin 1024)) ?_
    intro e
    match e with
    | ⟨0, _⟩ => rfl
    | ⟨1, _⟩ => rfl
    | ⟨2, _⟩ => rfl
    | ⟨3, _⟩ => rfl
  · rw [dif_neg h]
    have hu := u.isLt
    refine (concatenate_pair_apply_right (t := S64x64x4x1032) (s₁ := S64x64x4x1024) (s₂ := S64x64x4x8) (3 : Fin 4) _ _ _
      (ix4 a b c u) rfl rfl (ix4 a b c (⟨u.val - 1024, by omega⟩ : Fin 8)) ?_ ?_).trans ?_
    · intro e he
      match e with
      | ⟨0, _⟩ => rfl
      | ⟨1, _⟩ => rfl
      | ⟨2, _⟩ => rfl
      | ⟨3, _⟩ => exact absurd rfl he
    · show (u.val - 1024) + 1024 = u.val
      omega
    · refine (shapeCast_apply _ _ (ix4 a b c (⟨u.val - 1024, by omega⟩ : Fin 8))
        (ix5 a b c (0 : Fin 1) (⟨u.val - 1024, by omega⟩ : Fin 8)) ?_).trans ?_
      · rw [Shape.rowMajor_val_five, Shape.rowMajor_val_four]
        show (((a.val * 64 + b.val) * 4 + c.val) * 1 + 0) * 8 + (u.val - 1024) = ((a.val * 64 + b.val) * 4 + c.val) * 8 + (u.val - 1024)
        omega
      · refine (broadcastInDim_apply _ _ _ (ix5 a b c (0 : Fin 1) (⟨u.val - 1024, by omega⟩ : Fin 8)) (ix4 a b c (0 : Fin 1)) ?_).trans ?_
        · intro e
          match e with
          | ⟨0, _⟩ => rfl
          | ⟨1, _⟩ => rfl
          | ⟨2, _⟩ => rfl
          | ⟨3, _⟩ => rfl
        · refine extractStridedSlice_apply _ _ _ (ix4 a b c (0 : Fin 1)) (ix4 a b c (⟨1023, by norm_num⟩ : Fin 1024)) ?_
          intro e
          match e with
          | ⟨0, _⟩ => show a.val = 0 + a.val; omega
          | ⟨1, _⟩ => show b.val = 0 + b.val; omega
          | ⟨2, _⟩ => show c.val = 0 + c.val; omega
          | ⟨3, _⟩ => rfl

end Cert.ReferenceIdeal.RefRead

end
-- ==== Proof.RefReadTable.lean ====
/-
  The reference's constant table of start positions: entry `16 p + l` (patch `p`, sample `l`) is the word `8 p + l`,
  a closed statement over its 2048 entries.
-/
import proofs.«153623_j3599182594828_2_alg».proof.ReferenceIdeal

namespace Cert.ReferenceIdeal.RefRead

open Cert.ReferenceIdeal Idealize.ShloMosaic

/-- Entry `i` of the table is the word `8 (i / 16) + i mod 16`. -/
theorem lit2_eq : ∀ i : Fin 2048, lit2 i = BitVec.ofNat 32 (8 * (i.val / 16) + i.val % 16) := by
  decide +kernel

end Cert.ReferenceIdeal.RefRead
-- ==== Proof.RefReadGather.lean ====
/-
  The reference's gather of the patches, read at an index. The table of start positions holds the word `8 p + l` at
  (patch `p`, sample `l`); the array the gather takes is the table itself (the select that would wrap a negative entry
  has a constantly false mask); and the gather reads its operand at the same slab, row and channel and, on the sample
  axis, at that start index read signed and clamped to the axis.
-/
import proofs.«153623_j3599182594828_2_alg».proof.Proof.RefTerm
import proofs.«153623_j3599182594828_2_alg».proof.Proof.RefReadTable
import Idealize.ShloMosaic.Lib.Pipeline.Value
import Idealize.ShloMosaic.Lib.ValueIdx

noncomputable section

namespace Cert.ReferenceIdeal.RefRead

open Cert.ReferenceIdeal Idealize.ShloMosaic Idealize.ShloMosaic.ValueIdx

/-- The entry at row-major position `16 p + l`, `l` below 16, is the word `8 p + l`. -/
theorem lit2_at (i : Fin 2048) (p l : Nat) (hl : l < 16) (hi : i.val = p * 16 + l) :
    lit2 i = BitVec.ofNat 32 (8 * p + l) := by
  rw [lit2_eq i, hi]
  refine congrArg (BitVec.ofNat 32) ?_
  omega

/-- The table at (patch `p`, sample `l`) is the word `8 p + l`: its row-major position is `16 p + l`. -/
theorem table_apply (p : Fin 128) (l : Fin 16) : RefTerm.table (ix2 p l) = BitVec.ofNat 32 (8 * p.val + l.val) := by
  unfold RefTerm.table
  exact lit2_at _ p.val l.val l.isLt (Shape.rowMajor_val_two _)

/-- The start indices the gather takes: the mask that would wrap a negative entry is constantly false, so the select
    is the table itself, carried to the added unit axis. -/
theorem starts_apply (p : Fin 128) (l : Fin 16) (u : Fin 1) :
    RefTerm.starts (ix3 p l u) = BitVec.ofNat 32 (8 * p.val + l.val) := by
  unfold RefTerm.starts
  refine (broadcastInDim_apply _ _ _ (ix3 p l u) (ix2 p l) ?_).trans ?_
  · intro e
    match e with
    | ⟨0, _⟩ => rfl
    | ⟨1, _⟩ => rfl
  · exact (select_zero _ _).trans (table_apply p l)

/-- A word below 2^31 read signed is itself. -/
theorem toInt_toNat_ofNat (n : Nat) (hn : n < 2147483648) : (BitVec.ofNat 32 n).toInt.toNat = n := by
  rw [BitVec.toInt_eq_toNat_cond, BitVec.toNat_ofNat]
  have h2 : n % 2 ^ 32 = n := Nat.mod_eq_of_lt (by omega)
  rw [h2, if_pos (by omega)]
  exact Int.toNat_natCast n

local notation "GD" => gather_S64x64x4x1032_S128x16x1_S64x64x4x128x16_012_3_n_n_3_2_646441

/-! The gather's operand index at result index (slab, row, channel, patch, sample), axis by axis: the three leading
axes are offset axes (the slice is whole there, no start index), the sample axis is collapsed and is the one the start
index names; there is no batching axis. -/

theorem gather_coord0 (idx : IVec S128x16x1 32) (a b : Fin 64) (c : Fin 4) (p : Fin 128) (l : Fin 16) :
    (GatherDims.operandIdx GD (ix5 a b c p l) idx (0 : Fin 4)).val = a.val := by
  show GatherDims.start GD (ix5 a b c p l) idx (0 : Fin 4) + GatherDims.batchCoord GD (ix5 a b c p l) (0 : Fin 4)
    + GatherDims.offCoord GD (ix5 a b c p l) (0 : Fin 4) = _
  rw [GatherDims.batchCoord_eq_zero _ _ _ List.not_mem_nil, Nat.add_zero]
  unfold GatherDims.start GatherDims.offCoord
  rw [dif_neg (show ¬ ((0 : Fin 4) ∈ GatherDims.startIndexMap GD) by decide),
    dif_pos (show (0 : Fin 4) ∈ GatherDims.sKept GD by decide), Nat.zero_add]
  rfl

theorem gather_coord1 (idx : IVec S128x16x1 32) (a b : Fin 64) (c : Fin 4) (p : Fin 128) (l : Fin 16) :
    (GatherDims.operandIdx GD (ix5 a b c p l) idx (1 : Fin 4)).val = b.val := by
  show GatherDims.start GD (ix5 a b c p l) idx (1 : Fin 4) + GatherDims.batchCoord GD (ix5 a b c p l) (1 : Fin 4)
    + GatherDims.offCoord GD (ix5 a b c p l) (1 : Fin 4) = _
  rw [GatherDims.batchCoord_eq_zero _ _ _ List.not_mem_nil, Nat.add_zero]
  unfold GatherDims.start GatherDims.offCoord
  rw [dif_neg (show ¬ ((1 : Fin 4) ∈ GatherDims.startIndexMap GD) by decide),
    dif_pos (show (1 : Fin 4) ∈ GatherDims.sKept GD by decide), Nat.zero_add]
  rfl

theorem gather_coord2 (idx : IVec S128x16x1 32) (a b : Fin 64) (c : Fin 4) (p : Fin 128) (l : Fin 16) :
    (GatherDims.operandIdx GD (ix5 a b c p l) idx (2 : Fin 4)).val = c.val := by
  show GatherDims.start GD (ix5 a b c p l) idx (2 : Fin 4) + GatherDims.batchCoord GD (ix5 a b c p l) (2 : Fin 4)
    + GatherDims.offCoord GD (ix5 a b c p l) (2 : Fin 4) = _
  rw [GatherDims.batchCoord_eq_zero _ _ _ List.not_mem_nil, Nat.add_zero]
  unfold GatherDims.start GatherDims.offCoord
  rw [dif_neg (show ¬ ((2 : Fin 4) ∈ GatherDims.startIndexMap GD) by decide),
    dif_pos (show (2 : Fin 4) ∈ GatherDims.sKept GD by decide), Nat.zero_add]
  rfl

theorem gather_coord3 (idx : IVec S128x16x1 32) (a b : Fin 64) (c : Fin 4) (p : Fin 128) (l : Fin 16) :
    (GatherDims.operandIdx GD (ix5 a b c p l) idx (3 : Fin 4)).val = min (idx (ix3 p l (0 : Fin 1))).toInt.toNat 1031 := by
  show GatherDims.start GD (ix5 a b c p l) idx (3 : Fin 4) + GatherDims.batchCoord GD (ix5 a b c p l) (3 : Fin 4)
    + GatherDims.offCoord GD (ix5 a b c p l) (3 : Fin 4) = _
  rw [GatherDims.batchCoord_eq_zero _ _ _ List.not_mem_nil, Nat.add_zero]
  unfold GatherDims.start GatherDims.offCoord
  rw [dif_pos (show (3 : Fin 4) ∈ GatherDims.startIndexMap GD by decide),
    dif_neg (show ¬ ((3 : Fin 4) ∈ GatherDims.sKept GD) by decide), Nat.add_zero]
  have hsi : GatherDims.siIdx GD (ix5 a b c p l) ⟨List.idxOf (3 : Fin 4) (GatherDims.startIndexMap GD),
      List.idxOf_lt_length_iff.2 (show (3 : Fin 4) ∈ GatherDims.startIndexMap GD by decide)⟩ = ix3 p l (0 : Fin 1) := by
    funext d; refine Fin.ext ?_
    match d with
    | ⟨0, _⟩ => rfl
    | ⟨1, _⟩ => rfl
    | ⟨2, _⟩ => rfl
  rw [hsi]
  rfl

/-- The gather of the patches read at (slab, row, channel, patch, sample): the operand at the same slab, row and
    channel and, on the sample axis, at the start index the table gives for (patch, sample), read signed and clamped to
    the axis. -/
theorem gather_apply {α : Type} (y : S64x64x4x1032.Idx → α) (idx : IVec S128x16x1 32)
    (a b : Fin 64) (c : Fin 4) (p : Fin 128) (l : Fin 16) :
    Host.gather GD y idx (ix5 a b c p l)
      = y (ix4 a b c (⟨min (idx (ix3 p l (0 : Fin 1))).toInt.toNat 1031, by omega⟩ : Fin 1032)) := by
  unfold Host.gather
  refine congrArg y (funext fun e => Fin.ext ?_)
  match e with
  | ⟨0, _⟩ => exact gather_coord0 idx a b c p l
  | ⟨1, _⟩ => exact gather_coord1 idx a b c p l
  | ⟨2, _⟩ => exact gather_coord2 idx a b c p l
  | ⟨3, _⟩ => exact gather_coord3 idx a b c p l

end Cert.ReferenceIdeal.RefRead

end
-- ==== Proof.RefReadDot.lean ====
/-
  The reference's last operation read at an index: the contraction of the features with the weight matrix is, at
  (row, patch, output), the sum over the sixty-four features of feature times weight.
-/
import proofs.«153623_j3599182594828_2_alg».proof.Proof.RefTerm
import Idealize.ShloMosaic.Lib.ValueIdx
import Idealize.ShloMosaic.PureOps.Ideal.Laws

noncomputable section

namespace Cert.ReferenceIdeal.RefRead

open scoped BigOperators
open Cert.ReferenceIdeal Idealize.ShloMosaic Idealize.ShloMosaic.ValueIdx

local notation "DD" => dot_S4096x128x64_S128x64_S4096x128x128_2_1_01_0_n_n

/-! The contraction's operand indices at result index `i` and contraction index `q`, axis by axis: a free axis reads
the result index at its position (the left operand's two free axes first, then the right operand's one), the one
contracted axis reads the contraction index. -/

theorem lhs_out_0 (i : S4096x128x128.Idx) (q : (DotDims.contr DD).Idx) : (DotDims.lhsIdx DD i q 0).val = (i 0).val := by
  unfold DotDims.lhsIdx
  rw [dif_neg (show ¬(0 : Fin S4096x128x64.rank) ∈ DotDims.lhsBatch DD by decide),
    dif_pos (show (0 : Fin S4096x128x64.rank) ∈ DotDims.lhsNonContracting DD by decide)]
  rfl
theorem lhs_out_1 (i : S4096x128x128.Idx) (q : (DotDims.contr DD).Idx) : (DotDims.lhsIdx DD i q 1).val = (i 1).val := by
  unfold DotDims.lhsIdx
  rw [dif_neg (show ¬(1 : Fin S4096x128x64.rank) ∈ DotDims.lhsBatch DD by decide),
    dif_pos (show (1 : Fin S4096x128x64.rank) ∈ DotDims.lhsNonContracting DD by decide)]
  rfl
theorem lhs_out_2 (i : S4096x128x128.Idx) (q : (DotDims.contr DD).Idx) :
    (DotDims.lhsIdx DD i q 2).val = (q ⟨0, by decide⟩).val :=
  DotDims.lhsIdx_val_of_single DD rfl i q
theorem rhs_out_0 (i : S4096x128x128.Idx) (q : (DotDims.contr DD).Idx) : (DotDims.rhsIdx DD i q 0).val = (i 2).val := by
  unfold DotDims.rhsIdx
  rw [dif_neg (show ¬(0 : Fin S128x64.rank) ∈ DotDims.rhsBatch DD by decide),
    dif_pos (show (0 : Fin S128x64.rank) ∈ DotDims.rhsNonContracting DD by decide)]
  rfl
theorem rhs_out_1 (i : S4096x128x128.Idx) (q : (DotDims.contr DD).Idx) :
    (DotDims.rhsIdx DD i q 1).val = (q ⟨0, by decide⟩).val :=
  DotDims.rhsIdx_val_of_single DD rfl i q

/-- The reference's result at (row, patch, output): the sum over the sixty-four features of the patch's feature times
    the output's weight, the contraction's one axis re-indexed by its coordinate. -/
theorem out_apply (x : FVec Ideal S64x64x1024 .f32) (W : FVec Ideal S128x64 .f32) (r : Fin 4096) (p d : Fin 128) :
    RefTerm.out (F := Ideal) x W (ix3 r p d) = ∑ f : Fin 64, RefTerm.feats x (ix3 r p f) * W (ix2 d f) := by
  unfold RefTerm.out
  simp only [Host.dotGeneral]
  rw [Ideal.dotGeneral_apply, ← Equiv.sum_comp (contrEquiv1 DD 64 rfl rfl).symm]
  refine Finset.sum_congr rfl fun k _ => ?_
  have hk := contrEquiv1_symm_val DD 64 rfl rfl k
  have el : DotDims.lhsIdx DD (ix3 r p d) ((contrEquiv1 DD 64 rfl rfl).symm k) = ix3 r p k := funext fun a => Fin.ext (by
    match a with
    | ⟨0, _⟩ => exact lhs_out_0 _ _
    | ⟨1, _⟩ => exact lhs_out_1 _ _
    | ⟨2, _⟩ => exact (lhs_out_2 _ _).trans hk)
  have er : DotDims.rhsIdx DD (ix3 r p d) ((contrEquiv1 DD 64 rfl rfl).symm k) = ix2 d k := funext fun a => Fin.ext (by
    match a with
    | ⟨0, _⟩ => exact rhs_out_0 _ _
    | ⟨1, _⟩ => exact (rhs_out_1 _ _).trans hk)
  rw [el, er]

end Cert.ReferenceIdeal.RefRead

end
-- ==== Proof.RefRead.lean ====
/-
  THE REFERENCE'S TERM IS THE SPECIFICATION'S FUNCTION. The pieces: the three filters read at an index give the six
  filtered arrays row by row; the stacked and continued arrays read at an index give each channel's continued row; the
  gather reads it at the table's start position `8 p + l`; the reorder and the merge name (slab, row, sample, channel)
  from (row, feature); and the contraction is the sum over the features. Same sums in the same order on both sides: no
  algebraic law is used.
-/
import proofs.«153623_j3599182594828_2_alg».proof.Proof.RefReadFilt
import proofs.«153623_j3599182594828_2_alg».proof.Proof.RefReadStack
import proofs.«153623_j3599182594828_2_alg».proof.Proof.RefReadGather
import proofs.«153623_j3599182594828_2_alg».proof.Proof.RefReadDot

noncomputable section

namespace Cert.ReferenceIdeal.RefRead

open scoped BigOperators
open Cert.ReferenceIdeal Idealize.ShloMosaic Idealize.ShloMosaic.ValueIdx

/-- Every channel's array is, row by row, the channel's row of the transform. -/
theorem row_chanArr (c : Fin 4) (x : FVec Ideal S64x64x1024 .f32) (a b : Fin 64) :
    row (chanArr c x) a b = Cert.Wavelet.chan c (row x a b) := by
  fin_cases c
  · exact row_cA3 x a b
  · exact row_cD3 x a b
  · exact row_cD2 x a b
  · exact row_cD1 x a b

/-- The features at (row `r`, patch `p`, feature `f`): the merge of (slab, row) and of (sample, channel) keeps the
    row-major position, so slab `r / 64`, row `r mod 64`, sample `f / 4`, channel `f mod 4`; the reorder moves the
    channel axis back before the patch; the gather reads the continued row at the table's start `8 p + f / 4`, which is
    below 1032, so the clamp does nothing. -/
theorem feats_apply (x : FVec Ideal S64x64x1024 .f32) (r : Fin 4096) (p : Fin 128) (f : Fin 64) :
    RefTerm.feats x (ix3 r p f)
      = Cert.Wavelet.padded (fun t => RefTerm.stacked x (ix4 (⟨r.val / 64, by have := r.isLt; omega⟩ : Fin 64)
          (⟨r.val % 64, Nat.mod_lt _ (by norm_num)⟩ : Fin 64) (⟨f.val % 4, Nat.mod_lt _ (by norm_num)⟩ : Fin 4) t))
        (8 * p.val + f.val / 4) := by
  have hr := r.isLt
  have hp := p.isLt
  have hf := f.isLt
  unfold RefTerm.feats
  refine (shapeCast_apply _ _ (ix3 r p f) (ix5 (⟨r.val / 64, by omega⟩ : Fin 64) (⟨r.val % 64, by omega⟩ : Fin 64) p
    (⟨f.val / 4, by omega⟩ : Fin 16) (⟨f.val % 4, by omega⟩ : Fin 4)) ?_).trans ?_
  · rw [Shape.rowMajor_val_five, Shape.rowMajor_val_three]
    show ((((r.val / 64) * 64 + r.val % 64) * 128 + p.val) * 16 + f.val / 4) * 4 + f.val % 4 = (r.val * 128 + p.val) * 64 + f.val
    omega
  refine (transpose_apply _ _ _ _ (ix5 (⟨r.val / 64, by omega⟩ : Fin 64) (⟨r.val % 64, by omega⟩ : Fin 64)
    (⟨f.val % 4, by omega⟩ : Fin 4) p (⟨f.val / 4, by omega⟩ : Fin 16)) ?_).trans ?_
  · intro e
    match e with
    | ⟨0, _⟩ => rfl
    | ⟨1, _⟩ => rfl
    | ⟨2, _⟩ => rfl
    | ⟨3, _⟩ => rfl
    | ⟨4, _⟩ => rfl
  refine (gather_apply _ _ _ _ _ _ _).trans ?_
  refine (paddedArr_apply x _ _ _ _).trans ?_
  refine congrArg (Cert.Wavelet.padded _) ?_
  show min (RefTerm.starts (ix3 p (⟨f.val / 4, by omega⟩ : Fin 16) (0 : Fin 1))).toInt.toNat 1031 = 8 * p.val + f.val / 4
  rw [starts_apply, toInt_toNat_ofNat _ (by show 8 * p.val + f.val / 4 < 2147483648; omega)]
  show min (8 * p.val + f.val / 4) 1031 = 8 * p.val + f.val / 4
  omega

/-- **The reference's term is the function of the specification.** At (row, patch, output) both are the sum over the
    features of feature times weight, and the feature is the continued channel row read at the same position. -/
theorem out_eq (x : FVec Ideal S64x64x1024 .f32) (W : FVec Ideal S128x64 .f32) :
    RefTerm.out (F := Ideal) x W = Cert.Wavelet.G x W := by
  funext i
  obtain ⟨r, p, d, rfl⟩ : ∃ (r : Fin 4096) (p d : Fin 128), i = ix3 r p d := ⟨i 0, i 1, i 2, eq_ix3 i⟩
  rw [Cert.Wavelet.G_ix3, out_apply]
  unfold Cert.Wavelet.Gat
  refine Finset.sum_congr rfl fun f _ => ?_
  refine congrArg (· * W (ix2 d f)) ?_
  rw [feats_apply]
  unfold Cert.Wavelet.feat
  refine congrArg (fun w => Cert.Wavelet.padded w (8 * p.val + f.val / 4)) ?_
  funext t
  rw [stacked_apply]
  exact congrFun (row_chanArr _ x _ _) t

end Cert.ReferenceIdeal.RefRead

end
-- ==== Proof.lean ====
/-
  The certificate of the wavelet patch embedding: the kernel program and the reference program compute the same function
  at the ideal values.

  Both programs take a 64 × 64 × 1024 signal array and a 128 × 64 weight matrix. Each of the 4096 signal rows is put
  through three levels of an undecimated periodic eight-tap wavelet filter bank (dilations 1, 2, 4); the last
  approximation and the three detail rows are kept, each continued by eight copies of its last sample; 128 patches of
  sixteen samples at stride eight are cut from the four continued rows, giving sixty-four features per patch (channel
  fastest); and each patch's features are contracted with every weight row. The function is `Cert.Wavelet.G`.
  The kernel does this eight rows at a time over a grid of 512 points: rolls as lane rotations, patches as two
  shifted cuts regrouped and joined, the contraction as one matrix product into a zero accumulator. The reference rolls
  by slicing and joining, stacks the four coefficient arrays, gathers the patches by a constant table of start
  positions, and contracts with a general dot product. Both sum the same terms in the same order, so no law of the
  extended reals is needed and the precondition is never opened. The second result is the constant 64 on both sides.
  The kernel's idealization rewrote nothing, so it preserves the kernel trivially.
-/
import proofs.«153623_j3599182594828_2_alg».proof.Defs
import proofs.«153623_j3599182594828_2_alg».proof.Proof.Gen.Kernel
import proofs.«153623_j3599182594828_2_alg».proof.Proof.Gen.KernelIdeal
import proofs.«153623_j3599182594828_2_alg».proof.Proof.Gen.ReferenceIdeal
import proofs.«153623_j3599182594828_2_alg».proof.Proof.Gen.Pre_finite_inputs
import proofs.«153623_j3599182594828_2_alg».proof.Proof.KFrameBits
import proofs.«153623_j3599182594828_2_alg».proof.Proof.KFrame
import proofs.«153623_j3599182594828_2_alg».proof.Proof.KValue
import proofs.«153623_j3599182594828_2_alg».proof.Proof.KOut
import proofs.«153623_j3599182594828_2_alg».proof.Proof.RefRun
import proofs.«153623_j3599182594828_2_alg».proof.Proof.RefRead
import Idealize.ShloMosaic.Adequacy
import Idealize.ShloMosaic.Init

noncomputable section

namespace Cert.Proof

open Idealize.ShloMosaic Idealize.SL.Sem

/-- The kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference program runs and keeps its arguments: its run, the results dropped. -/
theorem frame_ri : Cert.frame_ReferenceIdeal := fun m ρ _ =>
  (θ_run Cert.ReferenceIdeal.defs _ _).mono (fun _ h c => ⟨(h c).2.2.1, (h c).2.2.2⟩) (Cert.ReferenceIdeal.RefRun.run m ρ)

/-- The idealization rewrote no operation. -/
theorem preserves : Cert.preserves_Kernel_KernelIdeal := trivial

/-- From memories agreeing on the arguments both programs end with the array `G` of the arguments and the constant 64. -/
theorem algebraic : Cert.algebraic_KernelIdeal_ReferenceIdeal := by
  intro m ρ m' ρ' _ hagree
  refine ⟨_, _, Cert.KernelIdeal.KValue.run Cert.KernelIdeal.KOut.out_apply m ρ, ?_⟩
  refine (θ_run Cert.ReferenceIdeal.defs _ _).mono (fun r h c => ?_) (Cert.ReferenceIdeal.RefRun.run m' ρ')
  obtain ⟨h1, h2, h3, h4⟩ := h c
  refine ⟨?_, h2, h3, h4⟩
  rw [h1, Cert.ReferenceIdeal.RefRead.out_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
